-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S8x2 : Shape := ⟨2, ![8, 2]⟩
abbrev S17x100000x16 : Shape := ⟨3, ![17, 100000, 16]⟩
abbrev S100000x32 : Shape := ⟨2, ![100000, 32]⟩
abbrev S8 : Shape := ⟨1, ![8]⟩
abbrev S32x64 : Shape := ⟨2, ![32, 64]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S8 : S_.BroadcastsInDim S8 (![] : Fin 0 → Fin S8.rank)
  reducesTo_S8_S_d0 : S8.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : IVec S1024 32) (main_arg1 : IVec S1024 32) (main_arg2 : IVec S8x2 32) (main_arg3 : IVec S17x100000x16 32) (main_arg4 : FVec F S100000x32 .f32) (main_arg5 : FVec F S8 .f32) (main_arg6 : FVec F S32x64 .f32) (main_arg7 : FVec F S32 .f32) : IVec S_ 1 :=
  let main_v0 : FVec F S100000x32 .f32 := Host.absf main_arg4
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S8 .f32 := Host.absf main_arg5
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S32x64 .f32 := Host.absf main_arg6
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S32 .f32 := Host.absf main_arg7
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S1024 : Shape := ⟨1, ![1024]⟩
abbrev S8x2 : Shape := ⟨2, ![8, 2]⟩
abbrev S17x100000x16 : Shape := ⟨3, ![17, 100000, 16]⟩
abbrev S100000x32 : Shape := ⟨2, ![100000, 32]⟩
abbrev S8 : Shape := ⟨1, ![8]⟩
abbrev S32x64 : Shape := ⟨2, ![32, 64]⟩
abbrev S32 : Shape := ⟨1, ![32]⟩
abbrev S1024x1 : Shape := ⟨2, ![1024, 1]⟩
abbrev S1024x8 : Shape := ⟨2, ![1024, 8]⟩
abbrev S1024x8x1 : Shape := ⟨3, ![1024, 8, 1]⟩
abbrev S8x1 : Shape := ⟨2, ![8, 1]⟩
abbrev S1x8x1 : Shape := ⟨3, ![1, 8, 1]⟩
abbrev S_ : Shape := ⟨0, ![]⟩
abbrev S1024x8x1x1 : Shape := ⟨4, ![1024, 8, 1, 1]⟩
abbrev S1024x8x1x2 : Shape := ⟨4, ![1024, 8, 1, 2]⟩
abbrev S1024x8x1x16 : Shape := ⟨4, ![1024, 8, 1, 16]⟩
abbrev S1024x8x16 : Shape := ⟨3, ![1024, 8, 16]⟩
abbrev S1024x128 : Shape := ⟨2, ![1024, 128]⟩
abbrev S1024x8x16x1 : Shape := ⟨4, ![1024, 8, 16, 1]⟩
abbrev S1024x8x16x2 : Shape := ⟨4, ![1024, 8, 16, 2]⟩
abbrev S1024x8x16x16 : Shape := ⟨4, ![1024, 8, 16, 16]⟩
abbrev S1024x8x256 : Shape := ⟨3, ![1024, 8, 256]⟩
abbrev S1024x2048 : Shape := ⟨2, ![1024, 2048]⟩
abbrev S1024x8x32 : Shape := ⟨3, ![1024, 8, 32]⟩
abbrev S1024x128x1 : Shape := ⟨3, ![1024, 128, 1]⟩
abbrev S1024x128x32 : Shape := ⟨3, ![1024, 128, 32]⟩
abbrev S1024x2048x1 : Shape := ⟨3, ![1024, 2048, 1]⟩
abbrev S1024x2048x32 : Shape := ⟨3, ![1024, 2048, 32]⟩
abbrev S32x32 : Shape := ⟨2, ![32, 32]⟩
abbrev S1x32 : Shape := ⟨2, ![1, 32]⟩
abbrev S1024x8x16x32 : Shape := ⟨4, ![1024, 8, 16, 32]⟩
abbrev S256x8x32 : Shape := ⟨3, ![256, 8, 32]⟩
abbrev S256x8x16x32 : Shape := ⟨4, ![256, 8, 16, 32]⟩
abbrev S256x8 : Shape := ⟨2, ![256, 8]⟩
abbrev S256x8x1 : Shape := ⟨3, ![256, 8, 1]⟩
abbrev S256x8x16 : Shape := ⟨3, ![256, 8, 16]⟩
abbrev S256x8x16x1 : Shape := ⟨4, ![256, 8, 16, 1]⟩
abbrev S2048x32 : Shape := ⟨2, ![2048, 32]⟩
abbrev S1024x128x16x32 : Shape := ⟨4, ![1024, 128, 16, 32]⟩
abbrev S16x128x32 : Shape := ⟨3, ![16, 128, 32]⟩
abbrev S16x128x16x32 : Shape := ⟨4, ![16, 128, 16, 32]⟩
abbrev S16x128 : Shape := ⟨2, ![16, 128]⟩
abbrev S16x128x1 : Shape := ⟨3, ![16, 128, 1]⟩
abbrev S16x128x16 : Shape := ⟨3, ![16, 128, 16]⟩
abbrev S16x128x16x1 : Shape := ⟨4, ![16, 128, 16, 1]⟩
abbrev S1024x32 : Shape := ⟨2, ![1024, 32]⟩

abbrev nBuf : Space → Nat
  | .hbm => 151
  | .vmem => 27
  | .smem => 0
  | _ => 0

abbrev hbmTy0_0 (i : Nat) : BufTy := match i % 128 with
  | 0 => ⟨S1024, .i32⟩
  | 1 => ⟨S1024, .i32⟩
  | 2 => ⟨S8x2, .i32⟩
  | 3 => ⟨S17x100000x16, .i32⟩
  | 4 => ⟨S100000x32, .f32⟩
  | 5 => ⟨S8, .f32⟩
  | 6 => ⟨S32x64, .f32⟩
  | 7 => ⟨S32, .f32⟩
  | 8 => ⟨S1024x1, .i32⟩
  | 9 => ⟨S1024x8, .i32⟩
  | 10 => ⟨S1024x8x1, .i32⟩
  | 11 => ⟨S1024x8, .i32⟩
  | 12 => ⟨S8x1, .i32⟩
  | 13 => ⟨S8, .i32⟩
  | 14 => ⟨S1x8x1, .i32⟩
  | 15 => ⟨S_, .i32⟩
  | 16 => ⟨S1x8x1, .i32⟩
  | 17 => ⟨S1x8x1, .i1⟩
  | 18 => ⟨S_, .i32⟩
  | 19 => ⟨S1x8x1, .i32⟩
  | 20 => ⟨S1x8x1, .i32⟩
  | 21 => ⟨S1x8x1, .i32⟩
  | 22 => ⟨S_, .i32⟩
  | 23 => ⟨S1024x8x1, .i32⟩
  | 24 => ⟨S1024x8x1, .i1⟩
  | 25 => ⟨S_, .i32⟩
  | 26 => ⟨S1024x8x1, .i32⟩
  | 27 => ⟨S1024x8x1, .i32⟩
  | 28 => ⟨S1024x8x1, .i32⟩
  | 29 => ⟨S1024x8x1, .i32⟩
  | 30 => ⟨S1024x8x1x1, .i32⟩
  | 31 => ⟨S1024x8x1x1, .i32⟩
  | 32 => ⟨S1024x8x1x2, .i32⟩
  | 33 => ⟨S1024x8x1x16, .i32⟩
  | 34 => ⟨S1024x8x16, .i32⟩
  | 35 => ⟨S1024x128, .i32⟩
  | 36 => ⟨S8x1, .i32⟩
  | 37 => ⟨S8, .i32⟩
  | 38 => ⟨S1x8x1, .i32⟩
  | 39 => ⟨S_, .i32⟩
  | 40 => ⟨S1x8x1, .i32⟩
  | 41 => ⟨S1x8x1, .i1⟩
  | 42 => ⟨S_, .i32⟩
  | 43 => ⟨S1x8x1, .i32⟩
  | 44 => ⟨S1x8x1, .i32⟩
  | 45 => ⟨S1x8x1, .i32⟩
  | 46 => ⟨S_, .i32⟩
  | 47 => ⟨S1024x8x16, .i32⟩
  | 48 => ⟨S1024x8x16, .i1⟩
  | 49 => ⟨S_, .i32⟩
  | 50 => ⟨S1024x8x16, .i32⟩
  | 51 => ⟨S1024x8x16, .i32⟩
  | 52 => ⟨S1024x8x16, .i32⟩
  | 53 => ⟨S1024x8x16, .i32⟩
  | 54 => ⟨S1024x8x16x1, .i32⟩
  | 55 => ⟨S1024x8x16x1, .i32⟩
  | 56 => ⟨S1024x8x16x2, .i32⟩
  | 57 => ⟨S1024x8x16x16, .i32⟩
  | 58 => ⟨S1024x8x256, .i32⟩
  | 59 => ⟨S1024x2048, .i32⟩
  | 60 => ⟨S_, .i32⟩
  | 61 => ⟨S1024x8, .i32⟩
  | 62 => ⟨S1024x8, .i1⟩
  | 63 => ⟨S_, .i32⟩
  | 64 => ⟨S1024x8, .i32⟩
  | 65 => ⟨S1024x8, .i32⟩
  | 66 => ⟨S1024x8, .i32⟩
  | 67 => ⟨S1024x8x1, .i32⟩
  | 68 => ⟨S1024x8x32, .f32⟩
  | 69 => ⟨S_, .i32⟩
  | 70 => ⟨S1024x128, .i32⟩
  | 71 => ⟨S1024x128, .i1⟩
  | 72 => ⟨S_, .i32⟩
  | 73 => ⟨S1024x128, .i32⟩
  | 74 => ⟨S1024x128, .i32⟩
  | 75 => ⟨S1024x128, .i32⟩
  | 76 => ⟨S1024x128x1, .i32⟩
  | 77 => ⟨S1024x128x32, .f32⟩
  | 78 => ⟨S_, .i32⟩
  | 79 => ⟨S1024x2048, .i32⟩
  | 80 => ⟨S1024x2048, .i1⟩
  | 81 => ⟨S_, .i32⟩
  | 82 => ⟨S1024x2048, .i32⟩
  | 83 => ⟨S1024x2048, .i32⟩
  | 84 => ⟨S1024x2048, .i32⟩
  | 85 => ⟨S1024x2048x1, .i32⟩
  | 86 => ⟨S1024x2048x32, .f32⟩
  | 87 => ⟨S32x32, .f32⟩
  | 88 => ⟨S32x32, .f32⟩
  | 89 => ⟨S32x32, .f32⟩
  | 90 => ⟨S32x32, .f32⟩
  | 91 => ⟨S1x32, .f32⟩
  | 92 => ⟨S1024x8x16x32, .f32⟩
  | 93 => ⟨S1024x8x32, .f32⟩
  | 94 => ⟨S1024x128x16x32, .f32⟩
  | 95 => ⟨S1024x128x32, .f32⟩
  | 96 => ⟨S1024x8x16x32, .f32⟩
  | 97 => ⟨S1024x8x32, .f32⟩
  | 98 => ⟨S8, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S8, .f32⟩
  | 109 => ⟨S8, .f32⟩
  | 110 => ⟨S1x8x1, .f32⟩
  | 111 => ⟨S1024x8x32, .f32⟩
  | 112 => ⟨S1024x8x32, .f32⟩
  | 113 => ⟨S_, .f32⟩
  | 114 => ⟨S1024x32, .f32⟩
  | 115 => ⟨S_, .i32⟩
  | 116 => ⟨S1024, .i32⟩
  | 117 => ⟨S1024, .i1⟩
  | 118 => ⟨S_, .i32⟩
  | 119 => ⟨S1024, .i32⟩
  | 120 => ⟨S1024, .i32⟩
  | 121 => ⟨S1024, .i32⟩
  | 122 => ⟨S1024x1, .i32⟩
  | 123 => ⟨S1024x32, .f32⟩
  | 124 => ⟨S1024x32, .f32⟩
  | 125 => ⟨S_, .f32⟩
  | 126 => ⟨S1024, .f32⟩
  | 127 => ⟨S1024x1, .f32⟩
  | _ => ⟨S1024, .i32⟩

abbrev hbmTy0_1 (i : Nat) : BufTy := match i % 128 with
  | 0 => ⟨S1024x1, .f32⟩
  | 1 => ⟨S_, .f32⟩
  | 2 => ⟨S1024x1, .f32⟩
  | 3 => ⟨S1024x1, .f32⟩
  | 4 => ⟨S_, .f32⟩
  | 5 => ⟨S1024x1, .f32⟩
  | 6 => ⟨S1024x1, .f32⟩
  | 7 => ⟨S_, .f32⟩
  | 8 => ⟨S1024x1, .f32⟩
  | 9 => ⟨S1024x1, .f32⟩
  | 10 => ⟨S1024x32, .f32⟩
  | 11 => ⟨S1024x32, .f32⟩
  | 12 => ⟨S1024x32, .f32⟩
  | 13 => ⟨S_, .f32⟩
  | 14 => ⟨S1024, .f32⟩
  | 15 => ⟨S1024, .f32⟩
  | 16 => ⟨S1024, .f32⟩
  | 17 => ⟨S_, .f32⟩
  | 18 => ⟨S1024, .f32⟩
  | 19 => ⟨S1024, .f32⟩
  | 20 => ⟨S_, .f32⟩
  | 21 => ⟨S1024, .f32⟩
  | 22 => ⟨S1024, .f32⟩
  | _ => ⟨S1024, .i32⟩

abbrev hbmTy (i : Nat) : BufTy := match i / 128 with
  | 0 => hbmTy0_0 i
  | 1 => hbmTy0_1 i
  | _ => ⟨S1024, .i32⟩

abbrev bufTy : (tb : Table) → Fin (tcTables nBuf tb) → BufTy
  | .hbm, ⟨i, _⟩ => hbmTy i
  | .local _ .vmem, ⟨0, _⟩ => ⟨S256x8x32, .f32⟩
  | .local _ .vmem, ⟨1, _⟩ => ⟨S256x8x32, .f32⟩
  | .local _ .vmem, ⟨2, _⟩ => ⟨S256x8x16x32, .f32⟩
  | .local _ .vmem, ⟨3, _⟩ => ⟨S256x8x16x32, .f32⟩
  | .local _ .vmem, ⟨4, _⟩ => ⟨S32x32, .f32⟩
  | .local _ .vmem, ⟨5, _⟩ => ⟨S32x32, .f32⟩
  | .local _ .vmem, ⟨6, _⟩ => ⟨S1x32, .f32⟩
  | .local _ .vmem, ⟨7, _⟩ => ⟨S256x8x32, .f32⟩
  | .local _ .vmem, ⟨8, _⟩ => ⟨S256x8x32, .f32⟩
  | .local _ .vmem, ⟨9, _⟩ => ⟨S16x128x32, .f32⟩
  | .local _ .vmem, ⟨10, _⟩ => ⟨S16x128x32, .f32⟩
  | .local _ .vmem, ⟨11, _⟩ => ⟨S16x128x16x32, .f32⟩
  | .local _ .vmem, ⟨12, _⟩ => ⟨S16x128x16x32, .f32⟩
  | .local _ .vmem, ⟨13, _⟩ => ⟨S32x32, .f32⟩
  | .local _ .vmem, ⟨14, _⟩ => ⟨S32x32, .f32⟩
  | .local _ .vmem, ⟨15, _⟩ => ⟨S1x32, .f32⟩
  | .local _ .vmem, ⟨16, _⟩ => ⟨S16x128x32, .f32⟩
  | .local _ .vmem, ⟨17, _⟩ => ⟨S16x128x32, .f32⟩
  | .local _ .vmem, ⟨18, _⟩ => ⟨S256x8x32, .f32⟩
  | .local _ .vmem, ⟨19, _⟩ => ⟨S256x8x32, .f32⟩
  | .local _ .vmem, ⟨20, _⟩ => ⟨S256x8x16x32, .f32⟩
  | .local _ .vmem, ⟨21, _⟩ => ⟨S256x8x16x32, .f32⟩
  | .local _ .vmem, ⟨22, _⟩ => ⟨S32x32, .f32⟩
  | .local _ .vmem, ⟨23, _⟩ => ⟨S32x32, .f32⟩
  | .local _ .vmem, ⟨24, _⟩ => ⟨S1x32, .f32⟩
  | .local _ .vmem, ⟨25, _⟩ => ⟨S256x8x32, .f32⟩
  | .local _ .vmem, ⟨26, _⟩ => ⟨S256x8x32, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_7 : Ref sig .tc := ⟨.hbm, 60, rfl⟩
abbrev main_v44 : Ref sig .tc := ⟨.hbm, 61, rfl⟩
abbrev main_v45 : Ref sig .tc := ⟨.hbm, 62, rfl⟩
abbrev main_c_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_9 : Ref sig .tc := ⟨.hbm, 69, rfl⟩
abbrev main_v51 : Ref sig .tc := ⟨.hbm, 70, rfl⟩
abbrev main_v52 : Ref sig .tc := ⟨.hbm, 71, rfl⟩
abbrev main_c_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_11 : Ref sig .tc := ⟨.hbm, 78, rfl⟩
abbrev main_v58 : Ref sig .tc := ⟨.hbm, 79, rfl⟩
abbrev main_v59 : Ref sig .tc := ⟨.hbm, 80, rfl⟩
abbrev main_c_12 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_call0_v0 : Ref sig .tc := ⟨.hbm, 98, rfl⟩
abbrev main_call0_cst : Ref sig .tc := ⟨.hbm, 99, rfl⟩
abbrev main_call0_v1 : Ref sig .tc := ⟨.hbm, 100, rfl⟩
abbrev main_v76 : Ref sig .tc := ⟨.hbm, 101, rfl⟩
abbrev main_cst : Ref sig .tc := ⟨.hbm, 102, rfl⟩
abbrev main_v77 : Ref sig .tc := ⟨.hbm, 103, rfl⟩
abbrev main_cst_13 : Ref sig .tc := ⟨.hbm, 104, rfl⟩
abbrev main_v78 : Ref sig .tc := ⟨.hbm, 105, rfl⟩
abbrev main_cst_14 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_15 : Ref sig .tc := ⟨.hbm, 113, rfl⟩
abbrev main_v85 : Ref sig .tc := ⟨.hbm, 114, rfl⟩
abbrev main_c_16 : Ref sig .tc := ⟨.hbm, 115, rfl⟩
abbrev main_v86 : Ref sig .tc := ⟨.hbm, 116, rfl⟩
abbrev main_v87 : Ref sig .tc := ⟨.hbm, 117, rfl⟩
abbrev main_c_17 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_call1_v0 : Ref sig .tc := ⟨.hbm, 124, rfl⟩
abbrev main_call1_cst : Ref sig .tc := ⟨.hbm, 125, rfl⟩
abbrev main_call1_v1 : Ref sig .tc := ⟨.hbm, 126, rfl⟩
abbrev main_call1_v2 : Ref sig .tc := ⟨.hbm, 127, rfl⟩
abbrev main_v93 : Ref sig .tc := ⟨.hbm, 128, rfl⟩
abbrev main_cst_18 : Ref sig .tc := ⟨.hbm, 129, rfl⟩
abbrev main_v94 : Ref sig .tc := ⟨.hbm, 130, rfl⟩
abbrev main_v95 : Ref sig .tc := ⟨.hbm, 131, rfl⟩
abbrev main_cst_19 : Ref sig .tc := ⟨.hbm, 132, rfl⟩
abbrev main_v96 : Ref sig .tc := ⟨.hbm, 133, rfl⟩
abbrev main_v97 : Ref sig .tc := ⟨.hbm, 134, rfl⟩
abbrev main_cst_20 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_21 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_22 : Ref sig .tc := ⟨.hbm, 145, rfl⟩
abbrev main_v106 : Ref sig .tc := ⟨.hbm, 146, rfl⟩
abbrev main_v107 : Ref sig .tc := ⟨.hbm, 147, rfl⟩
abbrev main_cst_23 : Ref sig .tc := ⟨.hbm, 148, rfl⟩
abbrev main_v108 : Ref sig .tc := ⟨.hbm, 149, rfl⟩
abbrev main_v109 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8x16x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x8x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x128x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x128x16x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S16x128x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S256x8x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x8x16x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x8x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S1024_S1024x1_0 : S1024.BroadcastsInDim S1024x1 (![0] : Fin 1 → Fin S1024x1.rank)
  bcast_S1024x1_S1024x8_0_1 : S1024x1.BroadcastsInDim S1024x8 (![0, 1] : Fin 2 → Fin S1024x8.rank)
  shapeCasts_S1024x8_S1024x8x1 : S1024x8.ShapeCasts S1024x8x1
  shapeCasts_S1024x8x1_S1024x8 : S1024x8x1.ShapeCasts S1024x8
  slices_S8x2_S8x1_0_0 : S8x2.Slices ![0, 0] S8x1
  shapeCasts_S8x1_S8 : S8x1.ShapeCasts S8
  bcast_S8_S1x8x1_1 : S8.BroadcastsInDim S1x8x1 (![1] : Fin 1 → Fin S1x8x1.rank)
  bcast_S_S1x8x1 : S_.BroadcastsInDim S1x8x1 (![] : Fin 0 → Fin S1x8x1.rank)
  bcast_S_S1024x8x1 : S_.BroadcastsInDim S1024x8x1 (![] : Fin 0 → Fin S1024x8x1.rank)
  bcast_S1x8x1_S1024x8x1_0_1_2 : S1x8x1.BroadcastsInDim S1024x8x1 (![0, 1, 2] : Fin 3 → Fin S1024x8x1.rank)
  bcast_S1024x8x1_S1024x8x1x1_0_1_2 : S1024x8x1.BroadcastsInDim S1024x8x1x1 (![0, 1, 2] : Fin 3 → Fin S1024x8x1x1.rank)
  concatenates_S1024x8x1x1_S1024x8x1x1_S1024x8x1x2_d3 : Shape.Concatenates [S1024x8x1x1, S1024x8x1x1] S1024x8x1x2 3
  shapeCasts_S1024x8x1x16_S1024x8x16 : S1024x8x1x16.ShapeCasts S1024x8x16
  shapeCasts_S1024x8x16_S1024x128 : S1024x8x16.ShapeCasts S1024x128
  slices_S8x2_S8x1_0_1 : S8x2.Slices ![0, 1] S8x1
  bcast_S_S1024x8x16 : S_.BroadcastsInDim S1024x8x16 (![] : Fin 0 → Fin S1024x8x16.rank)
  bcast_S1x8x1_S1024x8x16_0_1_2 : S1x8x1.BroadcastsInDim S1024x8x16 (![0, 1, 2] : Fin 3 → Fin S1024x8x16.rank)
  bcast_S1024x8x16_S1024x8x16x1_0_1_2 : S1024x8x16.BroadcastsInDim S1024x8x16x1 (![0, 1, 2] : Fin 3 → Fin S1024x8x16x1.rank)
  concatenates_S1024x8x16x1_S1024x8x16x1_S1024x8x16x2_d3 : Shape.Concatenates [S1024x8x16x1, S1024x8x16x1] S1024x8x16x2 3
  shapeCasts_S1024x8x16x16_S1024x8x256 : S1024x8x16x16.ShapeCasts S1024x8x256
  shapeCasts_S1024x8x256_S1024x2048 : S1024x8x256.ShapeCasts S1024x2048
  bcast_S_S1024x8 : S_.BroadcastsInDim S1024x8 (![] : Fin 0 → Fin S1024x8.rank)
  bcast_S1024x8_S1024x8x1_0_1 : S1024x8.BroadcastsInDim S1024x8x1 (![0, 1] : Fin 2 → Fin S1024x8x1.rank)
  bcast_S_S1024x128 : S_.BroadcastsInDim S1024x128 (![] : Fin 0 → Fin S1024x128.rank)
  bcast_S1024x128_S1024x128x1_0_1 : S1024x128.BroadcastsInDim S1024x128x1 (![0, 1] : Fin 2 → Fin S1024x128x1.rank)
  bcast_S_S1024x2048 : S_.BroadcastsInDim S1024x2048 (![] : Fin 0 → Fin S1024x2048.rank)
  bcast_S1024x2048_S1024x2048x1_0_1 : S1024x2048.BroadcastsInDim S1024x2048x1 (![0, 1] : Fin 2 → Fin S1024x2048x1.rank)
  slices_S32x64_S32x32_0_0 : S32x64.Slices ![0, 0] S32x32
  transposes_S32x32_S32x32_1_0 : S32x32.Transposes [1, 0] S32x32
  slices_S32x64_S32x32_0_32 : S32x64.Slices ![0, 32] S32x32
  shapeCasts_S32_S1x32 : S32.ShapeCasts S1x32
  shapeCasts_S1024x128x32_S1024x8x16x32 : S1024x128x32.ShapeCasts S1024x8x16x32
  inb_S256x8x32_S256x8x32_0_0_0 : ∀ a, (![0, 0, 0] : Fin 3 → Nat) a + S256x8x32.size a ≤ S256x8x32.size a
  h_S256x8x32 : 0 < S256x8x32.numel
  shapeCasts_S256x8x32_S256x8x32 : S256x8x32.ShapeCasts S256x8x32
  inb_S256x8x16x32_S256x8x16x32_0_0_0_0 : ∀ a, (![0, 0, 0, 0] : Fin 4 → Nat) a + S256x8x16x32.size a ≤ S256x8x16x32.size a
  h_S256x8x16x32 : 0 < S256x8x16x32.numel
  shapeCasts_S256x8x16x32_S256x8x16x32 : S256x8x16x32.ShapeCasts S256x8x16x32
  reduces_S256x8x32_S256x8 : S256x8x32.Reduces [2] S256x8
  shapeCasts_S256x8_S256x8x1 : S256x8.ShapeCasts S256x8x1
  broadcasts_S256x8x1_S256x8x32 : S256x8x1.Broadcasts S256x8x32
  reduces_S256x8x16x32_S256x8x16 : S256x8x16x32.Reduces [3] S256x8x16
  shapeCasts_S256x8x16_S256x8x16x1 : S256x8x16.ShapeCasts S256x8x16x1
  broadcasts_S256x8x16x1_S256x8x16x32 : S256x8x16x1.Broadcasts S256x8x16x32
  reduces_S256x8x16x32_S256x8x32 : S256x8x16x32.Reduces [2] S256x8x32
  shapeCasts_S256x8x32_S2048x32 : S256x8x32.ShapeCasts S2048x32
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  shapeCasts_S2048x32_S256x8x32 : S2048x32.ShapeCasts S256x8x32
  shapeCasts_S1024x2048x32_S1024x128x16x32 : S1024x2048x32.ShapeCasts S1024x128x16x32
  inb_S16x128x32_S16x128x32_0_0_0 : ∀ a, (![0, 0, 0] : Fin 3 → Nat) a + S16x128x32.size a ≤ S16x128x32.size a
  h_S16x128x32 : 0 < S16x128x32.numel
  shapeCasts_S16x128x32_S16x128x32 : S16x128x32.ShapeCasts S16x128x32
  inb_S16x128x16x32_S16x128x16x32_0_0_0_0 : ∀ a, (![0, 0, 0, 0] : Fin 4 → Nat) a + S16x128x16x32.size a ≤ S16x128x16x32.size a
  h_S16x128x16x32 : 0 < S16x128x16x32.numel
  shapeCasts_S16x128x16x32_S16x128x16x32 : S16x128x16x32.ShapeCasts S16x128x16x32
  reduces_S16x128x32_S16x128 : S16x128x32.Reduces [2] S16x128
  shapeCasts_S16x128_S16x128x1 : S16x128.ShapeCasts S16x128x1
  broadcasts_S16x128x1_S16x128x32 : S16x128x1.Broadcasts S16x128x32
  reduces_S16x128x16x32_S16x128x16 : S16x128x16x32.Reduces [3] S16x128x16
  shapeCasts_S16x128x16_S16x128x16x1 : S16x128x16.ShapeCasts S16x128x16x1
  broadcasts_S16x128x16x1_S16x128x16x32 : S16x128x16x1.Broadcasts S16x128x16x32
  reduces_S16x128x16x32_S16x128x32 : S16x128x16x32.Reduces [2] S16x128x32
  shapeCasts_S16x128x32_S2048x32 : S16x128x32.ShapeCasts S2048x32
  shapeCasts_S2048x32_S16x128x32 : S2048x32.ShapeCasts S16x128x32
  reducesTo_S8_S_d0 : S8.ReducesTo [0] S_
  h_S_ : 0 < S_.numel
  bcast_S_S8 : S_.BroadcastsInDim S8 (![] : Fin 0 → Fin S8.rank)
  bcast_S1x8x1_S1024x8x32_0_1_2 : S1x8x1.BroadcastsInDim S1024x8x32 (![0, 1, 2] : Fin 3 → Fin S1024x8x32.rank)
  reducesTo_S1024x8x32_S1024x32_d1 : S1024x8x32.ReducesTo [1] S1024x32
  bcast_S_S1024 : S_.BroadcastsInDim S1024 (![] : Fin 0 → Fin S1024.rank)
  reducesTo_S1024x32_S1024_d1 : S1024x32.ReducesTo [1] S1024
  bcast_S_S1024x1 : S_.BroadcastsInDim S1024x1 (![] : Fin 0 → Fin S1024x1.rank)
  bcast_S1024x1_S1024x32_0_1 : S1024x1.BroadcastsInDim S1024x32 (![0, 1] : Fin 2 → Fin S1024x32.rank)
  gather_S17x100000x16_S1024x8x1x2_S1024x8x1x16_3_01_n_n_01_3_1116_wf : GatherDims.WF S17x100000x16 S1024x8x1x2 S1024x8x1x16 [3] [0, 1] [] [0, 1] [] 3 ![1, 1, 16]
  gather_S17x100000x16_S1024x8x16x2_S1024x8x16x16_3_01_n_n_01_3_1116_wf : GatherDims.WF S17x100000x16 S1024x8x16x2 S1024x8x16x16 [3] [0, 1] [] [0, 1] [] 3 ![1, 1, 16]
  gather_S100000x32_S1024x8x1_S1024x8x32_2_0_n_n_0_2_132_wf : GatherDims.WF S100000x32 S1024x8x1 S1024x8x32 [2] [0] [] [0] [] 2 ![1, 32]
  gather_S100000x32_S1024x128x1_S1024x128x32_2_0_n_n_0_2_132_wf : GatherDims.WF S100000x32 S1024x128x1 S1024x128x32 [2] [0] [] [0] [] 2 ![1, 32]
  gather_S100000x32_S1024x2048x1_S1024x2048x32_2_0_n_n_0_2_132_wf : GatherDims.WF S100000x32 S1024x2048x1 S1024x2048x32 [2] [0] [] [0] [] 2 ![1, 32]
  dot_S2048x32_S32x32_S2048x32_1_0_0_1_n_n_wf : DotDims.WF S2048x32 S32x32 S2048x32 [1] [0] [0] [1] [] []
  gather_S100000x32_S1024x1_S1024x32_1_0_n_n_0_1_132_wf : GatherDims.WF S100000x32 S1024x1 S1024x32 [1] [0] [] [0] [] 1 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8x32.size a ≤ S1024x8x32.size a
  hwx0_0 : ∀ i : grid0.Coords, EltTy.bits .f32 = 32 ∨ (Rect.block (s := S1024x8x32) S256x8x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8x16x32.size a ≤ S1024x8x16x32.size a
  hwx0_1 : ∀ i : grid0.Coords, EltTy.bits .f32 = 32 ∨ (Rect.block (s := S1024x8x16x32) S256x8x16x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x8x32.size a ≤ S1024x8x32.size a
  hwx0_5 : ∀ i : grid0.Coords, EltTy.bits .f32 = 32 ∨ (Rect.block (s := S1024x8x32) S256x8x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x128x32.size a ≤ S1024x128x32.size a
  hwx1_0 : ∀ i : grid1.Coords, EltTy.bits .f32 = 32 ∨ (Rect.block (s := S1024x128x32) S16x128x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x128x16x32.size a ≤ S1024x128x16x32.size a
  hwx1_1 : ∀ i : grid1.Coords, EltTy.bits .f32 = 32 ∨ (Rect.block (s := S1024x128x16x32) S16x128x16x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S16x128x32.size a ≤ S1024x128x32.size a
  hwx1_5 : ∀ i : grid1.Coords, EltTy.bits .f32 = 32 ∨ (Rect.block (s := S1024x128x32) S16x128x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x8x32.size a ≤ S1024x8x32.size a
  hwx2_0 : ∀ i : grid2.Coords, EltTy.bits .f32 = 32 ∨ (Rect.block (s := S1024x8x32) S256x8x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x8x16x32.size a ≤ S1024x8x16x32.size a
  hwx2_1 : ∀ i : grid2.Coords, EltTy.bits .f32 = 32 ∨ (Rect.block (s := S1024x8x16x32) S256x8x16x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x8x32.size a ≤ S1024x8x32.size a
  hwx2_5 : ∀ i : grid2.Coords, EltTy.bits .f32 = 32 ∨ (Rect.block (s := S1024x8x32) S256x8x32.size (cc2_transform_5 i) (hinb2_5 i)).WholeWords (EltTy.packing .f32)

variable [Facts₀]

def gather_S17x100000x16_S1024x8x1x2_S1024x8x1x16_3_01_n_n_01_3_1116 : GatherDims S17x100000x16 S1024x8x1x2 S1024x8x1x16 where
  offsetDims := [3]
  collapsedSliceDims := [0, 1]
  operandBatchingDims := []
  startIndicesBatchingDims := []
  startIndexMap := [0, 1]
  indexVectorDim := 3
  sliceSizes := ![1, 1, 16]
  wf := gather_S17x100000x16_S1024x8x1x2_S1024x8x1x16_3_01_n_n_01_3_1116_wf
def gather_S17x100000x16_S1024x8x16x2_S1024x8x16x16_3_01_n_n_01_3_1116 : GatherDims S17x100000x16 S1024x8x16x2 S1024x8x16x16 where
  offsetDims := [3]
  collapsedSliceDims := [0, 1]
  operandBatchingDims := []
  startIndicesBatchingDims := []
  startIndexMap := [0, 1]
  indexVectorDim := 3
  sliceSizes := ![1, 1, 16]
  wf := gather_S17x100000x16_S1024x8x16x2_S1024x8x16x16_3_01_n_n_01_3_1116_wf
def gather_S100000x32_S1024x8x1_S1024x8x32_2_0_n_n_0_2_132 : GatherDims S100000x32 S1024x8x1 S1024x8x32 where
  offsetDims := [2]
  collapsedSliceDims := [0]
  operandBatchingDims := []
  startIndicesBatchingDims := []
  startIndexMap := [0]
  indexVectorDim := 2
  sliceSizes := ![1, 32]
  wf := gather_S100000x32_S1024x8x1_S1024x8x32_2_0_n_n_0_2_132_wf
def gather_S100000x32_S1024x128x1_S1024x128x32_2_0_n_n_0_2_132 : GatherDims S100000x32 S1024x128x1 S1024x128x32 where
  offsetDims := [2]
  collapsedSliceDims := [0]
  operandBatchingDims := []
  startIndicesBatchingDims := []
  startIndexMap := [0]
  indexVectorDim := 2
  sliceSizes := ![1, 32]
  wf := gather_S100000x32_S1024x128x1_S1024x128x32_2_0_n_n_0_2_132_wf
def gather_S100000x32_S1024x2048x1_S1024x2048x32_2_0_n_n_0_2_132 : GatherDims S100000x32 S1024x2048x1 S1024x2048x32 where
  offsetDims := [2]
  collapsedSliceDims := [0]
  operandBatchingDims := []
  startIndicesBatchingDims := []
  startIndexMap := [0]
  indexVectorDim := 2
  sliceSizes := ![1, 32]
  wf := gather_S100000x32_S1024x2048x1_S1024x2048x32_2_0_n_n_0_2_132_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def gather_S100000x32_S1024x1_S1024x32_1_0_n_n_0_1_132 : GatherDims S100000x32 S1024x1 S1024x32 where
  offsetDims := [1]
  collapsedSliceDims := [0]
  operandBatchingDims := []
  startIndicesBatchingDims := []
  startIndexMap := [0]
  indexVectorDim := 1
  sliceSizes := ![1, 32]
  wf := gather_S100000x32_S1024x1_S1024x32_1_0_n_n_0_1_132_wf

abbrev win0_0 : Pipeline.Window sig grid0 :=
  Pipeline.Window.ofSpec (Memref.whole main_v50) S256x8x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v70) S256x8x16x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v66) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v68) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v69) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v71) S256x8x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v57) S16x128x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v72) S16x128x16x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v66) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v68) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v69) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v73) S16x128x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v71) S256x8x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v74) S256x8x16x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v66) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v75) S256x8x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S1024 : Shape := ⟨1, ![1024]⟩
abbrev S8x2 : Shape := ⟨2, ![8, 2]⟩
abbrev S17x100000x16 : Shape := ⟨3, ![17, 100000, 16]⟩
abbrev S100000x32 : Shape := ⟨2, ![100000, 32]⟩
abbrev S8 : Shape := ⟨1, ![8]⟩
abbrev S32x64 : Shape := ⟨2, ![32, 64]⟩
abbrev S32 : Shape := ⟨1, ![32]⟩
abbrev S1024x1 : Shape := ⟨2, ![1024, 1]⟩
abbrev S1024x8 : Shape := ⟨2, ![1024, 8]⟩
abbrev S1024x8x1 : Shape := ⟨3, ![1024, 8, 1]⟩
abbrev S8x1 : Shape := ⟨2, ![8, 1]⟩
abbrev S1x8x1 : Shape := ⟨3, ![1, 8, 1]⟩
abbrev S_ : Shape := ⟨0, ![]⟩
abbrev S1024x8x1x1 : Shape := ⟨4, ![1024, 8, 1, 1]⟩
abbrev S1024x8x1x2 : Shape := ⟨4, ![1024, 8, 1, 2]⟩
abbrev S1024x8x1x16 : Shape := ⟨4, ![1024, 8, 1, 16]⟩
abbrev S1024x8x16 : Shape := ⟨3, ![1024, 8, 16]⟩
abbrev S1024x128 : Shape := ⟨2, ![1024, 128]⟩
abbrev S1024x8x16x1 : Shape := ⟨4, ![1024, 8, 16, 1]⟩
abbrev S1024x8x16x2 : Shape := ⟨4, ![1024, 8, 16, 2]⟩
abbrev S1024x8x16x16 : Shape := ⟨4, ![1024, 8, 16, 16]⟩
abbrev S1024x8x256 : Shape := ⟨3, ![1024, 8, 256]⟩
abbrev S1024x2048 : Shape := ⟨2, ![1024, 2048]⟩
abbrev S1024x8x32 : Shape := ⟨3, ![1024, 8, 32]⟩
abbrev S1024x128x1 : Shape := ⟨3, ![1024, 128, 1]⟩
abbrev S1024x128x32 : Shape := ⟨3, ![1024, 128, 32]⟩
abbrev S1024x2048x1 : Shape := ⟨3, ![1024, 2048, 1]⟩
abbrev S1024x2048x32 : Shape := ⟨3, ![1024, 2048, 32]⟩
abbrev S1024x8x16x32 : Shape := ⟨4, ![1024, 8, 16, 32]⟩
abbrev S1024x8x64 : Shape := ⟨3, ![1024, 8, 64]⟩
abbrev S1x1x32 : Shape := ⟨3, ![1, 1, 32]⟩
abbrev S1024x128x16x32 : Shape := ⟨4, ![1024, 128, 16, 32]⟩
abbrev S1024x128x64 : Shape := ⟨3, ![1024, 128, 64]⟩
abbrev S1x8 : Shape := ⟨2, ![1, 8]⟩
abbrev S1 : Shape := ⟨1, ![1]⟩
abbrev S1x1 : Shape := ⟨2, ![1, 1]⟩
abbrev S1024x32 : Shape := ⟨2, ![1024, 32]⟩

abbrev nBuf : Space → Nat
  | .hbm => 234
  | .vmem => 0
  | .smem => 0
  | _ => 0

abbrev hbmTy0_0 (i : Nat) : BufTy := match i % 128 with
  | 0 => ⟨S1024, .i32⟩
  | 1 => ⟨S1024, .i32⟩
  | 2 => ⟨S8x2, .i32⟩
  | 3 => ⟨S17x100000x16, .i32⟩
  | 4 => ⟨S100000x32, .f32⟩
  | 5 => ⟨S8, .f32⟩
  | 6 => ⟨S32x64, .f32⟩
  | 7 => ⟨S32, .f32⟩
  | 8 => ⟨S1024x1, .i32⟩
  | 9 => ⟨S1024x8, .i32⟩
  | 10 => ⟨S1024x8x1, .i32⟩
  | 11 => ⟨S1024x8, .i32⟩
  | 12 => ⟨S8x1, .i32⟩
  | 13 => ⟨S8, .i32⟩
  | 14 => ⟨S1x8x1, .i32⟩
  | 15 => ⟨S_, .i32⟩
  | 16 => ⟨S1x8x1, .i32⟩
  | 17 => ⟨S1x8x1, .i1⟩
  | 18 => ⟨S_, .i32⟩
  | 19 => ⟨S1x8x1, .i32⟩
  | 20 => ⟨S1x8x1, .i32⟩
  | 21 => ⟨S1x8x1, .i32⟩
  | 22 => ⟨S_, .i32⟩
  | 23 => ⟨S1024x8x1, .i32⟩
  | 24 => ⟨S1024x8x1, .i1⟩
  | 25 => ⟨S_, .i32⟩
  | 26 => ⟨S1024x8x1, .i32⟩
  | 27 => ⟨S1024x8x1, .i32⟩
  | 28 => ⟨S1024x8x1, .i32⟩
  | 29 => ⟨S1024x8x1, .i32⟩
  | 30 => ⟨S1024x8x1x1, .i32⟩
  | 31 => ⟨S1024x8x1x1, .i32⟩
  | 32 => ⟨S1024x8x1x2, .i32⟩
  | 33 => ⟨S1024x8x1x16, .i32⟩
  | 34 => ⟨S1024x8x16, .i32⟩
  | 35 => ⟨S1024x128, .i32⟩
  | 36 => ⟨S8x1, .i32⟩
  | 37 => ⟨S8, .i32⟩
  | 38 => ⟨S1x8x1, .i32⟩
  | 39 => ⟨S_, .i32⟩
  | 40 => ⟨S1x8x1, .i32⟩
  | 41 => ⟨S1x8x1, .i1⟩
  | 42 => ⟨S_, .i32⟩
  | 43 => ⟨S1x8x1, .i32⟩
  | 44 => ⟨S1x8x1, .i32⟩
  | 45 => ⟨S1x8x1, .i32⟩
  | 46 => ⟨S_, .i32⟩
  | 47 => ⟨S1024x8x16, .i32⟩
  | 48 => ⟨S1024x8x16, .i1⟩
  | 49 => ⟨S_, .i32⟩
  | 50 => ⟨S1024x8x16, .i32⟩
  | 51 => ⟨S1024x8x16, .i32⟩
  | 52 => ⟨S1024x8x16, .i32⟩
  | 53 => ⟨S1024x8x16, .i32⟩
  | 54 => ⟨S1024x8x16x1, .i32⟩
  | 55 => ⟨S1024x8x16x1, .i32⟩
  | 56 => ⟨S1024x8x16x2, .i32⟩
  | 57 => ⟨S1024x8x16x16, .i32⟩
  | 58 => ⟨S1024x8x256, .i32⟩
  | 59 => ⟨S1024x2048, .i32⟩
  | 60 => ⟨S_, .i32⟩
  | 61 => ⟨S1024x8, .i32⟩
  | 62 => ⟨S1024x8, .i1⟩
  | 63 => ⟨S_, .i32⟩
  | 64 => ⟨S1024x8, .i32⟩
  | 65 => ⟨S1024x8, .i32⟩
  | 66 => ⟨S1024x8, .i32⟩
  | 67 => ⟨S1024x8x1, .i32⟩
  | 68 => ⟨S1024x8x32, .f32⟩
  | 69 => ⟨S1024x8x32, .f32⟩
  | 70 => ⟨S_, .f32⟩
  | 71 => ⟨S1024x8, .f32⟩
  | 72 => ⟨S1024x8x1, .f32⟩
  | 73 => ⟨S1024x8x1, .f32⟩
  | 74 => ⟨S_, .f32⟩
  | 75 => ⟨S1024x8x1, .f32⟩
  | 76 => ⟨S1024x8x1, .f32⟩
  | 77 => ⟨S_, .f32⟩
  | 78 => ⟨S1024x8x1, .f32⟩
  | 79 => ⟨S1024x8x1, .f32⟩
  | 80 => ⟨S_, .f32⟩
  | 81 => ⟨S1024x8x1, .f32⟩
  | 82 => ⟨S1024x8x1, .f32⟩
  | 83 => ⟨S1024x8x32, .f32⟩
  | 84 => ⟨S1024x8x32, .f32⟩
  | 85 => ⟨S_, .i32⟩
  | 86 => ⟨S1024x128, .i32⟩
  | 87 => ⟨S1024x128, .i1⟩
  | 88 => ⟨S_, .i32⟩
  | 89 => ⟨S1024x128, .i32⟩
  | 90 => ⟨S1024x128, .i32⟩
  | 91 => ⟨S1024x128, .i32⟩
  | 92 => ⟨S1024x128x1, .i32⟩
  | 93 => ⟨S1024x128x32, .f32⟩
  | 94 => ⟨S1024x128x32, .f32⟩
  | 95 => ⟨S_, .f32⟩
  | 96 => ⟨S1024x128, .f32⟩
  | 97 => ⟨S1024x128x1, .f32⟩
  | 98 => ⟨S1024x128x1, .f32⟩
  | 99 => ⟨S_, .f32⟩
  | 100 => ⟨S1024x128x1, .f32⟩
  | 101 => ⟨S1024x128x1, .f32⟩
  | 102 => ⟨S_, .f32⟩
  | 103 => ⟨S1024x128x1, .f32⟩
  | 104 => ⟨S1024x128x1, .f32⟩
  | 105 => ⟨S_, .f32⟩
  | 106 => ⟨S1024x128x1, .f32⟩
  | 107 => ⟨S1024x128x1, .f32⟩
  | 108 => ⟨S1024x128x32, .f32⟩
  | 109 => ⟨S1024x128x32, .f32⟩
  | 110 => ⟨S_, .i32⟩
  | 111 => ⟨S1024x2048, .i32⟩
  | 112 => ⟨S1024x2048, .i1⟩
  | 113 => ⟨S_, .i32⟩
  | 114 => ⟨S1024x2048, .i32⟩
  | 115 => ⟨S1024x2048, .i32⟩
  | 116 => ⟨S1024x2048, .i32⟩
  | 117 => ⟨S1024x2048x1, .i32⟩
  | 118 => ⟨S1024x2048x32, .f32⟩
  | 119 => ⟨S1024x2048x32, .f32⟩
  | 120 => ⟨S_, .f32⟩
  | 121 => ⟨S1024x2048, .f32⟩
  | 122 => ⟨S1024x2048x1, .f32⟩
  | 123 => ⟨S1024x2048x1, .f32⟩
  | 124 => ⟨S_, .f32⟩
  | 125 => ⟨S1024x2048x1, .f32⟩
  | 126 => ⟨S1024x2048x1, .f32⟩
  | 127 => ⟨S_, .f32⟩
  | _ => ⟨S1024, .i32⟩

abbrev hbmTy0_1 (i : Nat) : BufTy := match i % 128 with
  | 0 => ⟨S1024x2048x1, .f32⟩
  | 1 => ⟨S1024x2048x1, .f32⟩
  | 2 => ⟨S_, .f32⟩
  | 3 => ⟨S1024x2048x1, .f32⟩
  | 4 => ⟨S1024x2048x1, .f32⟩
  | 5 => ⟨S1024x2048x32, .f32⟩
  | 6 => ⟨S1024x2048x32, .f32⟩
  | 7 => ⟨S1024x8x16x32, .f32⟩
  | 8 => ⟨S_, .f32⟩
  | 9 => ⟨S1024x8x32, .f32⟩
  | 10 => ⟨S_, .f32⟩
  | 11 => ⟨S1024x8x32, .f32⟩
  | 12 => ⟨S1024x8x32, .f32⟩
  | 13 => ⟨S1024x8x64, .f32⟩
  | 14 => ⟨S1024x8x32, .f32⟩
  | 15 => ⟨S1x1x32, .f32⟩
  | 16 => ⟨S1024x8x32, .f32⟩
  | 17 => ⟨S1024x8x32, .f32⟩
  | 18 => ⟨S_, .f32⟩
  | 19 => ⟨S1024x8x32, .f32⟩
  | 20 => ⟨S1024x8x32, .f32⟩
  | 21 => ⟨S1024x128x16x32, .f32⟩
  | 22 => ⟨S_, .f32⟩
  | 23 => ⟨S1024x128x32, .f32⟩
  | 24 => ⟨S_, .f32⟩
  | 25 => ⟨S1024x128x32, .f32⟩
  | 26 => ⟨S1024x128x32, .f32⟩
  | 27 => ⟨S1024x128x64, .f32⟩
  | 28 => ⟨S1024x128x32, .f32⟩
  | 29 => ⟨S1x1x32, .f32⟩
  | 30 => ⟨S1024x128x32, .f32⟩
  | 31 => ⟨S1024x128x32, .f32⟩
  | 32 => ⟨S_, .f32⟩
  | 33 => ⟨S1024x128x32, .f32⟩
  | 34 => ⟨S1024x128x32, .f32⟩
  | 35 => ⟨S1024x8x16x32, .f32⟩
  | 36 => ⟨S_, .f32⟩
  | 37 => ⟨S1024x8x32, .f32⟩
  | 38 => ⟨S_, .f32⟩
  | 39 => ⟨S1024x8x32, .f32⟩
  | 40 => ⟨S1024x8x32, .f32⟩
  | 41 => ⟨S1024x8x64, .f32⟩
  | 42 => ⟨S1024x8x32, .f32⟩
  | 43 => ⟨S1x1x32, .f32⟩
  | 44 => ⟨S1024x8x32, .f32⟩
  | 45 => ⟨S1024x8x32, .f32⟩
  | 46 => ⟨S1024x8x32, .f32⟩
  | 47 => ⟨S1x8, .f32⟩
  | 48 => ⟨S1x8, .f32⟩
  | 49 => ⟨S_, .f32⟩
  | 50 => ⟨S1, .f32⟩
  | 51 => ⟨S1x1, .f32⟩
  | 52 => ⟨S1x1, .f32⟩
  | 53 => ⟨S_, .f32⟩
  | 54 => ⟨S1x1, .f32⟩
  | 55 => ⟨S1x1, .f32⟩
  | 56 => ⟨S_, .f32⟩
  | 57 => ⟨S1x1, .f32⟩
  | 58 => ⟨S1x1, .f32⟩
  | 59 => ⟨S_, .f32⟩
  | 60 => ⟨S1x1, .f32⟩
  | 61 => ⟨S1x1, .f32⟩
  | 62 => ⟨S1x8, .f32⟩
  | 63 => ⟨S1x8, .f32⟩
  | 64 => ⟨S8, .f32⟩
  | 65 => ⟨S1x8x1, .f32⟩
  | 66 => ⟨S1024x8x32, .f32⟩
  | 67 => ⟨S1024x8x32, .f32⟩
  | 68 => ⟨S_, .f32⟩
  | 69 => ⟨S1024x32, .f32⟩
  | 70 => ⟨S_, .i32⟩
  | 71 => ⟨S1024, .i32⟩
  | 72 => ⟨S1024, .i1⟩
  | 73 => ⟨S_, .i32⟩
  | 74 => ⟨S1024, .i32⟩
  | 75 => ⟨S1024, .i32⟩
  | 76 => ⟨S1024, .i32⟩
  | 77 => ⟨S1024x1, .i32⟩
  | 78 => ⟨S1024x32, .f32⟩
  | 79 => ⟨S1024x32, .f32⟩
  | 80 => ⟨S_, .f32⟩
  | 81 => ⟨S1024, .f32⟩
  | 82 => ⟨S1024x1, .f32⟩
  | 83 => ⟨S1024x1, .f32⟩
  | 84 => ⟨S_, .f32⟩
  | 85 => ⟨S1024x1, .f32⟩
  | 86 => ⟨S1024x1, .f32⟩
  | 87 => ⟨S_, .f32⟩
  | 88 => ⟨S1024x1, .f32⟩
  | 89 => ⟨S1024x1, .f32⟩
  | 90 => ⟨S_, .f32⟩
  | 91 => ⟨S1024x1, .f32⟩
  | 92 => ⟨S1024x1, .f32⟩
  | 93 => ⟨S1024x32, .f32⟩
  | 94 => ⟨S1024x32, .f32⟩
  | 95 => ⟨S1024x32, .f32⟩
  | 96 => ⟨S_, .f32⟩
  | 97 => ⟨S1024, .f32⟩
  | 98 => ⟨S1024, .f32⟩
  | 99 => ⟨S1024, .f32⟩
  | 100 => ⟨S_, .f32⟩
  | 101 => ⟨S1024, .f32⟩
  | 102 => ⟨S1024, .f32⟩
  | 103 => ⟨S_, .f32⟩
  | 104 => ⟨S1024, .f32⟩
  | 105 => ⟨S1024, .f32⟩
  | _ => ⟨S1024, .i32⟩

abbrev hbmTy (i : Nat) : BufTy := match i / 128 with
  | 0 => hbmTy0_0 i
  | 1 => hbmTy0_1 i
  | _ => ⟨S1024, .i32⟩

abbrev bufTy : (tb : Table) → Fin (tcTables nBuf tb) → BufTy
  | .hbm, ⟨i, _⟩ => hbmTy i
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_7 : Ref sig .tc := ⟨.hbm, 60, rfl⟩
abbrev main_v44 : Ref sig .tc := ⟨.hbm, 61, rfl⟩
abbrev main_v45 : Ref sig .tc := ⟨.hbm, 62, rfl⟩
abbrev main_c_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call0_v0 : Ref sig .tc := ⟨.hbm, 69, rfl⟩
abbrev main_call0_cst : Ref sig .tc := ⟨.hbm, 70, rfl⟩
abbrev main_call0_v1 : Ref sig .tc := ⟨.hbm, 71, rfl⟩
abbrev main_call0_v2 : Ref sig .tc := ⟨.hbm, 72, rfl⟩
abbrev main_v51 : Ref sig .tc := ⟨.hbm, 73, rfl⟩
abbrev main_cst : Ref sig .tc := ⟨.hbm, 74, rfl⟩
abbrev main_v52 : Ref sig .tc := ⟨.hbm, 75, rfl⟩
abbrev main_v53 : Ref sig .tc := ⟨.hbm, 76, rfl⟩
abbrev main_cst_9 : Ref sig .tc := ⟨.hbm, 77, rfl⟩
abbrev main_v54 : Ref sig .tc := ⟨.hbm, 78, rfl⟩
abbrev main_v55 : Ref sig .tc := ⟨.hbm, 79, rfl⟩
abbrev main_cst_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_11 : Ref sig .tc := ⟨.hbm, 85, rfl⟩
abbrev main_v60 : Ref sig .tc := ⟨.hbm, 86, rfl⟩
abbrev main_v61 : Ref sig .tc := ⟨.hbm, 87, rfl⟩
abbrev main_c_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call1_v0 : Ref sig .tc := ⟨.hbm, 94, rfl⟩
abbrev main_call1_cst : Ref sig .tc := ⟨.hbm, 95, rfl⟩
abbrev main_call1_v1 : Ref sig .tc := ⟨.hbm, 96, rfl⟩
abbrev main_call1_v2 : Ref sig .tc := ⟨.hbm, 97, rfl⟩
abbrev main_v67 : Ref sig .tc := ⟨.hbm, 98, rfl⟩
abbrev main_cst_13 : Ref sig .tc := ⟨.hbm, 99, rfl⟩
abbrev main_v68 : Ref sig .tc := ⟨.hbm, 100, rfl⟩
abbrev main_v69 : Ref sig .tc := ⟨.hbm, 101, rfl⟩
abbrev main_cst_14 : Ref sig .tc := ⟨.hbm, 102, rfl⟩
abbrev main_v70 : Ref sig .tc := ⟨.hbm, 103, rfl⟩
abbrev main_v71 : Ref sig .tc := ⟨.hbm, 104, rfl⟩
abbrev main_cst_15 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_16 : Ref sig .tc := ⟨.hbm, 110, rfl⟩
abbrev main_v76 : Ref sig .tc := ⟨.hbm, 111, rfl⟩
abbrev main_v77 : Ref sig .tc := ⟨.hbm, 112, rfl⟩
abbrev main_c_17 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_call2_v0 : Ref sig .tc := ⟨.hbm, 119, rfl⟩
abbrev main_call2_cst : Ref sig .tc := ⟨.hbm, 120, rfl⟩
abbrev main_call2_v1 : Ref sig .tc := ⟨.hbm, 121, rfl⟩
abbrev main_call2_v2 : Ref sig .tc := ⟨.hbm, 122, rfl⟩
abbrev main_v83 : Ref sig .tc := ⟨.hbm, 123, rfl⟩
abbrev main_cst_18 : Ref sig .tc := ⟨.hbm, 124, rfl⟩
abbrev main_v84 : Ref sig .tc := ⟨.hbm, 125, rfl⟩
abbrev main_v85 : Ref sig .tc := ⟨.hbm, 126, rfl⟩
abbrev main_cst_19 : Ref sig .tc := ⟨.hbm, 127, rfl⟩
abbrev main_v86 : Ref sig .tc := ⟨.hbm, 128, rfl⟩
abbrev main_v87 : Ref sig .tc := ⟨.hbm, 129, rfl⟩
abbrev main_cst_20 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_21 : Ref sig .tc := ⟨.hbm, 136, rfl⟩
abbrev main_v93 : Ref sig .tc := ⟨.hbm, 137, rfl⟩
abbrev main_cst_22 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_call3_cst : Ref sig .tc := ⟨.hbm, 146, rfl⟩
abbrev main_call3_v0 : Ref sig .tc := ⟨.hbm, 147, rfl⟩
abbrev main_v101 : Ref sig .tc := ⟨.hbm, 148, rfl⟩
abbrev main_v102 : Ref sig .tc := ⟨.hbm, 149, rfl⟩
abbrev main_cst_23 : Ref sig .tc := ⟨.hbm, 150, rfl⟩
abbrev main_v103 : Ref sig .tc := ⟨.hbm, 151, rfl⟩
abbrev main_cst_24 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_call4_cst : Ref sig .tc := ⟨.hbm, 160, rfl⟩
abbrev main_call4_v0 : Ref sig .tc := ⟨.hbm, 161, rfl⟩
abbrev main_v111 : Ref sig .tc := ⟨.hbm, 162, rfl⟩
abbrev main_v112 : Ref sig .tc := ⟨.hbm, 163, rfl⟩
abbrev main_cst_25 : Ref sig .tc := ⟨.hbm, 164, rfl⟩
abbrev main_v113 : Ref sig .tc := ⟨.hbm, 165, rfl⟩
abbrev main_cst_26 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_call5_v0 : Ref sig .tc := ⟨.hbm, 176, rfl⟩
abbrev main_call5_cst : Ref sig .tc := ⟨.hbm, 177, rfl⟩
abbrev main_call5_v1 : Ref sig .tc := ⟨.hbm, 178, rfl⟩
abbrev main_call5_v2 : Ref sig .tc := ⟨.hbm, 179, rfl⟩
abbrev main_v123 : Ref sig .tc := ⟨.hbm, 180, rfl⟩
abbrev main_cst_27 : Ref sig .tc := ⟨.hbm, 181, rfl⟩
abbrev main_v124 : Ref sig .tc := ⟨.hbm, 182, rfl⟩
abbrev main_v125 : Ref sig .tc := ⟨.hbm, 183, rfl⟩
abbrev main_cst_28 : Ref sig .tc := ⟨.hbm, 184, rfl⟩
abbrev main_v126 : Ref sig .tc := ⟨.hbm, 185, rfl⟩
abbrev main_v127 : Ref sig .tc := ⟨.hbm, 186, rfl⟩
abbrev main_cst_29 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_cst_30 : Ref sig .tc := ⟨.hbm, 196, rfl⟩
abbrev main_v136 : Ref sig .tc := ⟨.hbm, 197, rfl⟩
abbrev main_c_31 : Ref sig .tc := ⟨.hbm, 198, rfl⟩
abbrev main_v137 : Ref sig .tc := ⟨.hbm, 199, rfl⟩
abbrev main_v138 : Ref sig .tc := ⟨.hbm, 200, rfl⟩
abbrev main_c_32 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_call6_v0 : Ref sig .tc := ⟨.hbm, 207, rfl⟩
abbrev main_call6_cst : Ref sig .tc := ⟨.hbm, 208, rfl⟩
abbrev main_call6_v1 : Ref sig .tc := ⟨.hbm, 209, rfl⟩
abbrev main_call6_v2 : Ref sig .tc := ⟨.hbm, 210, rfl⟩
abbrev main_v144 : Ref sig .tc := ⟨.hbm, 211, rfl⟩
abbrev main_cst_33 : Ref sig .tc := ⟨.hbm, 212, rfl⟩
abbrev main_v145 : Ref sig .tc := ⟨.hbm, 213, rfl⟩
abbrev main_v146 : Ref sig .tc := ⟨.hbm, 214, rfl⟩
abbrev main_cst_34 : Ref sig .tc := ⟨.hbm, 215, rfl⟩
abbrev main_v147 : Ref sig .tc := ⟨.hbm, 216, rfl⟩
abbrev main_v148 : Ref sig .tc := ⟨.hbm, 217, rfl⟩
abbrev main_cst_35 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_cst_36 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_cst_37 : Ref sig .tc := ⟨.hbm, 228, rfl⟩
abbrev main_v157 : Ref sig .tc := ⟨.hbm, 229, rfl⟩
abbrev main_v158 : Ref sig .tc := ⟨.hbm, 230, rfl⟩
abbrev main_cst_38 : Ref sig .tc := ⟨.hbm, 231, rfl⟩
abbrev main_v159 : Ref sig .tc := ⟨.hbm, 232, rfl⟩
abbrev main_v160 : Ref sig .tc := ⟨.hbm, 233, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S1024x1_S1024x8_0_1 : S1024x1.BroadcastsInDim S1024x8 (![0, 1] : Fin 2 → Fin S1024x8.rank)
  shapeCasts_S1024x8_S1024x8x1 : S1024x8.ShapeCasts S1024x8x1
  shapeCasts_S1024x8x1_S1024x8 : S1024x8x1.ShapeCasts S1024x8
  slices_S8x2_S8x1_0_0 : S8x2.Slices ![0, 0] S8x1
  shapeCasts_S8x1_S8 : S8x1.ShapeCasts S8
  bcast_S8_S1x8x1_1 : S8.BroadcastsInDim S1x8x1 (![1] : Fin 1 → Fin S1x8x1.rank)
  bcast_S_S1x8x1 : S_.BroadcastsInDim S1x8x1 (![] : Fin 0 → Fin S1x8x1.rank)
  bcast_S_S1024x8x1 : S_.BroadcastsInDim S1024x8x1 (![] : Fin 0 → Fin S1024x8x1.rank)
  bcast_S1x8x1_S1024x8x1_0_1_2 : S1x8x1.BroadcastsInDim S1024x8x1 (![0, 1, 2] : Fin 3 → Fin S1024x8x1.rank)
  bcast_S1024x8x1_S1024x8x1x1_0_1_2 : S1024x8x1.BroadcastsInDim S1024x8x1x1 (![0, 1, 2] : Fin 3 → Fin S1024x8x1x1.rank)
  concatenates_S1024x8x1x1_S1024x8x1x1_S1024x8x1x2_d3 : Shape.Concatenates [S1024x8x1x1, S1024x8x1x1] S1024x8x1x2 3
  shapeCasts_S1024x8x1x16_S1024x8x16 : S1024x8x1x16.ShapeCasts S1024x8x16
  shapeCasts_S1024x8x16_S1024x128 : S1024x8x16.ShapeCasts S1024x128
  slices_S8x2_S8x1_0_1 : S8x2.Slices ![0, 1] S8x1
  bcast_S_S1024x8x16 : S_.BroadcastsInDim S1024x8x16 (![] : Fin 0 → Fin S1024x8x16.rank)
  bcast_S1x8x1_S1024x8x16_0_1_2 : S1x8x1.BroadcastsInDim S1024x8x16 (![0, 1, 2] : Fin 3 → Fin S1024x8x16.rank)
  bcast_S1024x8x16_S1024x8x16x1_0_1_2 : S1024x8x16.BroadcastsInDim S1024x8x16x1 (![0, 1, 2] : Fin 3 → Fin S1024x8x16x1.rank)
  concatenates_S1024x8x16x1_S1024x8x16x1_S1024x8x16x2_d3 : Shape.Concatenates [S1024x8x16x1, S1024x8x16x1] S1024x8x16x2 3
  shapeCasts_S1024x8x16x16_S1024x8x256 : S1024x8x16x16.ShapeCasts S1024x8x256
  shapeCasts_S1024x8x256_S1024x2048 : S1024x8x256.ShapeCasts S1024x2048
  bcast_S_S1024x8 : S_.BroadcastsInDim S1024x8 (![] : Fin 0 → Fin S1024x8.rank)
  bcast_S1024x8_S1024x8x1_0_1 : S1024x8.BroadcastsInDim S1024x8x1 (![0, 1] : Fin 2 → Fin S1024x8x1.rank)
  reducesTo_S1024x8x32_S1024x8_d2 : S1024x8x32.ReducesTo [2] S1024x8
  h_S_ : 0 < S_.numel
  bcast_S1024x8x1_S1024x8x32_0_1_2 : S1024x8x1.BroadcastsInDim S1024x8x32 (![0, 1, 2] : Fin 3 → Fin S1024x8x32.rank)
  bcast_S_S1024x128 : S_.BroadcastsInDim S1024x128 (![] : Fin 0 → Fin S1024x128.rank)
  bcast_S1024x128_S1024x128x1_0_1 : S1024x128.BroadcastsInDim S1024x128x1 (![0, 1] : Fin 2 → Fin S1024x128x1.rank)
  reducesTo_S1024x128x32_S1024x128_d2 : S1024x128x32.ReducesTo [2] S1024x128
  bcast_S_S1024x128x1 : S_.BroadcastsInDim S1024x128x1 (![] : Fin 0 → Fin S1024x128x1.rank)
  bcast_S1024x128x1_S1024x128x32_0_1_2 : S1024x128x1.BroadcastsInDim S1024x128x32 (![0, 1, 2] : Fin 3 → Fin S1024x128x32.rank)
  bcast_S_S1024x2048 : S_.BroadcastsInDim S1024x2048 (![] : Fin 0 → Fin S1024x2048.rank)
  bcast_S1024x2048_S1024x2048x1_0_1 : S1024x2048.BroadcastsInDim S1024x2048x1 (![0, 1] : Fin 2 → Fin S1024x2048x1.rank)
  reducesTo_S1024x2048x32_S1024x2048_d2 : S1024x2048x32.ReducesTo [2] S1024x2048
  bcast_S_S1024x2048x1 : S_.BroadcastsInDim S1024x2048x1 (![] : Fin 0 → Fin S1024x2048x1.rank)
  bcast_S1024x2048x1_S1024x2048x32_0_1_2 : S1024x2048x1.BroadcastsInDim S1024x2048x32 (![0, 1, 2] : Fin 3 → Fin S1024x2048x32.rank)
  shapeCasts_S1024x128x32_S1024x8x16x32 : S1024x128x32.ShapeCasts S1024x8x16x32
  reducesTo_S1024x8x16x32_S1024x8x32_d2 : S1024x8x16x32.ReducesTo [2] S1024x8x32
  bcast_S_S1024x8x32 : S_.BroadcastsInDim S1024x8x32 (![] : Fin 0 → Fin S1024x8x32.rank)
  concatenates_S1024x8x32_S1024x8x32_S1024x8x64_d2 : Shape.Concatenates [S1024x8x32, S1024x8x32] S1024x8x64 2
  bcast_S32_S1x1x32_2 : S32.BroadcastsInDim S1x1x32 (![2] : Fin 1 → Fin S1x1x32.rank)
  bcast_S1x1x32_S1024x8x32_0_1_2 : S1x1x32.BroadcastsInDim S1024x8x32 (![0, 1, 2] : Fin 3 → Fin S1024x8x32.rank)
  shapeCasts_S1024x2048x32_S1024x128x16x32 : S1024x2048x32.ShapeCasts S1024x128x16x32
  reducesTo_S1024x128x16x32_S1024x128x32_d2 : S1024x128x16x32.ReducesTo [2] S1024x128x32
  bcast_S_S1024x128x32 : S_.BroadcastsInDim S1024x128x32 (![] : Fin 0 → Fin S1024x128x32.rank)
  concatenates_S1024x128x32_S1024x128x32_S1024x128x64_d2 : Shape.Concatenates [S1024x128x32, S1024x128x32] S1024x128x64 2
  bcast_S1x1x32_S1024x128x32_0_1_2 : S1x1x32.BroadcastsInDim S1024x128x32 (![0, 1, 2] : Fin 3 → Fin S1024x128x32.rank)
  bcast_S8_S1x8_1 : S8.BroadcastsInDim S1x8 (![1] : Fin 1 → Fin S1x8.rank)
  reducesTo_S1x8_S1_d1 : S1x8.ReducesTo [1] S1
  bcast_S1_S1x1_0 : S1.BroadcastsInDim S1x1 (![0] : Fin 1 → Fin S1x1.rank)
  bcast_S_S1x1 : S_.BroadcastsInDim S1x1 (![] : Fin 0 → Fin S1x1.rank)
  bcast_S1x1_S1x8_0_1 : S1x1.BroadcastsInDim S1x8 (![0, 1] : Fin 2 → Fin S1x8.rank)
  shapeCasts_S1x8_S8 : S1x8.ShapeCasts S8
  bcast_S1x8x1_S1024x8x32_0_1_2 : S1x8x1.BroadcastsInDim S1024x8x32 (![0, 1, 2] : Fin 3 → Fin S1024x8x32.rank)
  reducesTo_S1024x8x32_S1024x32_d1 : S1024x8x32.ReducesTo [1] S1024x32
  bcast_S_S1024 : S_.BroadcastsInDim S1024 (![] : Fin 0 → Fin S1024.rank)
  reducesTo_S1024x32_S1024_d1 : S1024x32.ReducesTo [1] S1024
  bcast_S_S1024x1 : S_.BroadcastsInDim S1024x1 (![] : Fin 0 → Fin S1024x1.rank)
  bcast_S1024x1_S1024x32_0_1 : S1024x1.BroadcastsInDim S1024x32 (![0, 1] : Fin 2 → Fin S1024x32.rank)
  gather_S17x100000x16_S1024x8x1x2_S1024x8x1x16_3_01_n_n_01_3_1116_wf : GatherDims.WF S17x100000x16 S1024x8x1x2 S1024x8x1x16 [3] [0, 1] [] [0, 1] [] 3 ![1, 1, 16]
  gather_S17x100000x16_S1024x8x16x2_S1024x8x16x16_3_01_n_n_01_3_1116_wf : GatherDims.WF S17x100000x16 S1024x8x16x2 S1024x8x16x16 [3] [0, 1] [] [0, 1] [] 3 ![1, 1, 16]
  gather_S100000x32_S1024x8x1_S1024x8x32_2_0_n_n_0_2_132_wf : GatherDims.WF S100000x32 S1024x8x1 S1024x8x32 [2] [0] [] [0] [] 2 ![1, 32]
  gather_S100000x32_S1024x128x1_S1024x128x32_2_0_n_n_0_2_132_wf : GatherDims.WF S100000x32 S1024x128x1 S1024x128x32 [2] [0] [] [0] [] 2 ![1, 32]
  gather_S100000x32_S1024x2048x1_S1024x2048x32_2_0_n_n_0_2_132_wf : GatherDims.WF S100000x32 S1024x2048x1 S1024x2048x32 [2] [0] [] [0] [] 2 ![1, 32]
  dot_S1024x8x64_S32x64_S1024x8x32_2_1_01_0_n_n_wf : DotDims.WF S1024x8x64 S32x64 S1024x8x32 [2] [1] [0, 1] [0] [] []
  dot_S1024x128x64_S32x64_S1024x128x32_2_1_01_0_n_n_wf : DotDims.WF S1024x128x64 S32x64 S1024x128x32 [2] [1] [0, 1] [0] [] []
  gather_S100000x32_S1024x1_S1024x32_1_0_n_n_0_1_132_wf : GatherDims.WF S100000x32 S1024x1 S1024x32 [1] [0] [] [0] [] 1 ![1, 32]

variable [Facts₀]

def gather_S17x100000x16_S1024x8x1x2_S1024x8x1x16_3_01_n_n_01_3_1116 : GatherDims S17x100000x16 S1024x8x1x2 S1024x8x1x16 where
  offsetDims := [3]
  collapsedSliceDims := [0, 1]
  operandBatchingDims := []
  startIndicesBatchingDims := []
  startIndexMap := [0, 1]
  indexVectorDim := 3
  sliceSizes := ![1, 1, 16]
  wf := gather_S17x100000x16_S1024x8x1x2_S1024x8x1x16_3_01_n_n_01_3_1116_wf
def gather_S17x100000x16_S1024x8x16x2_S1024x8x16x16_3_01_n_n_01_3_1116 : GatherDims S17x100000x16 S1024x8x16x2 S1024x8x16x16 where
  offsetDims := [3]
  collapsedSliceDims := [0, 1]
  operandBatchingDims := []
  startIndicesBatchingDims := []
  startIndexMap := [0, 1]
  indexVectorDim := 3
  sliceSizes := ![1, 1, 16]
  wf := gather_S17x100000x16_S1024x8x16x2_S1024x8x16x16_3_01_n_n_01_3_1116_wf
def gather_S100000x32_S1024x8x1_S1024x8x32_2_0_n_n_0_2_132 : GatherDims S100000x32 S1024x8x1 S1024x8x32 where
  offsetDims := [2]
  collapsedSliceDims := [0]
  operandBatchingDims := []
  startIndicesBatchingDims := []
  startIndexMap := [0]
  indexVectorDim := 2
  sliceSizes := ![1, 32]
  wf := gather_S100000x32_S1024x8x1_S1024x8x32_2_0_n_n_0_2_132_wf
def gather_S100000x32_S1024x128x1_S1024x128x32_2_0_n_n_0_2_132 : GatherDims S100000x32 S1024x128x1 S1024x128x32 where
  offsetDims := [2]
  collapsedSliceDims := [0]
  operandBatchingDims := []
  startIndicesBatchingDims := []
  startIndexMap := [0]
  indexVectorDim := 2
  sliceSizes := ![1, 32]
  wf := gather_S100000x32_S1024x128x1_S1024x128x32_2_0_n_n_0_2_132_wf
def gather_S100000x32_S1024x2048x1_S1024x2048x32_2_0_n_n_0_2_132 : GatherDims S100000x32 S1024x2048x1 S1024x2048x32 where
  offsetDims := [2]
  collapsedSliceDims := [0]
  operandBatchingDims := []
  startIndicesBatchingDims := []
  startIndexMap := [0]
  indexVectorDim := 2
  sliceSizes := ![1, 32]
  wf := gather_S100000x32_S1024x2048x1_S1024x2048x32_2_0_n_n_0_2_132_wf
def dot_S1024x8x64_S32x64_S1024x8x32_2_1_01_0_n_n : DotDims S1024x8x64 S32x64 S1024x8x32 where
  lhsContracting := [2]
  rhsContracting := [1]
  lhsNonContracting := [0, 1]
  rhsNonContracting := [0]
  lhsBatch := []
  rhsBatch := []
  wf := dot_S1024x8x64_S32x64_S1024x8x32_2_1_01_0_n_n_wf
def dot_S1024x128x64_S32x64_S1024x128x32_2_1_01_0_n_n : DotDims S1024x128x64 S32x64 S1024x128x32 where
  lhsContracting := [2]
  rhsContracting := [1]
  lhsNonContracting := [0, 1]
  rhsNonContracting := [0]
  lhsBatch := []
  rhsBatch := []
  wf := dot_S1024x128x64_S32x64_S1024x128x32_2_1_01_0_n_n_wf
def gather_S100000x32_S1024x1_S1024x32_1_0_n_n_0_1_132 : GatherDims S100000x32 S1024x1 S1024x32 where
  offsetDims := [1]
  collapsedSliceDims := [0]
  operandBatchingDims := []
  startIndicesBatchingDims := []
  startIndexMap := [0]
  indexVectorDim := 1
  sliceSizes := ![1, 32]
  wf := gather_S100000x32_S1024x1_S1024x32_1_0_n_n_0_1_132_wf

class Facts : Prop extends Facts₀ where

variable [Facts]
-- ==== Proof.KRun.lean ====
/-
  The idealized kernel program's run with its result named.

  The program is ten segments: four stretches of host operations around three pipelined regions.  Its run ends with every unscoped
  buffer of the core at the contents the segments' fold leaves; read at the result buffer this names the result, and read at the
  eight argument buffers it says they end as launched.
-/
import proofs.«106339_j50148038148223_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last boundary's
    contents and the arguments as launched. -/
theorem run : θ_run defs (onTc (τ := τ) (main (F := F))) ⟨m, fun _ => 0, ρ⟩ (fun r => ∀ c : Dev nD,
      r.2.mem ((c.tc : Thread nD τ).loc main_v109) = W10 m ρ c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v109 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Named

end
-- ==== Proof.LibHostFold.lean ====
/-
  Folding a straight line of host operations in two parts, and the transports its inlined calls carry.

  The buffers' contents after a list of host operations is a left fold of the operations' results over the contents at
  the start; so the fold of a concatenation is the fold of its second part over the fold of its first (after_append), and
  a long program can be read in stretches with the contents in between kept as one term.

  The operations of a function inlined at its call site carry each operand through a transport along the equation
  between its buffer's declared type and the value's type: to the buffer's type when written, back when read. A value
  carried there and back is the value (ofBuf_toBuf); and, the two types being one, a single transport of a value is that
  value, stated through heterogeneous equality so that the equation is found by the types' computation at the use site
  (ofBuf_eq, toBuf_eq: give `HEq.rfl`, or `heq_of_eq` of an equation between the two sides read at one type). Removing
  the transports by these lemmas, syntactically, before two composed terms are compared keeps the comparison from
  computing through the transports.
-/
import Idealize.ShloMosaic.Lib.StableHlo.Run

namespace Cert.HostFold

open Idealize.ShloMosaic Idealize.ShloMosaic.StableHlo

variable {τ : Topo} {sig : RefSig} {Val : EltTy → Type}

/-- Folding a concatenation is folding its second part over the fold of its first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A value carried to its buffer's type and back is the value. -/
theorem ofBuf_toBuf {T : BufTy} (x : TRef sig T) (v : T.Contents Val) : x.ofBuf (x.toBuf v) = v := by
  obtain ⟨r, hty, h2, h3⟩ := x
  subst hty
  rfl

/-- Contents read at the value's type are the contents, when the two are one term up to the types' equation. -/
theorem ofBuf_eq {T : BufTy} (x : TRef sig T) (v : x.ref.ty.Contents Val) (w : T.Contents Val) (h : HEq v w) :
    x.ofBuf v = w := by
  obtain ⟨r, hty, h2, h3⟩ := x
  subst hty
  exact eq_of_heq h

/-- A value carried to its buffer's type is the value, likewise. -/
theorem toBuf_eq {T : BufTy} (x : TRef sig T) (v : T.Contents Val) (w : x.ref.ty.Contents Val) (h : HEq v w) :
    x.toBuf v = w := by
  obtain ⟨r, hty, h2, h3⟩ := x
  subst hty
  exact eq_of_heq h

end Cert.HostFold
-- ==== Proof.RefStages.lean ====
/-
  The reference's thirteen pieces, one at a time.

  For any contents of the buffers in which the buffers a piece reads hold their stages of the arguments, after the piece the buffer it
  ends at holds its own stage: the piece's operations, composed, are that stage's definition over the stages it reads.
-/
import proofs.«106339_j50148038148223_2_alg».proof.Proof.RunSegs
import proofs.«106339_j50148038148223_2_alg».proof.Proof.ReadP
import proofs.«106339_j50148038148223_2_alg».proof.Proof.LibHostFold
import Idealize.ShloMosaic.Lib.StableHlo.Run

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.ShloMosaic.StableHlo

variable (x0 x1 : (⟨S1024, .i32⟩ : BufTy).Contents (Elt Ideal)) (x2 : (⟨S8x2, .i32⟩ : BufTy).Contents (Elt Ideal))
  (x3 : (⟨S17x100000x16, .i32⟩ : BufTy).Contents (Elt Ideal)) (x4 : (⟨S100000x32, .f32⟩ : BufTy).Contents (Elt Ideal))
  (x5 : (⟨S8, .f32⟩ : BufTy).Contents (Elt Ideal)) (x6 : (⟨S32x64, .f32⟩ : BufTy).Contents (Elt Ideal))
  (x7 : (⟨S32, .f32⟩ : BufTy).Contents (Elt Ideal))
variable (V : Valuation τ sig (Elt Ideal))

/-! Piece 1 is read in three stretches, cut before each of its two concatenations, so that the two joined operands are
    plain buffer reads when the stretch that joins them is computed. -/

set_option maxHeartbeats 1000000 in
/-- Operations 1–24 of piece 1: the two index columns of the first neighbour lookup, and the user indices. -/
theorem s1_first (a0 : V (Proc.devRef .tc main_arg0) = x0) (a2 : V (Proc.devRef .tc main_arg2) = x2) (a3 : V (Proc.devRef .tc main_arg3) = x3) (a4 : V (Proc.devRef .tc main_arg4) = x4) :
    StableHlo.after (List.take 24 (seg1 (F := Ideal))) V (Proc.devRef .tc main_v18) = val_main_v18 (F := Ideal) x2
    ∧ StableHlo.after (List.take 24 (seg1 (F := Ideal))) V (Proc.devRef .tc main_v19) = val_main_v19 (F := Ideal) x0
    ∧ StableHlo.after (List.take 24 (seg1 (F := Ideal))) V (Proc.devRef .tc main_v3) = val_main_v3 (F := Ideal) x0
    ∧ StableHlo.after (List.take 24 (seg1 (F := Ideal))) V (Proc.devRef .tc main_arg2) = x2
    ∧ StableHlo.after (List.take 24 (seg1 (F := Ideal))) V (Proc.devRef .tc main_arg3) = x3
    ∧ StableHlo.after (List.take 24 (seg1 (F := Ideal))) V (Proc.devRef .tc main_arg4) = x4 := by
  refine ⟨?_, ?_, ?_, ?_, ?_, ?_⟩
  · dsimp only [seg1, List.take, List.drop]
    after_results_simp
    simp only [a2]
    rfl
  · dsimp only [seg1, List.take, List.drop]
    after_results_simp
    simp only [a0]
    rfl
  · dsimp only [seg1, List.take, List.drop]
    after_results_simp
    simp only [a0]
    rfl
  · dsimp only [seg1, List.take, List.drop]
    after_results_simp
    exact a2
  · dsimp only [seg1, List.take, List.drop]
    after_results_simp
    exact a3
  · dsimp only [seg1, List.take, List.drop]
    after_results_simp
    exact a4

set_option maxHeartbeats 1000000 in
/-- Operations 25–48 of piece 1, over any contents in which the buffers they read hold their stages. -/
theorem s1_second (W : Valuation τ sig (Elt Ideal))
    (h18 : W (Proc.devRef .tc main_v18) = val_main_v18 (F := Ideal) x2) (h19 : W (Proc.devRef .tc main_v19) = val_main_v19 (F := Ideal) x0)
    (h3 : W (Proc.devRef .tc main_v3) = val_main_v3 (F := Ideal) x0) (a2 : W (Proc.devRef .tc main_arg2) = x2) (a3 : W (Proc.devRef .tc main_arg3) = x3) (a4 : W (Proc.devRef .tc main_arg4) = x4) :
    StableHlo.after (List.take 24 (List.drop 24 (seg1 (F := Ideal)))) W (Proc.devRef .tc main_v23) = val_main_v23 (F := Ideal) x0 x2 x3
    ∧ StableHlo.after (List.take 24 (List.drop 24 (seg1 (F := Ideal)))) W (Proc.devRef .tc main_v38) = val_main_v38 (F := Ideal) x2
    ∧ StableHlo.after (List.take 24 (List.drop 24 (seg1 (F := Ideal)))) W (Proc.devRef .tc main_v39) = val_main_v39 (F := Ideal) x0 x2 x3
    ∧ StableHlo.after (List.take 24 (List.drop 24 (seg1 (F := Ideal)))) W (Proc.devRef .tc main_v3) = val_main_v3 (F := Ideal) x0
    ∧ StableHlo.after (List.take 24 (List.drop 24 (seg1 (F := Ideal)))) W (Proc.devRef .tc main_arg3) = x3
    ∧ StableHlo.after (List.take 24 (List.drop 24 (seg1 (F := Ideal)))) W (Proc.devRef .tc main_arg4) = x4 := by
  refine ⟨?_, ?_, ?_, ?_, ?_, ?_⟩
  · dsimp only [seg1, List.take, List.drop]
    after_results_simp
    repeat (first | rw [h18] | rw [h19] | rw [a3])
    rfl
  · dsimp only [seg1, List.take, List.drop]
    after_results_simp
    repeat (first | rw [a2])
    rfl
  · dsimp only [seg1, List.take, List.drop]
    after_results_simp
    repeat (first | rw [h18] | rw [h19] | rw [a3])
    rfl
  · dsimp only [seg1, List.take, List.drop]
    after_results_simp
    exact h3
  · dsimp only [seg1, List.take, List.drop]
    after_results_simp
    exact a3
  · dsimp only [seg1, List.take, List.drop]
    after_results_simp
    exact a4

set_option maxHeartbeats 1000000 in
/-- Operations 49–61 of piece 1, likewise. -/
theorem s1_third (W : Valuation τ sig (Elt Ideal))
    (h23 : W (Proc.devRef .tc main_v23) = val_main_v23 (F := Ideal) x0 x2 x3) (h38 : W (Proc.devRef .tc main_v38) = val_main_v38 (F := Ideal) x2)
    (h39 : W (Proc.devRef .tc main_v39) = val_main_v39 (F := Ideal) x0 x2 x3) (h3 : W (Proc.devRef .tc main_v3) = val_main_v3 (F := Ideal) x0)
    (a3 : W (Proc.devRef .tc main_arg3) = x3) (a4 : W (Proc.devRef .tc main_arg4) = x4) :
    StableHlo.after (List.drop 24 (List.drop 24 (seg1 (F := Ideal)))) W (Proc.devRef .tc main_v50) = val_main_v50 (F := Ideal) x0 x4
    ∧ StableHlo.after (List.drop 24 (List.drop 24 (seg1 (F := Ideal)))) W (Proc.devRef .tc main_v23) = val_main_v23 (F := Ideal) x0 x2 x3
    ∧ StableHlo.after (List.drop 24 (List.drop 24 (seg1 (F := Ideal)))) W (Proc.devRef .tc main_v43) = val_main_v43 (F := Ideal) x0 x2 x3 := by
  refine ⟨?_, ?_, ?_⟩
  · dsimp only [seg1, List.take, List.drop]
    after_results_simp
    repeat (first | rw [h3] | rw [a4])
    rfl
  · dsimp only [seg1, List.take, List.drop]
    after_results_simp
    exact h23
  · dsimp only [seg1, List.take, List.drop]
    after_results_simp
    repeat (first | rw [h38] | rw [h39] | rw [a3])
    rfl

/-- Piece 1: the index arithmetic and the first hop's gather. -/
theorem s1 (a0 : V (Proc.devRef .tc main_arg0) = x0) (a2 : V (Proc.devRef .tc main_arg2) = x2) (a3 : V (Proc.devRef .tc main_arg3) = x3) (a4 : V (Proc.devRef .tc main_arg4) = x4) :
    StableHlo.after (seg1 (F := Ideal)) V (Proc.devRef .tc main_v50) = val_main_v50 (F := Ideal) x0 x4
    ∧ StableHlo.after (seg1 (F := Ideal)) V (Proc.devRef .tc main_v23) = val_main_v23 (F := Ideal) x0 x2 x3
    ∧ StableHlo.after (seg1 (F := Ideal)) V (Proc.devRef .tc main_v43) = val_main_v43 (F := Ideal) x0 x2 x3 := by
  have split : (seg1 (F := Ideal)) = List.take 24 (seg1 (F := Ideal)) ++ (List.take 24 (List.drop 24 (seg1 (F := Ideal))) ++ List.drop 24 (List.drop 24 (seg1 (F := Ideal)))) := by
    rw [List.take_append_drop, List.take_append_drop]
  rw [split, Cert.HostFold.after_append, Cert.HostFold.after_append]
  obtain ⟨f18, f19, f3, f2, fa3, fa4⟩ := s1_first x0 x2 x3 x4 V a0 a2 a3 a4
  obtain ⟨g23, g38, g39, g3, ga3, ga4⟩ := s1_second x0 x2 x3 x4 (StableHlo.after (List.take 24 (seg1 (F := Ideal))) V) f18 f19 f3 f2 fa3 fa4
  exact s1_third x0 x2 x3 x4 _ g23 g38 g39 g3 ga3 ga4

/-- Piece 2: the first hop's rows clipped. -/
theorem s2 (h50 : V (Proc.devRef .tc main_v50) = val_main_v50 (F := Ideal) x0 x4) :
    StableHlo.after (seg2 (F := Ideal)) V (Proc.devRef .tc main_v59) = val_main_v59 (F := Ideal) x0 x4 := by
  dsimp only [seg2]
  after_results_simp
  simp only [h50]
  rfl

/-- Piece 3: the second hop's gather. -/
theorem s3 (h23 : V (Proc.devRef .tc main_v23) = val_main_v23 (F := Ideal) x0 x2 x3) (a4 : V (Proc.devRef .tc main_arg4) = x4) :
    StableHlo.after (seg3 (F := Ideal)) V (Proc.devRef .tc main_v66) = val_main_v66 (F := Ideal) x0 x2 x3 x4 := by
  dsimp only [seg3]
  after_results_simp
  simp only [h23, a4]
  rfl

/-- Piece 4: the second hop's rows clipped. -/
theorem s4 (h66 : V (Proc.devRef .tc main_v66) = val_main_v66 (F := Ideal) x0 x2 x3 x4) :
    StableHlo.after (seg4 (F := Ideal)) V (Proc.devRef .tc main_v75) = val_main_v75 (F := Ideal) x0 x2 x3 x4 := by
  dsimp only [seg4]
  after_results_simp
  simp only [h66]
  rfl

/-- Piece 5: the third hop's gather. -/
theorem s5 (h43 : V (Proc.devRef .tc main_v43) = val_main_v43 (F := Ideal) x0 x2 x3) (a4 : V (Proc.devRef .tc main_arg4) = x4) :
    StableHlo.after (seg5 (F := Ideal)) V (Proc.devRef .tc main_v82) = val_main_v82 (F := Ideal) x0 x2 x3 x4 := by
  dsimp only [seg5]
  after_results_simp
  simp only [h43, a4]
  rfl

/-- Piece 6: the third hop's rows clipped. -/
theorem s6 (h82 : V (Proc.devRef .tc main_v82) = val_main_v82 (F := Ideal) x0 x2 x3 x4) :
    StableHlo.after (seg6 (F := Ideal)) V (Proc.devRef .tc main_v91) = val_main_v91 (F := Ideal) x0 x2 x3 x4 := by
  dsimp only [seg6]
  after_results_simp
  simp only [h82]
  rfl

/-- Piece 7: the first layer at the first hop's nodes. -/
theorem s7 (h59 : V (Proc.devRef .tc main_v59) = val_main_v59 (F := Ideal) x0 x4) (h75 : V (Proc.devRef .tc main_v75) = val_main_v75 (F := Ideal) x0 x2 x3 x4)
    (a6 : V (Proc.devRef .tc main_arg6) = x6) (a7 : V (Proc.devRef .tc main_arg7) = x7) :
    StableHlo.after (seg7 (F := Ideal)) V (Proc.devRef .tc main_v101) = val_main_v101 (F := Ideal) x0 x2 x3 x4 x6 x7 := by
  have split : (seg7 (F := Ideal)) = List.take 6 seg7 ++ List.drop 6 seg7 := (List.take_append_drop 6 _).symm
  rw [split, Cert.HostFold.after_append]
  have es : StableHlo.after (List.take 6 (seg7 (F := Ideal))) V (Proc.devRef .tc main_v59) = val_main_v59 (F := Ideal) x0 x4 := by
    dsimp only [seg7, List.take]
    after_results_simp
    exact h59
  have em : StableHlo.after (List.take 6 (seg7 (F := Ideal))) V (Proc.devRef .tc main_v95) = val_main_v95 (F := Ideal) x0 x2 x3 x4 := by
    dsimp only [seg7, List.take]
    after_results_simp
    simp only [h75]
    rfl
  have e6 : StableHlo.after (List.take 6 (seg7 (F := Ideal))) V (Proc.devRef .tc main_arg6) = x6 := by
    dsimp only [seg7, List.take]
    after_results_simp
    exact a6
  have e7 : StableHlo.after (List.take 6 (seg7 (F := Ideal))) V (Proc.devRef .tc main_arg7) = x7 := by
    dsimp only [seg7, List.take]
    after_results_simp
    exact a7
  generalize StableHlo.after (List.take 6 (seg7 (F := Ideal))) V = W at es em e6 e7 ⊢
  dsimp only [seg7, List.drop]
  after_results_simp
  rw [es, em, e6, e7]
  rfl

/-- Piece 8: the first layer at the second hop's nodes. -/
theorem s8 (h75 : V (Proc.devRef .tc main_v75) = val_main_v75 (F := Ideal) x0 x2 x3 x4) (h91 : V (Proc.devRef .tc main_v91) = val_main_v91 (F := Ideal) x0 x2 x3 x4)
    (a6 : V (Proc.devRef .tc main_arg6) = x6) (a7 : V (Proc.devRef .tc main_arg7) = x7) :
    StableHlo.after (seg8 (F := Ideal)) V (Proc.devRef .tc main_v111) = val_main_v111 (F := Ideal) x0 x2 x3 x4 x6 x7 := by
  have split : (seg8 (F := Ideal)) = List.take 6 seg8 ++ List.drop 6 seg8 := (List.take_append_drop 6 _).symm
  rw [split, Cert.HostFold.after_append]
  have es : StableHlo.after (List.take 6 (seg8 (F := Ideal))) V (Proc.devRef .tc main_v75) = val_main_v75 (F := Ideal) x0 x2 x3 x4 := by
    dsimp only [seg8, List.take]
    after_results_simp
    exact h75
  have em : StableHlo.after (List.take 6 (seg8 (F := Ideal))) V (Proc.devRef .tc main_v105) = val_main_v105 (F := Ideal) x0 x2 x3 x4 := by
    dsimp only [seg8, List.take]
    after_results_simp
    simp only [h91]
    rfl
  have e6 : StableHlo.after (List.take 6 (seg8 (F := Ideal))) V (Proc.devRef .tc main_arg6) = x6 := by
    dsimp only [seg8, List.take]
    after_results_simp
    exact a6
  have e7 : StableHlo.after (List.take 6 (seg8 (F := Ideal))) V (Proc.devRef .tc main_arg7) = x7 := by
    dsimp only [seg8, List.take]
    after_results_simp
    exact a7
  generalize StableHlo.after (List.take 6 (seg8 (F := Ideal))) V = W at es em e6 e7 ⊢
  dsimp only [seg8, List.drop]
  after_results_simp
  rw [es, em, e6, e7]
  rfl

/-- Piece 9: the second layer. -/
theorem s9 (h101 : V (Proc.devRef .tc main_v101) = val_main_v101 (F := Ideal) x0 x2 x3 x4 x6 x7)
    (h111 : V (Proc.devRef .tc main_v111) = val_main_v111 (F := Ideal) x0 x2 x3 x4 x6 x7)
    (a6 : V (Proc.devRef .tc main_arg6) = x6) (a7 : V (Proc.devRef .tc main_arg7) = x7) :
    StableHlo.after (seg9 (F := Ideal)) V (Proc.devRef .tc main_v121) = val_main_v121 (F := Ideal) x0 x2 x3 x4 x6 x7 := by
  have split : (seg9 (F := Ideal)) = List.take 6 seg9 ++ List.drop 6 seg9 := (List.take_append_drop 6 _).symm
  rw [split, Cert.HostFold.after_append]
  have es : StableHlo.after (List.take 6 (seg9 (F := Ideal))) V (Proc.devRef .tc main_v101) = val_main_v101 (F := Ideal) x0 x2 x3 x4 x6 x7 := by
    dsimp only [seg9, List.take]
    after_results_simp
    exact h101
  have em : StableHlo.after (List.take 6 (seg9 (F := Ideal))) V (Proc.devRef .tc main_v115) = val_main_v115 (F := Ideal) x0 x2 x3 x4 x6 x7 := by
    dsimp only [seg9, List.take]
    after_results_simp
    simp only [h111]
    rfl
  have e6 : StableHlo.after (List.take 6 (seg9 (F := Ideal))) V (Proc.devRef .tc main_arg6) = x6 := by
    dsimp only [seg9, List.take]
    after_results_simp
    exact a6
  have e7 : StableHlo.after (List.take 6 (seg9 (F := Ideal))) V (Proc.devRef .tc main_arg7) = x7 := by
    dsimp only [seg9, List.take]
    after_results_simp
    exact a7
  generalize StableHlo.after (List.take 6 (seg9 (F := Ideal))) V = W at es em e6 e7 ⊢
  dsimp only [seg9, List.drop]
  after_results_simp
  rw [es, em, e6, e7]
  rfl

/-- Piece 10: the rule weights clipped. -/
theorem s10 (a5 : V (Proc.devRef .tc main_arg5) = x5) :
    StableHlo.after (seg10 (F := Ideal)) V (Proc.devRef .tc main_v132) = val_main_v132 (F := Ideal) x5 := by
  dsimp only [seg10]
  after_results_simp
  simp only [a5]
  rfl

/-- Piece 11: the user rows. -/
theorem s11 (h121 : V (Proc.devRef .tc main_v121) = val_main_v121 (F := Ideal) x0 x2 x3 x4 x6 x7) (h132 : V (Proc.devRef .tc main_v132) = val_main_v132 (F := Ideal) x5) :
    StableHlo.after (seg11 (F := Ideal)) V (Proc.devRef .tc main_v136) = val_main_v136 (F := Ideal) x0 x2 x3 x4 x5 x6 x7 := by
  dsimp only [seg11]
  after_results_simp
  simp only [h121, h132]
  rfl

/-- Piece 12: the item rows. -/
theorem s12 (a1 : V (Proc.devRef .tc main_arg1) = x1) (a4 : V (Proc.devRef .tc main_arg4) = x4) :
    StableHlo.after (seg12 (F := Ideal)) V (Proc.devRef .tc main_v143) = val_main_v143 (F := Ideal) x1 x4 := by
  dsimp only [seg12]
  after_results_simp
  simp only [a1, a4]
  rfl

/-- Piece 13: the score. -/
theorem s13 (h136 : V (Proc.devRef .tc main_v136) = val_main_v136 (F := Ideal) x0 x2 x3 x4 x5 x6 x7) (h143 : V (Proc.devRef .tc main_v143) = val_main_v143 (F := Ideal) x1 x4) :
    StableHlo.after (seg13 (F := Ideal)) V (Proc.devRef .tc main_v160) = val_main_v160 (F := Ideal) x0 x1 x2 x3 x4 x5 x6 x7 := by
  dsimp only [seg13]
  after_results_simp
  simp only [h136, h143]
  rfl

end Cert.ReferenceIdeal.Stages

end
-- ==== Proof.RefKeep.lean ====
/-
  What a piece of the reference's line of host operations leaves untouched.

  No operation writes an argument, and each stage buffer is written by its own operation only: so across a piece that does not
  contain that operation a buffer keeps its contents.  The pieces are sublists of the whole line, and no operation of the line
  allocates a buffer.
-/
import proofs.«106339_j50148038148223_2_alg».proof.Proof.RunSegs
import Idealize.ShloMosaic.Lib.StableHlo.Run
import Idealize.ShloMosaic.PureOps.Ideal

/-
  Which buffers the reference program's operations leave alone.

  The program is a straight line of 226 operations, read in thirteen consecutive pieces. Each operation writes exactly its one
  result buffer. So the eight arguments, which are the result of no operation, keep their contents across any part of the program;
  and a stage buffer produced by one piece keeps its contents across a later piece none of whose operations has it as its result.
  For literal lists of operations and of references these are finitely many comparisons of references.
-/

set_option maxRecDepth 16384

noncomputable section

namespace Cert.ReferenceIdeal.RefRun

open Cert.ReferenceIdeal Cert.ReferenceIdeal.Gen Cert.ReferenceIdeal.ValueP
open Idealize.ShloMosaic Idealize.ShloMosaic.TcCoe Idealize.ShloMosaic.StableHlo Idealize.SL.Sem

/-! ## Which buffers a piece leaves alone

Every operation writes exactly its one result buffer; a buffer that is the result of no operation of a list keeps its contents
across the list. For a literal list the check is one comparison of references per operation. -/

/-- References that differ name buffers that differ, for each reference of a list. -/
theorem ne_all {y : Ref sig .tc} {rs : List (Ref sig .tc)} (h : ∀ r ∈ rs, r ≠ y) :
    ∀ r ∈ rs, ¬ Proc.devRef (τ := τ) .tc r = Proc.devRef .tc y :=
  fun r hr => StableHlo.devRef_ne_of_ne (h r hr)

/-- Decides, for a literal list of operations and a literal list of references, that no operation writes any of the
    references' buffers. -/
local macro "not_written" l:ident : tactic => `(tactic| (
  refine List.forall_iff_forall_mem.mp ?_
  simp only [$l:ident, List.Forall, StableHlo.nullary_writes, StableHlo.unary_writes, StableHlo.binary_writes,
    StableHlo.ternary_writes, StableHlo.quaternary_writes, StableHlo.reshape_writes, StableHlo.binaryIndexed_writes,
    StableHlo.nary_writes, Finset.mem_singleton]
  repeat' apply And.intro
  all_goals exact ne_all (by decide)))

/-- A buffer none of the operations writes keeps its contents. -/
theorem keep {l : List (HloOp τ sig (Elt Ideal))} {rs : List (Ref sig .tc)}
    (h : ∀ op ∈ l, ∀ r ∈ rs, Proc.devRef (τ := τ) .tc r ∉ op.writes) (V : Valuation τ sig (Elt Ideal))
    {r : Ref sig .tc} (hr : r ∈ rs) :
    StableHlo.after l V (Proc.devRef .tc r) = V (Proc.devRef .tc r) :=
  StableHlo.after_of_forall_not_mem l V fun op ho => h op ho r hr

/-- The eight arguments of the program. -/
abbrev argRefs : List (Ref sig .tc) :=
  [main_arg0, main_arg1, main_arg2, main_arg3, main_arg4, main_arg5, main_arg6, main_arg7]

set_option maxHeartbeats 4000000 in
/-- No operation of the program writes an argument. -/
theorem args_ops : ∀ op ∈ (ops (F := Ideal)), ∀ r ∈ argRefs, Proc.devRef (τ := τ) .tc r ∉ op.writes := by
  not_written ops

/-! The stage buffers carried across a piece that does not produce them. -/
theorem carry2 : ∀ op ∈ (seg2 (F := Ideal)), ∀ r ∈ [main_v23, main_v43], Proc.devRef (τ := τ) .tc r ∉ op.writes := by
  not_written seg2
theorem carry3 : ∀ op ∈ (seg3 (F := Ideal)), ∀ r ∈ [main_v43, main_v59], Proc.devRef (τ := τ) .tc r ∉ op.writes := by
  not_written seg3
theorem carry4 : ∀ op ∈ (seg4 (F := Ideal)), ∀ r ∈ [main_v43, main_v59], Proc.devRef (τ := τ) .tc r ∉ op.writes := by
  not_written seg4
theorem carry5 : ∀ op ∈ (seg5 (F := Ideal)), ∀ r ∈ [main_v59, main_v75], Proc.devRef (τ := τ) .tc r ∉ op.writes := by
  not_written seg5
theorem carry6 : ∀ op ∈ (seg6 (F := Ideal)), ∀ r ∈ [main_v59, main_v75], Proc.devRef (τ := τ) .tc r ∉ op.writes := by
  not_written seg6
theorem carry7 : ∀ op ∈ (seg7 (F := Ideal)), ∀ r ∈ [main_v75, main_v91], Proc.devRef (τ := τ) .tc r ∉ op.writes := by
  not_written seg7
theorem carry8 : ∀ op ∈ (seg8 (F := Ideal)), ∀ r ∈ [main_v101], Proc.devRef (τ := τ) .tc r ∉ op.writes := by
  not_written seg8
theorem carry10 : ∀ op ∈ (seg10 (F := Ideal)), ∀ r ∈ [main_v121], Proc.devRef (τ := τ) .tc r ∉ op.writes := by
  not_written seg10
theorem carry12 : ∀ op ∈ (seg12 (F := Ideal)), ∀ r ∈ [main_v136], Proc.devRef (τ := τ) .tc r ∉ op.writes := by
  not_written seg12

/-! Each piece is part of the program. -/
theorem sub1 : ∀ op ∈ (seg1 (F := Ideal)), op ∈ (ops (F := Ideal)) := fun op h => by
  rw [ops_eq_segs]
  exact List.mem_append_left _ h
theorem sub2 : ∀ op ∈ (seg2 (F := Ideal)), op ∈ (ops (F := Ideal)) := fun op h => by
  rw [ops_eq_segs]
  exact List.mem_append_right _ (List.mem_append_left _ h)
theorem sub3 : ∀ op ∈ (seg3 (F := Ideal)), op ∈ (ops (F := Ideal)) := fun op h => by
  rw [ops_eq_segs]
  exact List.mem_append_right _ (List.mem_append_right _ (List.mem_append_left _ h))
theorem sub4 : ∀ op ∈ (seg4 (F := Ideal)), op ∈ (ops (F := Ideal)) := fun op h => by
  rw [ops_eq_segs]
  exact List.mem_append_right _ (List.mem_append_right _ (List.mem_append_right _ (List.mem_append_left _ h)))
theorem sub5 : ∀ op ∈ (seg5 (F := Ideal)), op ∈ (ops (F := Ideal)) := fun op h => by
  rw [ops_eq_segs]
  exact List.mem_append_right _ (List.mem_append_right _ (List.mem_append_right _ (List.mem_append_right _ (List.mem_append_left _ h))))
theorem sub6 : ∀ op ∈ (seg6 (F := Ideal)), op ∈ (ops (F := Ideal)) := fun op h => by
  rw [ops_eq_segs]
  exact List.mem_append_right _ (List.mem_append_right _ (List.mem_append_right _ (List.mem_append_right _ (List.mem_append_right _ (List.mem_append_left _ h)))))
theorem sub7 : ∀ op ∈ (seg7 (F := Ideal)), op ∈ (ops (F := Ideal)) := fun op h => by
  rw [ops_eq_segs]
  exact List.mem_append_right _ (List.mem_append_right _ (List.mem_append_right _ (List.mem_append_right _ (List.mem_append_right _ (List.mem_append_right _ (List.mem_append_left _ h))))))
theorem sub8 : ∀ op ∈ (seg8 (F := Ideal)), op ∈ (ops (F := Ideal)) := fun op h => by
  rw [ops_eq_segs]
  exact List.mem_append_right _ (List.mem_append_right _ (List.mem_append_right _ (List.mem_append_right _ (List.mem_append_right _ (List.mem_append_right _ (List.mem_append_right _ (List.mem_append_left _ h)))))))
theorem sub9 : ∀ op ∈ (seg9 (F := Ideal)), op ∈ (ops (F := Ideal)) := fun op h => by
  rw [ops_eq_segs]
  exact List.mem_append_right _ (List.mem_append_right _ (List.mem_append_right _ (List.mem_append_right _ (List.mem_append_right _ (List.mem_append_right _ (List.mem_append_right _ (List.mem_append_right _ (List.mem_append_left _ h))))))))
theorem sub10 : ∀ op ∈ (seg10 (F := Ideal)), op ∈ (ops (F := Ideal)) := fun op h => by
  rw [ops_eq_segs]
  exact List.mem_append_right _ (List.mem_append_right _ (List.mem_append_right _ (List.mem_append_right _ (List.mem_append_right _ (List.mem_append_right _ (List.mem_append_right _ (List.mem_append_right _ (List.mem_append_right _ (List.mem_append_left _ h)))))))))
theorem sub11 : ∀ op ∈ (seg11 (F := Ideal)), op ∈ (ops (F := Ideal)) := fun op h => by
  rw [ops_eq_segs]
  exact List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))
theorem sub12 : ∀ op ∈ (seg12 (F := Ideal)), op ∈ (ops (F := Ideal)) := fun op h => by
  rw [ops_eq_segs]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))
theorem sub13 : ∀ op ∈ (seg13 (F := Ideal)), op ∈ (ops (F := Ideal)) := fun op h => by
  rw [ops_eq_segs]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (h))))))))))))

/-- An argument keeps its contents across any part of the program. -/
theorem keep_arg {l : List (HloOp τ sig (Elt Ideal))} (hl : ∀ op ∈ l, op ∈ (ops (F := Ideal))) (V : Valuation τ sig (Elt Ideal))
    {r : Ref sig .tc} (hr : r ∈ argRefs) :
    StableHlo.after l V (Proc.devRef .tc r) = V (Proc.devRef .tc r) :=
  StableHlo.after_of_forall_not_mem l V fun op ho => args_ops op (hl op ho) r hr

set_option maxHeartbeats 4000000 in
/-- Every operation of the program determines its results. -/
theorem ops_fresh : ∀ op ∈ (ops (F := Ideal)), op.fresh = ∅ := by
  refine List.forall_iff_forall_mem.mp ?_
  simp only [ops, List.Forall]
  repeat' apply And.intro
  all_goals rfl

end Cert.ReferenceIdeal.RefRun

end
-- ==== Proof.RefRun.lean ====
/-
  The run of the reference program, read piece by piece.

  The program is a straight line of 226 host operations, so its run ends with every buffer at the fold of the operations' results over
  the launch contents.  The line is cut into thirteen pieces, each ending at a buffer that later operations read more than once;
  across a piece the buffer it ends at takes its stage, and every buffer and argument the later pieces still need keeps its contents.
  Threading these facts through the thirteen pieces, the result buffer ends at the last stage of the arguments, and the arguments,
  which no operation writes, end as launched.
-/
import proofs.«106339_j50148038148223_2_alg».proof.Proof.RunSegs
import proofs.«106339_j50148038148223_2_alg».proof.Proof.ReadP
import proofs.«106339_j50148038148223_2_alg».proof.Proof.LibHostFold
import proofs.«106339_j50148038148223_2_alg».proof.Proof.RefStages
import proofs.«106339_j50148038148223_2_alg».proof.Proof.RefKeep
import Idealize.ShloMosaic.Lib.StableHlo.Run

/-
  The run of the reference program, read in thirteen pieces.

  The buffers' contents after the 226 operations are the contents after the thirteenth piece, run from the contents after the
  twelfth, and so on back to the launch. Each piece's stage lemma says what its last buffer holds given what the buffers it reads
  hold; those were produced by earlier pieces and are carried, unchanged, across the pieces in between, and the arguments are
  carried across everything. Threading these facts from the launch gives the result buffer's contents: the last stage of the
  arguments. The run statement follows from the library's theorem for a straight line of host operations.
-/

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.ShloMosaic.StableHlo Idealize.SL.Sem

/-! ## The contents between the pieces -/

/-- The contents after the first piece. -/
abbrev P1 (L : Valuation τ sig (Elt Ideal)) : Valuation τ sig (Elt Ideal) := StableHlo.after (seg1 (F := Ideal)) L
/-- The contents after the first 2 pieces. -/
abbrev P2 (L : Valuation τ sig (Elt Ideal)) : Valuation τ sig (Elt Ideal) := StableHlo.after (seg2 (F := Ideal)) (P1 L)
/-- The contents after the first 3 pieces. -/
abbrev P3 (L : Valuation τ sig (Elt Ideal)) : Valuation τ sig (Elt Ideal) := StableHlo.after (seg3 (F := Ideal)) (P2 L)
/-- The contents after the first 4 pieces. -/
abbrev P4 (L : Valuation τ sig (Elt Ideal)) : Valuation τ sig (Elt Ideal) := StableHlo.after (seg4 (F := Ideal)) (P3 L)
/-- The contents after the first 5 pieces. -/
abbrev P5 (L : Valuation τ sig (Elt Ideal)) : Valuation τ sig (Elt Ideal) := StableHlo.after (seg5 (F := Ideal)) (P4 L)
/-- The contents after the first 6 pieces. -/
abbrev P6 (L : Valuation τ sig (Elt Ideal)) : Valuation τ sig (Elt Ideal) := StableHlo.after (seg6 (F := Ideal)) (P5 L)
/-- The contents after the first 7 pieces. -/
abbrev P7 (L : Valuation τ sig (Elt Ideal)) : Valuation τ sig (Elt Ideal) := StableHlo.after (seg7 (F := Ideal)) (P6 L)
/-- The contents after the first 8 pieces. -/
abbrev P8 (L : Valuation τ sig (Elt Ideal)) : Valuation τ sig (Elt Ideal) := StableHlo.after (seg8 (F := Ideal)) (P7 L)
/-- The contents after the first 9 pieces. -/
abbrev P9 (L : Valuation τ sig (Elt Ideal)) : Valuation τ sig (Elt Ideal) := StableHlo.after (seg9 (F := Ideal)) (P8 L)
/-- The contents after the first 10 pieces. -/
abbrev P10 (L : Valuation τ sig (Elt Ideal)) : Valuation τ sig (Elt Ideal) := StableHlo.after (seg10 (F := Ideal)) (P9 L)
/-- The contents after the first 11 pieces. -/
abbrev P11 (L : Valuation τ sig (Elt Ideal)) : Valuation τ sig (Elt Ideal) := StableHlo.after (seg11 (F := Ideal)) (P10 L)
/-- The contents after the first 12 pieces. -/
abbrev P12 (L : Valuation τ sig (Elt Ideal)) : Valuation τ sig (Elt Ideal) := StableHlo.after (seg12 (F := Ideal)) (P11 L)
/-- The contents after the first 13 pieces. -/
abbrev P13 (L : Valuation τ sig (Elt Ideal)) : Valuation τ sig (Elt Ideal) := StableHlo.after (seg13 (F := Ideal)) (P12 L)

/-- Contents in which the eight arguments' buffers hold given values. -/
structure Holds (L : Valuation τ sig (Elt Ideal)) (x0 x1 : (⟨S1024, .i32⟩ : BufTy).Contents (Elt Ideal)) (x2 : (⟨S8x2, .i32⟩ : BufTy).Contents (Elt Ideal))
  (x3 : (⟨S17x100000x16, .i32⟩ : BufTy).Contents (Elt Ideal)) (x4 : (⟨S100000x32, .f32⟩ : BufTy).Contents (Elt Ideal))
  (x5 : (⟨S8, .f32⟩ : BufTy).Contents (Elt Ideal)) (x6 : (⟨S32x64, .f32⟩ : BufTy).Contents (Elt Ideal))
  (x7 : (⟨S32, .f32⟩ : BufTy).Contents (Elt Ideal)) : Prop where
  a0 : L (Proc.devRef .tc main_arg0) = x0
  a1 : L (Proc.devRef .tc main_arg1) = x1
  a2 : L (Proc.devRef .tc main_arg2) = x2
  a3 : L (Proc.devRef .tc main_arg3) = x3
  a4 : L (Proc.devRef .tc main_arg4) = x4
  a5 : L (Proc.devRef .tc main_arg5) = x5
  a6 : L (Proc.devRef .tc main_arg6) = x6
  a7 : L (Proc.devRef .tc main_arg7) = x7

section Chain

variable {L : Valuation τ sig (Elt Ideal)} {x0 x1 : (⟨S1024, .i32⟩ : BufTy).Contents (Elt Ideal)} {x2 : (⟨S8x2, .i32⟩ : BufTy).Contents (Elt Ideal)}
  {x3 : (⟨S17x100000x16, .i32⟩ : BufTy).Contents (Elt Ideal)} {x4 : (⟨S100000x32, .f32⟩ : BufTy).Contents (Elt Ideal)}
  {x5 : (⟨S8, .f32⟩ : BufTy).Contents (Elt Ideal)} {x6 : (⟨S32x64, .f32⟩ : BufTy).Contents (Elt Ideal)}
  {x7 : (⟨S32, .f32⟩ : BufTy).Contents (Elt Ideal)}

/-- The arguments hold the same values after any part of the program. -/
theorem Holds.step (h : Holds L x0 x1 x2 x3 x4 x5 x6 x7) {l : List (HloOp τ sig (Elt Ideal))} (hl : ∀ op ∈ l, op ∈ (ops (F := Ideal))) :
    Holds (StableHlo.after l L) x0 x1 x2 x3 x4 x5 x6 x7 :=
  ⟨(keep_arg hl L (by decide)).trans h.a0, (keep_arg hl L (by decide)).trans h.a1, (keep_arg hl L (by decide)).trans h.a2,
   (keep_arg hl L (by decide)).trans h.a3, (keep_arg hl L (by decide)).trans h.a4, (keep_arg hl L (by decide)).trans h.a5,
   (keep_arg hl L (by decide)).trans h.a6, (keep_arg hl L (by decide)).trans h.a7⟩

/-- THE CHAIN: from contents holding the arguments, the thirteen pieces one after the other leave the last stage in the result
    buffer. Each piece's stage lemma is applied at the contents the pieces before it leave; the buffers it reads were produced by
    an earlier piece and are carried across the pieces in between, none of which writes them. -/
theorem chain (h0 : Holds L x0 x1 x2 x3 x4 x5 x6 x7) :
    P13 L (Proc.devRef .tc main_v160) = val_main_v160 (F := Ideal) x0 x1 x2 x3 x4 x5 x6 x7 := by
  -- piece 1: the three gathered index arrays' first results
  obtain ⟨h50, h23, h43⟩ := Stages.s1 (V := L) (a0 := h0.a0) (a2 := h0.a2) (a3 := h0.a3) (a4 := h0.a4)
  have A1 : Holds (P1 L) x0 x1 x2 x3 x4 x5 x6 x7 := h0.step sub1
  -- piece 2
  have h59 : P2 L (Proc.devRef .tc main_v59) = val_main_v59 (F := Ideal) x0 x4 := Stages.s2 (V := P1 L) (h50 := h50)
  have h23 : P2 L (Proc.devRef .tc main_v23) = val_main_v23 (F := Ideal) x0 x2 x3 := (keep carry2 (P1 L) (by decide)).trans h23
  have h43 : P2 L (Proc.devRef .tc main_v43) = val_main_v43 (F := Ideal) x0 x2 x3 := (keep carry2 (P1 L) (by decide)).trans h43
  have A2 : Holds (P2 L) x0 x1 x2 x3 x4 x5 x6 x7 := A1.step sub2
  -- piece 3
  have h66 : P3 L (Proc.devRef .tc main_v66) = val_main_v66 (F := Ideal) x0 x2 x3 x4 := Stages.s3 (V := P2 L) (h23 := h23) (a4 := A2.a4)
  have h43 : P3 L (Proc.devRef .tc main_v43) = val_main_v43 (F := Ideal) x0 x2 x3 := (keep carry3 (P2 L) (by decide)).trans h43
  have h59 : P3 L (Proc.devRef .tc main_v59) = val_main_v59 (F := Ideal) x0 x4 := (keep carry3 (P2 L) (by decide)).trans h59
  have A3 : Holds (P3 L) x0 x1 x2 x3 x4 x5 x6 x7 := A2.step sub3
  -- piece 4
  have h75 : P4 L (Proc.devRef .tc main_v75) = val_main_v75 (F := Ideal) x0 x2 x3 x4 := Stages.s4 (V := P3 L) (h66 := h66)
  have h43 : P4 L (Proc.devRef .tc main_v43) = val_main_v43 (F := Ideal) x0 x2 x3 := (keep carry4 (P3 L) (by decide)).trans h43
  have h59 : P4 L (Proc.devRef .tc main_v59) = val_main_v59 (F := Ideal) x0 x4 := (keep carry4 (P3 L) (by decide)).trans h59
  have A4 : Holds (P4 L) x0 x1 x2 x3 x4 x5 x6 x7 := A3.step sub4
  -- piece 5
  have h82 : P5 L (Proc.devRef .tc main_v82) = val_main_v82 (F := Ideal) x0 x2 x3 x4 := Stages.s5 (V := P4 L) (h43 := h43) (a4 := A4.a4)
  have h59 : P5 L (Proc.devRef .tc main_v59) = val_main_v59 (F := Ideal) x0 x4 := (keep carry5 (P4 L) (by decide)).trans h59
  have h75 : P5 L (Proc.devRef .tc main_v75) = val_main_v75 (F := Ideal) x0 x2 x3 x4 := (keep carry5 (P4 L) (by decide)).trans h75
  have A5 : Holds (P5 L) x0 x1 x2 x3 x4 x5 x6 x7 := A4.step sub5
  -- piece 6
  have h91 : P6 L (Proc.devRef .tc main_v91) = val_main_v91 (F := Ideal) x0 x2 x3 x4 := Stages.s6 (V := P5 L) (h82 := h82)
  have h59 : P6 L (Proc.devRef .tc main_v59) = val_main_v59 (F := Ideal) x0 x4 := (keep carry6 (P5 L) (by decide)).trans h59
  have h75 : P6 L (Proc.devRef .tc main_v75) = val_main_v75 (F := Ideal) x0 x2 x3 x4 := (keep carry6 (P5 L) (by decide)).trans h75
  have A6 : Holds (P6 L) x0 x1 x2 x3 x4 x5 x6 x7 := A5.step sub6
  -- piece 7
  have h101 : P7 L (Proc.devRef .tc main_v101) = val_main_v101 (F := Ideal) x0 x2 x3 x4 x6 x7 :=
    Stages.s7 (V := P6 L) (h59 := h59) (h75 := h75) (a6 := A6.a6) (a7 := A6.a7)
  have h75 : P7 L (Proc.devRef .tc main_v75) = val_main_v75 (F := Ideal) x0 x2 x3 x4 := (keep carry7 (P6 L) (by decide)).trans h75
  have h91 : P7 L (Proc.devRef .tc main_v91) = val_main_v91 (F := Ideal) x0 x2 x3 x4 := (keep carry7 (P6 L) (by decide)).trans h91
  have A7 : Holds (P7 L) x0 x1 x2 x3 x4 x5 x6 x7 := A6.step sub7
  -- piece 8
  have h111 : P8 L (Proc.devRef .tc main_v111) = val_main_v111 (F := Ideal) x0 x2 x3 x4 x6 x7 :=
    Stages.s8 (V := P7 L) (h75 := h75) (h91 := h91) (a6 := A7.a6) (a7 := A7.a7)
  have h101 : P8 L (Proc.devRef .tc main_v101) = val_main_v101 (F := Ideal) x0 x2 x3 x4 x6 x7 := (keep carry8 (P7 L) (by decide)).trans h101
  have A8 : Holds (P8 L) x0 x1 x2 x3 x4 x5 x6 x7 := A7.step sub8
  -- piece 9
  have h121 : P9 L (Proc.devRef .tc main_v121) = val_main_v121 (F := Ideal) x0 x2 x3 x4 x6 x7 :=
    Stages.s9 (V := P8 L) (h101 := h101) (h111 := h111) (a6 := A8.a6) (a7 := A8.a7)
  have A9 : Holds (P9 L) x0 x1 x2 x3 x4 x5 x6 x7 := A8.step sub9
  -- piece 10
  have h132 : P10 L (Proc.devRef .tc main_v132) = val_main_v132 (F := Ideal) x5 := Stages.s10 (V := P9 L) (a5 := A9.a5)
  have h121 : P10 L (Proc.devRef .tc main_v121) = val_main_v121 (F := Ideal) x0 x2 x3 x4 x6 x7 := (keep carry10 (P9 L) (by decide)).trans h121
  have A10 : Holds (P10 L) x0 x1 x2 x3 x4 x5 x6 x7 := A9.step sub10
  -- piece 11
  have h136 : P11 L (Proc.devRef .tc main_v136) = val_main_v136 (F := Ideal) x0 x2 x3 x4 x5 x6 x7 :=
    Stages.s11 (V := P10 L) (h121 := h121) (h132 := h132)
  have A11 : Holds (P11 L) x0 x1 x2 x3 x4 x5 x6 x7 := A10.step sub11
  -- piece 12
  have h143 : P12 L (Proc.devRef .tc main_v143) = val_main_v143 (F := Ideal) x1 x4 := Stages.s12 (V := P11 L) (a1 := A11.a1) (a4 := A11.a4)
  have h136 : P12 L (Proc.devRef .tc main_v136) = val_main_v136 (F := Ideal) x0 x2 x3 x4 x5 x6 x7 := (keep carry12 (P11 L) (by decide)).trans h136
  -- piece 13
  exact Stages.s13 (V := P12 L) (h136 := h136) (h143 := h143)

end Chain

variable (m : (ℓ : Loc nD τ sig) → Buf (Elt Ideal) ℓ) (ρ : Dev nD → PrngReg)

/-- THE RESULT: after the 226 operations, from the launch contents, the result buffer holds the last stage of the arguments. -/
theorem result_eq (c : Dev nD) :
    StableHlo.after (ops (F := Ideal)) (launchContents m c) (Proc.devRef .tc main_v160)
      = val_main_v160 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  rw [ops_eq_segs]
  simp only [Cert.HostFold.after_append]
  exact chain (L := launchContents m c) ⟨rfl, rfl, rfl, rfl, rfl, rfl, rfl, rfl⟩

/-- THE RUN of the reference program: every weakly fair execution terminates with the result at the last stage of the arguments and
    the arguments unchanged. -/
theorem run : θ_run (defs (F := Ideal)) (onTc (τ := τ) (main (F := Ideal))) ⟨m, fun _ => 0, ρ⟩ fun r => ∀ c : Dev nD,
      r.2.mem ((c.tc : Thread nD τ).loc main_v160)
        = val_main_v160 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run (defs (F := Ideal)) _ _).mono
    (fun r h c =>
      ⟨(h c main_v160).trans (result_eq m c),
       (h c main_arg0).trans (keep_arg (fun _ ho => ho) (launchContents m c) (by decide)),
       (h c main_arg1).trans (keep_arg (fun _ ho => ho) (launchContents m c) (by decide)),
       (h c main_arg2).trans (keep_arg (fun _ ho => ho) (launchContents m c) (by decide)),
       (h c main_arg3).trans (keep_arg (fun _ ho => ho) (launchContents m c) (by decide)),
       (h c main_arg4).trans (keep_arg (fun _ ho => ho) (launchContents m c) (by decide)),
       (h c main_arg5).trans (keep_arg (fun _ ho => ho) (launchContents m c) (by decide)),
       (h c main_arg6).trans (keep_arg (fun _ ho => ho) (launchContents m c) (by decide)),
       (h c main_arg7).trans (keep_arg (fun _ ho => ho) (launchContents m c) (by decide))⟩)
    (run_seq scopedRefs_eq scopedSems_eq (defs (F := Ideal)) (main (F := Ideal)) (fun _ => ops) main_eq (fun _ => ops_sub) m ρ
      (fun _ => ops_fresh))

end Cert.ReferenceIdeal.RefRun

end
-- ==== Proof.Spec.lean ====
/-
  The mathematics of one aggregation layer, on rows of extended reals.

  A row v is clipped to norm at most one by the factor  min(1, 1 / max(√(Σ v²), ε));  the sixteen neighbour rows of a node are
  averaged coordinate by coordinate;  the node's own row and that average, set side by side as one row of length 64, are sent
  through a 32 × 64 weight matrix, a bias is added, and an activation applied.  Splitting the weight matrix into its left and right
  halves, the product with the row of length 64 is the sum of the two products with the halves (sum_halves): a law of any
  commutative additive monoid, so it holds on the extended reals with no finiteness asked.
-/
import Idealize.ShloMosaic.PureOps.Ideal
import Idealize.ShloMosaic.PureOps.Ideal.Laws
import Idealize.ShloMosaic.Lib.ValueIdx

noncomputable section

open scoped BigOperators

namespace Cert.Spec

open Idealize.ShloMosaic

/-- The literal 1. -/
abbrev one : EReal := Ideal.ofBits .f32 0x3F800000#32
/-- The literal the norm is kept above. -/
abbrev eps : EReal := Ideal.ofBits .f32 0x33D6BF95#32
/-- The literal 16, the number of neighbours. -/
abbrev sixteen : EReal := Ideal.ofBits .f32 0x41800000#32
/-- The literal 0. -/
abbrev zero : EReal := Ideal.ofBits .f32 0x00000000#32

/-- The sum of the squares of a row. -/
def sumsq {D : Nat} (v : Fin D → EReal) : EReal := ∑ k : Fin D, v k * v k

/-- The clipping factor of a row whose sum of squares is s: min(1, 1 / max(√s, ε)). -/
def clip (s : EReal) : EReal := min one (Ideal.div one (max (Ideal.sqrt s) eps))

/-- The clipping factor of a row. -/
def scale {D : Nat} (v : Fin D → EReal) : EReal := clip (sumsq v)

/-- A row clipped to norm at most one. -/
def renorm {D : Nat} (v : Fin D → EReal) : Fin D → EReal := fun d => v d * scale v

/-- The average of sixteen rows, coordinate by coordinate. -/
def mean16 (x : Fin 16 → Fin 32 → EReal) : Fin 32 → EReal := fun d => Ideal.div (∑ n : Fin 16, x n d) sixteen

/-- One output coordinate of the linear map: the node's row against the left half of the weight row, the neighbours' average
    against the right half, plus the bias. -/
def lin (s nm w1 w2 : Fin 32 → EReal) (bias : EReal) : EReal :=
  ((∑ d : Fin 32, s d * w1 d) + ∑ d : Fin 32, nm d * w2 d) + bias

/-- The rectifier. -/
def relu (x : EReal) : EReal := max x zero

/-- A row of length 64 made of two rows of length 32. -/
def join (a b : Fin 32 → EReal) : Fin 64 → EReal := fun k => if h : k.val < 32 then a ⟨k.val, h⟩ else b ⟨k.val - 32, by omega⟩

/-- The product of a joined row with a weight row of length 64 is the sum of the products with the two halves. -/
theorem sum_halves (a b : Fin 32 → EReal) (w : Fin 64 → EReal) :
    ∑ k : Fin 64, join a b k * w k
      = (∑ d : Fin 32, a d * w ⟨d.val, by omega⟩) + ∑ d : Fin 32, b d * w ⟨32 + d.val, by omega⟩ := by
  refine (Fin.sum_univ_add (M := EReal) (a := 32) (b := 32) fun k => join a b k * w k).trans ?_
  refine congrArg₂ (· + ·) (Finset.sum_congr rfl fun d _ => ?_) (Finset.sum_congr rfl fun d _ => ?_)
  · have h : (Fin.castAdd 32 d).val < 32 := d.isLt
    unfold join
    rw [dif_pos h]
    rfl
  · have h : ¬ (Fin.natAdd 32 d).val < 32 := by simp [Fin.natAdd]
    unfold join
    rw [dif_neg h]
    refine congrArg₂ (· * ·) (congrArg b (Fin.ext ?_)) rfl
    simp [Fin.natAdd]

/-! ## The three layers over the gathered rows -/

section Net

variable (e0 : Fin 1024 → Fin 8 → Fin 32 → EReal) (e1 : Fin 1024 → Fin 128 → Fin 32 → EReal)
  (e2 : Fin 1024 → Fin 2048 → Fin 32 → EReal) (W : Fin 32 → Fin 64 → EReal) (bias : Fin 32 → EReal)

/-- The left half of row o of the weight matrix. -/
def wl (o : Fin 32) : Fin 32 → EReal := fun d => W o ⟨d.val, by omega⟩
/-- The right half of row o of the weight matrix. -/
def wr (o : Fin 32) : Fin 32 → EReal := fun d => W o ⟨32 + d.val, by omega⟩
/-- The n-th neighbour of node q of the first hop, among the 128 nodes of the second. -/
def child8 (q : Fin 8) (n : Fin 16) : Fin 128 := ⟨16 * q.val + n.val, by omega⟩
/-- The n-th neighbour of node m of the second hop, among the 2048 nodes of the third. -/
def child128 (m : Fin 128) (n : Fin 16) : Fin 2048 := ⟨16 * m.val + n.val, by omega⟩

/-- The first layer at the first hop's nodes: clipped rows, rectified. -/
def L0 (b : Fin 1024) (q : Fin 8) (o : Fin 32) : EReal :=
  relu (lin (renorm (e0 b q)) (mean16 fun n => renorm (e1 b (child8 q n))) (wl W o) (wr W o) (bias o))
/-- The first layer at the second hop's nodes. -/
def L1 (b : Fin 1024) (m : Fin 128) (o : Fin 32) : EReal :=
  relu (lin (renorm (e1 b m)) (mean16 fun n => renorm (e2 b (child128 m n))) (wl W o) (wr W o) (bias o))
/-- The second layer: over the first layer's outputs, unclipped, through tanh. -/
def L2 (b : Fin 1024) (q : Fin 8) (o : Fin 32) : EReal :=
  Ideal.tanh (lin (L0 e0 e1 W bias b q) (mean16 fun n => L1 e1 e2 W bias b (child8 q n)) (wl W o) (wr W o) (bias o))

end Net

end Cert.Spec

end
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.KCell0.lean ====
/-
  One [256, 8, 32] block of the clipped, rectified layer, read at an entry.

  The body flattens its [256, 8, 32] block of node rows to [2048, 32] (row 8 p + q is node (p, q)), clips every row to norm at
  most one, averages the sixteen clipped neighbour rows of each node, multiplies the two [2048, 32] results by the two 32 × 32
  weight blocks, adds the bias row and rectifies. Read at (p, q, o) that is the layer's formula on the rows of node (p, q):
  each stage below is one operation of the body read at an index, and the last theorem chains them.
-/
import proofs.«106339_j50148038148223_2_alg».proof.Proof.Gen.KernelIdeal.Frame
import proofs.«106339_j50148038148223_2_alg».proof.Proof.Spec
import proofs.«106339_j50148038148223_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Cell0

open Cert.KernelIdeal Cert.KernelIdeal.Gen Idealize.ShloMosaic Idealize.ShloMosaic.ValueIdx

/-- The zero offsets of a rank-3, rank-4 and rank-2 whole-block rectangle, as constant functions. -/
theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz2 : (![0, 0] : Fin 2 → Nat) = fun _ => 0 := funext fun a => by fin_cases a <;> rfl

/-- The block the body leaves is the body's arithmetic on the blocks it read: every load and the one store go through
    whole-block rectangles at offset zero. -/
theorem out0_5_eq (x0 : Vec Ideal S256x8x32 .f32) (x1 : Vec Ideal S256x8x16x32 .f32) (x2 x3 : Vec Ideal S32x32 .f32)
    (x4 : Vec Ideal S1x32 .f32) :
    out0_5 (F := Ideal) x0 x1 x2 x3 x4 = k0_pay1 (k0_pay2 x0) (k0_pay3 x1) (k0_pay4 x2) x3 x4 := by
  unfold out0_5
  rw [View.canon_unit_zero hz3]
  simp only [View.ld_unit_zero (S := S256x8x32) hz3, View.ld_unit_zero (S := S256x8x16x32) hz4,
    View.ld_unit_zero (S := S32x32) hz2, View.ld_unit_zero (S := S1x32) hz2]

/-- The first weight block passes through unchanged (a reshape to its own shape; narrowing is the identity on the
    extended reals). -/
theorem pay4_eq (x2 : Vec Ideal S32x32 .f32) : k0_pay4 (F := Ideal) x2 = x2 := by
  unfold k0_pay4
  funext i
  show shapeCast S32x32 x2 _ i = x2 i
  rw [shapeCast_self]

/-- Row-major position: entry (p, q, d) of the [256, 8, 32] block is entry (8 p + q, d) of its [2048, 32] flattening. -/
theorem flat_pos (p : Fin 256) (q : Fin 8) (d : Fin 32) (r : Fin 2048) (hr : r.val = 8 * p.val + q.val) :
    (S256x8x32.rowMajor (ix3 p q d)).val = (S2048x32.rowMajor (ix2 r d)).val := by
  simp only [Shape.rowMajor_val_three, Shape.rowMajor_val_two]
  show (p.val * 8 + q.val) * 32 + d.val = r.val * 32 + d.val
  omega

/-- The lane sum of the squares of a [256, 8, 32] block, kept as a [256, 8, 1] column, read at (p, q, 0):
    the sum over k of the squares of the row (p, q, ·). -/
theorem sumsq3_apply (x0 : Vec Ideal S256x8x32 .f32) (hφ : FKind.Formats .f32)
    (hacc : (0x00000000#32 : BitVec 32) = FKind.add.neutral .f32 hφ) (p : Fin 256) (q : Fin 8) :
    shapeCast S256x8x1 (multiReduction (F := Ideal) .add [2] S256x8 (mulf x0 x0) 0x00000000#32 reduces_S256x8x32_S256x8 hφ hacc)
        shapeCasts_S256x8_S256x8x1 (ix3 p q 0)
      = ∑ k : Fin 32, x0 (ix3 p q k) * x0 (ix3 p q k) := by
  refine (shapeCast_apply _ shapeCasts_S256x8_S256x8x1 (ix3 p q 0) (ix2 p q) ?_).trans ?_
  · simp only [Shape.rowMajor_val_three, Shape.rowMajor_val_two]
    show p.val * 8 + q.val = (p.val * 8 + q.val) * 1 + 0
    omega
  refine (Ideal.multiReduction_add_single (mulf x0 x0) _ reduces_S256x8x32_S256x8 hφ hacc (ix2 p q)).trans ?_
  refine Finset.sum_congr rfl fun k _ => ?_
  have e : reduces_S256x8x32_S256x8.lift (ix2 p q) k = ix3 p q k :=
    funext fun a => Fin.ext (by match a with | ⟨0, _⟩ => rfl | ⟨1, _⟩ => rfl | ⟨2, _⟩ => rfl)
  exact congrArg₂ (· * ·) (congrArg x0 e) (congrArg x0 e)

/-- The clipped node rows, flattened, read at (r, d) with r = 8 p + q: entry d of the row (p, q, ·) times that row's
    clipping factor min(1, 1 / max(√(Σ_k x²), ε)). -/
theorem pay2_apply (x0 : Vec Ideal S256x8x32 .f32) (p : Fin 256) (q : Fin 8) (d : Fin 32) (r : Fin 2048)
    (hr : r.val = 8 * p.val + q.val) :
    k0_pay2 (F := Ideal) x0 (ix2 r d)
      = x0 (ix3 p q d) * min (Ideal.ofBits .f32 0x3F800000#32) (Ideal.div (Ideal.ofBits .f32 0x3F800000#32)
          (max (Ideal.sqrt (∑ k : Fin 32, x0 (ix3 p q k) * x0 (ix3 p q k))) (Ideal.ofBits .f32 0x33D6BF95#32))) := by
  unfold k0_pay2
  rw [shapeCast_self]
  refine (truncf_apply (ψ := .bf16) _ bitsLt_bf16_f32 (ix2 r d)).trans ?_
  refine (shapeCast_apply _ shapeCasts_S256x8x32_S2048x32 (ix2 r d) (ix3 p q d) (flat_pos p q d r hr)).trans ?_
  show x0 (ix3 p q d) * broadcastTo S256x8x32 _ broadcasts_S256x8x1_S256x8x32 (ix3 p q d) = _
  refine congrArg (x0 (ix3 p q d) * ·) ?_
  refine (broadcastTo_apply _ broadcasts_S256x8x1_S256x8x32 (ix3 p q d) (ix3 p q 0) ?_).trans ?_
  · intro a
    match a with
    | ⟨0, _⟩ => rfl
    | ⟨1, _⟩ => rfl
    | ⟨2, _⟩ => rfl
  exact congrArg (fun s => min (Ideal.ofBits .f32 0x3F800000#32) (Ideal.div (Ideal.ofBits .f32 0x3F800000#32)
    (max (Ideal.sqrt s) (Ideal.ofBits .f32 0x33D6BF95#32)))) (sumsq3_apply x0 _ _ p q)

/-- The lane sum of the squares of a [256, 8, 16, 32] block, kept as a [256, 8, 16, 1] column, read at (p, q, n, 0):
    the sum over k of the squares of the row (p, q, n, ·). -/
theorem sumsq4_apply (x1 : Vec Ideal S256x8x16x32 .f32) (hφ : FKind.Formats .f32)
    (hacc : (0x00000000#32 : BitVec 32) = FKind.add.neutral .f32 hφ) (p : Fin 256) (q : Fin 8) (n : Fin 16) :
    shapeCast S256x8x16x1 (multiReduction (F := Ideal) .add [3] S256x8x16 (mulf x1 x1) 0x00000000#32 reduces_S256x8x16x32_S256x8x16 hφ hacc)
        shapeCasts_S256x8x16_S256x8x16x1 (ix4 p q n 0)
      = ∑ k : Fin 32, x1 (ix4 p q n k) * x1 (ix4 p q n k) := by
  refine (shapeCast_apply _ shapeCasts_S256x8x16_S256x8x16x1 (ix4 p q n 0) (ix3 p q n) ?_).trans ?_
  · simp only [Shape.rowMajor_val_three, Shape.rowMajor_val_four]
    show (p.val * 8 + q.val) * 16 + n.val = ((p.val * 8 + q.val) * 16 + n.val) * 1 + 0
    omega
  refine (Ideal.multiReduction_add_single (mulf x1 x1) _ reduces_S256x8x16x32_S256x8x16 hφ hacc (ix3 p q n)).trans ?_
  refine Finset.sum_congr rfl fun k _ => ?_
  have e : reduces_S256x8x16x32_S256x8x16.lift (ix3 p q n) k = ix4 p q n k :=
    funext fun a => Fin.ext (by match a with | ⟨0, _⟩ => rfl | ⟨1, _⟩ => rfl | ⟨2, _⟩ => rfl | ⟨3, _⟩ => rfl)
  exact congrArg₂ (· * ·) (congrArg x1 e) (congrArg x1 e)

/-- The averaged clipped neighbour rows, flattened, read at (r, d) with r = 8 p + q: the sum over the sixteen neighbours n of
    entry d of the row (p, q, n, ·) times that row's clipping factor, divided by sixteen. -/
theorem pay3_apply (x1 : Vec Ideal S256x8x16x32 .f32) (p : Fin 256) (q : Fin 8) (d : Fin 32) (r : Fin 2048)
    (hr : r.val = 8 * p.val + q.val) :
    k0_pay3 (F := Ideal) x1 (ix2 r d)
      = Ideal.div (∑ n : Fin 16, x1 (ix4 p q n d) * min (Ideal.ofBits .f32 0x3F800000#32) (Ideal.div (Ideal.ofBits .f32 0x3F800000#32)
          (max (Ideal.sqrt (∑ k : Fin 32, x1 (ix4 p q n k) * x1 (ix4 p q n k))) (Ideal.ofBits .f32 0x33D6BF95#32))))
          (Ideal.ofBits .f32 0x41800000#32) := by
  unfold k0_pay3
  rw [shapeCast_self]
  refine (truncf_apply (ψ := .bf16) _ bitsLt_bf16_f32 (ix2 r d)).trans ?_
  refine (shapeCast_apply _ shapeCasts_S256x8x32_S2048x32 (ix2 r d) (ix3 p q d) (flat_pos p q d r hr)).trans ?_
  show Ideal.div (multiReduction (F := Ideal) .add [2] S256x8x32 _ 0x00000000#32 reduces_S256x8x16x32_S256x8x32 _ _ (ix3 p q d)) _ = _
  refine congrArg (fun s => Ideal.div s (Ideal.ofBits .f32 0x41800000#32)) ?_
  refine (Ideal.multiReduction_add_single _ _ reduces_S256x8x16x32_S256x8x32 _ _ (ix3 p q d)).trans ?_
  refine Finset.sum_congr rfl fun n _ => ?_
  have e : reduces_S256x8x16x32_S256x8x32.lift (ix3 p q d) n = ix4 p q n d :=
    funext fun a => Fin.ext (by match a with | ⟨0, _⟩ => rfl | ⟨1, _⟩ => rfl | ⟨2, _⟩ => rfl | ⟨3, _⟩ => rfl)
  refine (congrArg _ e).trans ?_
  show x1 (ix4 p q n d) * broadcastTo S256x8x16x32 _ broadcasts_S256x8x16x1_S256x8x16x32 (ix4 p q n d) = _
  refine congrArg (x1 (ix4 p q n d) * ·) ?_
  refine (broadcastTo_apply _ broadcasts_S256x8x16x1_S256x8x16x32 (ix4 p q n d) (ix4 p q n 0) ?_).trans ?_
  · intro a
    match a with
    | ⟨0, _⟩ => rfl
    | ⟨1, _⟩ => rfl
    | ⟨2, _⟩ => rfl
    | ⟨3, _⟩ => rfl
  exact congrArg (fun s => min (Ideal.ofBits .f32 0x3F800000#32) (Ideal.div (Ideal.ofBits .f32 0x3F800000#32)
    (max (Ideal.sqrt s) (Ideal.ofBits .f32 0x33D6BF95#32)))) (sumsq4_apply x1 _ _ p q n)

/-- The body's last stage read at (p, q, o), with r = 8 p + q the row of the flattened block: the two matrix products'
    entries (r, o), summed, plus the bias row's entry o, rectified. -/
theorem pay1_apply (v32 v34 : FVec Ideal S2048x32 .bf16) (v37 : FVec Ideal S32x32 .bf16) (v38 : Vec Ideal S32x32 .f32)
    (v44 : Vec Ideal S1x32 .f32) (p : Fin 256) (q : Fin 8) (o : Fin 32) (r : Fin 2048) (hr : r.val = 8 * p.val + q.val) :
    k0_pay1 (F := Ideal) v32 v34 v37 v38 v44 (ix3 p q o)
      = max (((∑ d : Fin 32, v32 (ix2 r d) * v37 (ix2 d o)) + ∑ d : Fin 32, v34 (ix2 r d) * v38 (ix2 d o)) + v44 (ix2 (0 : Fin 1) o))
          (Ideal.ofBits .f32 0x00000000#32) := by
  unfold k0_pay1
  rw [shapeCast_self, shapeCast_self]
  show max (shapeCast S256x8x32 _ shapeCasts_S2048x32_S256x8x32 (ix3 p q o)) _ = _
  refine congrArg (fun s => max s (Ideal.ofBits .f32 0x00000000#32)) ?_
  refine (shapeCast_apply _ shapeCasts_S2048x32_S256x8x32 (ix3 p q o) (ix2 r o) (flat_pos p q o r hr).symm).trans ?_
  refine congrArg₂ (· + ·) (congrArg₂ (· + ·) ?_ ?_) ?_
  · exact Cert.PlainDot.matmul_zero_apply dot_S2048x32_S32x32_S2048x32_1_0_0_1_n_n rfl rfl rfl rfl rfl rfl none v32 v37 r o
  · exact Cert.PlainDot.matmul_zero_apply dot_S2048x32_S32x32_S2048x32_1_0_0_1_n_n rfl rfl rfl rfl rfl rfl none v34
      (truncf .bf16 v38 bitsLt_bf16_f32) r o
  · exact broadcastTo_1b_ab_apply v44 broadcasts_S1x32_S2048x32 r o

/-- Entry (p, q, o) of the block the body leaves is the layer's formula on the rows of node (p, q). -/
theorem out0_5_apply (x0 : Vec Ideal S256x8x32 .f32) (x1 : Vec Ideal S256x8x16x32 .f32) (x2 x3 : Vec Ideal S32x32 .f32)
    (x4 : Vec Ideal S1x32 .f32) (p : Fin 256) (q : Fin 8) (o : Fin 32) :
    out0_5 (F := Ideal) x0 x1 x2 x3 x4 (ix3 p q o)
      = Spec.relu (Spec.lin (Spec.renorm fun d => x0 (ix3 p q d)) (Spec.mean16 fun n => Spec.renorm fun d => x1 (ix4 p q n d))
          (fun d => x2 (ix2 d o)) (fun d => x3 (ix2 d o)) (x4 (ix2 0 o))) := by
  have hr : (⟨8 * p.val + q.val, by omega⟩ : Fin 2048).val = 8 * p.val + q.val := rfl
  rw [out0_5_eq]
  refine (pay1_apply _ _ _ x3 x4 p q o _ hr).trans ?_
  rw [pay4_eq]
  simp only [pay2_apply x0 p q _ _ hr, pay3_apply x1 p q _ _ hr]
  rfl

end Cert.KernelIdeal.Cell0

end
-- ==== Proof.KArr0.lean ====
/-
  From blocks to the array, first region: the rectified layer at the first hop's nodes.

  The region writes its output array [1024, 8, 32] back in four blocks of 256 batch rows.  What a grid point writes back is the
  body's result of its input blocks, an input block's entry is its array's entry 256·t rows down (the node rows and the neighbour
  rows) or the array's own entry (the two weight blocks and the bias row), and the four blocks tile the array: so the array ends,
  entry by entry, at the layer of the arrays the region was entered with.
-/
import proofs.«106339_j50148038148223_2_alg».proof.Proof.Gen.KernelIdeal.Frame
import proofs.«106339_j50148038148223_2_alg».proof.Proof.Spec
import proofs.«106339_j50148038148223_2_alg».proof.Proof.KCell0
import Idealize.ShloMosaic.Lib.Pipeline.Value
import Idealize.ShloMosaic.Lib.ValueIdx
import Idealize.ShloMosaic.PureOps.Ideal.Laws

noncomputable section

open scoped BigOperators

namespace Cert.KernelIdeal.Arr0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! # From blocks to the array, first layer at the first hop's nodes

The output array [1024, 8, 32] is written back block by block: point t of the four writes rows 256·t … 256·t+255, and what it
writes is the body's result on the input blocks at t. Those blocks are rows 256·t … 256·t+255 of the node rows and of the
neighbour rows, and the whole of the two weight arrays and of the bias row. So each written block is the restriction of ONE
function of the output's index — the layer's value from that row — and, the four blocks covering the array, the array ends
holding that function. -/

/-- The printed index maps, decided over the four grid points: the node rows' and neighbour rows' windows and the output's
    window sit at block t along the batch axis and at block 0 along every other; the weight and bias windows at block 0. -/
theorem idxFacts : ∀ t : Fin cfg0.N,
    win0_0.index t (0 : Fin 3) = t.val ∧ win0_0.index t (1 : Fin 3) = 0 ∧ win0_0.index t (2 : Fin 3) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-! ## The input blocks, entry by entry

An element of a block sits in its array, on each axis, at the block's index times the block's extent plus its own coordinate.
The node rows' and neighbour rows' blocks at point t are rows 256·t … 256·t+255 of their arrays; the weight blocks and the bias
row are their whole arrays. -/

/-- Row p of the node rows' block at point t is row 256·t + p of the array. -/
theorem blk0 (c : Dev nD) (t : Fin cfg0.N) (p : Fin 256) (q : Fin 8) (d : Fin 32) (ht : 256 * t.val + p.val < 1024) :
    iblk0 (F := Ideal) V c 0 t (ix3 p q d) = V c main_v50 (ix3 ⟨256 * t.val + p.val, ht⟩ q d) := by
  obtain ⟨e0, e1, e2, -⟩ := idxFacts t
  unfold iblk0
  rw [View.read_apply]
  show V c main_v50 (((cfg0.win 0).blk t).view.emb (ix3 p q d)) = _
  refine congrArg (V c main_v50) (funext fun a => Fin.ext ?_)
  match a with
  | ⟨0, _⟩ => show win0_0.index t (0 : Fin 3) * 256 + 1 * p.val = 256 * t.val + p.val; omega
  | ⟨1, _⟩ => show win0_0.index t (1 : Fin 3) * 8 + 1 * q.val = q.val; omega
  | ⟨2, _⟩ => show win0_0.index t (2 : Fin 3) * 32 + 1 * d.val = d.val; omega

/-- Row p of the neighbour rows' block at point t is row 256·t + p of the array. -/
theorem blk1 (c : Dev nD) (t : Fin cfg0.N) (p : Fin 256) (q : Fin 8) (n : Fin 16) (d : Fin 32) (ht : 256 * t.val + p.val < 1024) :
    iblk0 (F := Ideal) V c 1 t (ix4 p q n d) = V c main_v70 (ix4 ⟨256 * t.val + p.val, ht⟩ q n d) := by
  obtain ⟨-, -, -, e0, e1, e2, e3, -⟩ := idxFacts t
  unfold iblk0
  rw [View.read_apply]
  show V c main_v70 (((cfg0.win 1).blk t).view.emb (ix4 p q n d)) = _
  refine congrArg (V c main_v70) (funext fun a => Fin.ext ?_)
  match a with
  | ⟨0, _⟩ => show win0_1.index t (0 : Fin 4) * 256 + 1 * p.val = 256 * t.val + p.val; omega
  | ⟨1, _⟩ => show win0_1.index t (1 : Fin 4) * 8 + 1 * q.val = q.val; omega
  | ⟨2, _⟩ => show win0_1.index t (2 : Fin 4) * 16 + 1 * n.val = n.val; omega
  | ⟨3, _⟩ => show win0_1.index t (3 : Fin 4) * 32 + 1 * d.val = d.val; omega

/-- The first weight block is the whole array at every point. -/
theorem blk2 (c : Dev nD) (t : Fin cfg0.N) (d o : Fin 32) :
    iblk0 (F := Ideal) V c 2 t (ix2 d o) = V c main_v66 (ix2 d o) := by
  obtain ⟨-, -, -, -, -, -, -, e0, e1, -⟩ := idxFacts t
  unfold iblk0
  rw [View.read_apply]
  show V c main_v66 (((cfg0.win 2).blk t).view.emb (ix2 d o)) = _
  refine congrArg (V c main_v66) (funext fun a => Fin.ext ?_)
  match a with
  | ⟨0, _⟩ => show win0_2.index t (0 : Fin 2) * 32 + 1 * d.val = d.val; omega
  | ⟨1, _⟩ => show win0_2.index t (1 : Fin 2) * 32 + 1 * o.val = o.val; omega

/-- The second weight block is the whole array at every point. -/
theorem blk3 (c : Dev nD) (t : Fin cfg0.N) (d o : Fin 32) :
    iblk0 (F := Ideal) V c 3 t (ix2 d o) = V c main_v68 (ix2 d o) := by
  obtain ⟨-, -, -, -, -, -, -, -, -, e0, e1, -⟩ := idxFacts t
  unfold iblk0
  rw [View.read_apply]
  show V c main_v68 (((cfg0.win 3).blk t).view.emb (ix2 d o)) = _
  refine congrArg (V c main_v68) (funext fun a => Fin.ext ?_)
  match a with
  | ⟨0, _⟩ => show win0_3.index t (0 : Fin 2) * 32 + 1 * d.val = d.val; omega
  | ⟨1, _⟩ => show win0_3.index t (1 : Fin 2) * 32 + 1 * o.val = o.val; omega

/-- The bias block is the whole row at every point. -/
theorem blk4 (c : Dev nD) (t : Fin cfg0.N) (z : Fin 1) (o : Fin 32) :
    iblk0 (F := Ideal) V c 4 t (ix2 z o) = V c main_v69 (ix2 z o) := by
  obtain ⟨-, -, -, -, -, -, -, -, -, -, -, e0, e1, -⟩ := idxFacts t
  unfold iblk0
  rw [View.read_apply]
  show V c main_v69 (((cfg0.win 4).blk t).view.emb (ix2 z o)) = _
  refine congrArg (V c main_v69) (funext fun a => Fin.ext ?_)
  match a with
  | ⟨0, _⟩ => show win0_4.index t (0 : Fin 2) * 1 + 1 * z.val = z.val; omega
  | ⟨1, _⟩ => show win0_4.index t (1 : Fin 2) * 32 + 1 * o.val = o.val; omega

/-! ## One point's result, from arrays its blocks are read off -/

/-- The body's result at block row p, when row p of the two row blocks is row r of two arrays and the weight and bias blocks
    are three arrays: the layer's value from row r. Stated over any blocks and arrays. -/
theorem point (x0 : Vec Ideal S256x8x32 .f32) (x1 : Vec Ideal S256x8x16x32 .f32) (x2 x3 : Vec Ideal S32x32 .f32) (x4 : Vec Ideal S1x32 .f32)
    (A0 : S1024x8x32.Idx → EReal) (A1 : S1024x8x16x32.Idx → EReal) (A2 A3 : S32x32.Idx → EReal) (A4 : S1x32.Idx → EReal)
    (r : Fin 1024) (p : Fin 256) (q : Fin 8) (o : Fin 32)
    (h0 : ∀ d, x0 (ix3 p q d) = A0 (ix3 r q d)) (h1 : ∀ n d, x1 (ix4 p q n d) = A1 (ix4 r q n d))
    (h2 : ∀ d, x2 (ix2 d o) = A2 (ix2 d o)) (h3 : ∀ d, x3 (ix2 d o) = A3 (ix2 d o)) (h4 : x4 (ix2 0 o) = A4 (ix2 0 o)) :
    out0_5 (F := Ideal) x0 x1 x2 x3 x4 (ix3 p q o)
      = Spec.relu (Spec.lin (Spec.renorm fun d => A0 (ix3 r q d)) (Spec.mean16 fun n => Spec.renorm fun d => A1 (ix4 r q n d))
          (fun d => A2 (ix2 d o)) (fun d => A3 (ix2 d o)) (A4 (ix2 0 o))) := by
  refine (Cell0.out0_5_apply x0 x1 x2 x3 x4 p q o).trans ?_
  have e0 : (fun d => x0 (ix3 p q d)) = fun d => A0 (ix3 r q d) := funext h0
  have e1 : (fun n => Spec.renorm fun d => x1 (ix4 p q n d)) = fun n => Spec.renorm fun d => A1 (ix4 r q n d) :=
    funext fun n => congrArg Spec.renorm (funext (h1 n))
  have e2 : (fun d => x2 (ix2 d o)) = fun d => A2 (ix2 d o) := funext h2
  have e3 : (fun d => x3 (ix2 d o)) = fun d => A3 (ix2 d o) := funext h3
  rw [e0, e1, e2, e3, h4]

/-! ## The array the write-backs leave -/

/-- The layer's value at row b, node q, coordinate o, from row b of the node rows and of the neighbour rows, the two weight
    blocks and the bias row, as the region finds them. -/
def val (c : Dev nD) (b : Fin 1024) (q : Fin 8) (o : Fin 32) : EReal :=
  Spec.relu (Spec.lin (Spec.renorm fun d => V c main_v50 (ix3 b q d)) (Spec.mean16 fun n => Spec.renorm fun d => V c main_v70 (ix4 b q n d))
    (fun d => V c main_v66 (ix2 d o)) (fun d => V c main_v68 (ix2 d o)) (V c main_v69 (ix2 0 o)))

/-- The same, as one function of the output array's index. -/
def G (c : Dev nD) : S1024x8x32.Idx → EReal := fun i => val V c (i 0) (i 1) (i 2)

/-- What point t writes back is block t of that function. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 V c).after 5 t) = _
  rw [after0_5]
  funext j
  obtain ⟨p, q, o, rfl⟩ : ∃ (p : Fin 256) (q : Fin 8) (o : Fin 32), j = ix3 p q o := ⟨j 0, j 1, j 2, eq_ix3 j⟩
  have ht : 256 * t.val + p.val < 1024 := by
    have h4 : t.val < 4 := Nat.lt_of_lt_of_eq t.isLt N_0
    have hp : p.val < 256 := p.isLt
    omega
  obtain ⟨-, -, -, -, -, -, -, -, -, -, -, -, -, e0, e1, e2⟩ := idxFacts t
  rw [View.read_apply]
  have hemb : ((cfg0.win 5).blk t).view.emb (ix3 p q o) = ix3 (⟨256 * t.val + p.val, ht⟩ : Fin 1024) q o := by
    refine funext fun a => Fin.ext ?_
    match a with
    | ⟨0, _⟩ => show win0_5.index t (0 : Fin 3) * 256 + 1 * p.val = 256 * t.val + p.val; omega
    | ⟨1, _⟩ => show win0_5.index t (1 : Fin 3) * 8 + 1 * q.val = q.val; omega
    | ⟨2, _⟩ => show win0_5.index t (2 : Fin 3) * 32 + 1 * o.val = o.val; omega
  show out0_5 (iblk0 V c 0 t) (iblk0 V c 1 t) (iblk0 V c 2 t) (iblk0 V c 3 t) (iblk0 V c 4 t) (ix3 p q o)
    = G V c (((cfg0.win 5).blk t).view.emb (ix3 p q o))
  rw [hemb]
  exact point (iblk0 V c 0 t) (iblk0 V c 1 t) (iblk0 V c 2 t) (iblk0 V c 3 t) (iblk0 V c 4 t)
    (V c main_v50) (V c main_v70) (V c main_v66) (V c main_v68) (V c main_v69) ⟨256 * t.val + p.val, ht⟩ p q o
    (fun d => blk0 V c t p q d ht) (fun n d => blk1 V c t p q n d ht) (fun d => blk2 V c t d o) (fun d => blk3 V c t d o) (blk4 V c t 0 o)

/-! ## The blocks cover the array -/

/-- An index of the output array lies in point t's block iff, on each axis, its coordinate lies in the block's range. -/
theorem mem_blk (t : Fin cfg0.N) (i : S1024x8x32.Idx) :
    i ∈ ((cfg0.win 5).blk t).view.set ↔ ∀ a : Fin 3, win0_5.index t a * S256x8x32.size a ≤ (i a).val ∧ (i a).val < win0_5.index t a * S256x8x32.size a + S256x8x32.size a := by
  show i ∈ ((View.whole main_v71).slice (win0_5.rect t)).set ↔ _
  rw [View.set_slice_whole, Rect.mem_set_unit]
  exact Iff.rfl

/-- Row b of the output array lies in the block of point b / 256, which is written back. -/
theorem cover (i : S1024x8x32.Idx) :
    ∃ t : Fin cfg0.N, (cfg0.win 5).flush t = true ∧ i ∈ ((cfg0.win 5).blk t).view.set := by
  have hi0 : (i 0).val < 1024 := (i 0).isLt
  have hi1 : (i 1).val < 8 := (i 1).isLt
  have hi2 : (i 2).val < 32 := (i 2).isLt
  obtain ⟨t, ht⟩ : ∃ t : Fin cfg0.N, t.val = (i 0).val / 256 :=
    ⟨⟨(i 0).val / 256, by show (i 0).val / 256 < grid0.N; rw [N_0]; omega⟩, rfl⟩
  obtain ⟨-, -, -, -, -, -, -, -, -, -, -, -, -, e0, e1, e2⟩ := idxFacts t
  refine ⟨t, flush0_5 t, ?_⟩
  rw [mem_blk]
  intro a
  match a with
  | ⟨0, _⟩ => show win0_5.index t (0 : Fin 3) * 256 ≤ (i 0).val ∧ (i 0).val < win0_5.index t (0 : Fin 3) * 256 + 256; omega
  | ⟨1, _⟩ => show win0_5.index t (1 : Fin 3) * 8 ≤ (i 1).val ∧ (i 1).val < win0_5.index t (1 : Fin 3) * 8 + 8; omega
  | ⟨2, _⟩ => show win0_5.index t (2 : Fin 3) * 32 ≤ (i 2).val ∧ (i 2).val < win0_5.index t (2 : Fin 3) * 32 + 32; omega

theorem arr0 (c : Dev nD) (b : Fin 1024) (q : Fin 8) (o : Fin 32) :
    (dat0 (F := Ideal) V c).arrAt 5 cfg0.N (ix3 b q o)
      = Spec.relu (Spec.lin (Spec.renorm fun d => V c main_v50 (ix3 b q d)) (Spec.mean16 fun n => Spec.renorm fun d => V c main_v70 (ix4 b q n d))
          (fun d => V c main_v66 (ix2 d o)) (fun d => V c main_v68 (ix2 d o)) (V c main_v69 (ix2 0 o))) :=
  congrFun ((dat0 (F := Ideal) V c).arrAt_eq_of_cover 5 (G V c) (fun t _ => flushed_eq V c t) cover) (ix3 b q o)

end Cert.KernelIdeal.Arr0

end
-- ==== Proof.KCell1.lean ====
/-
  One [16, 128, 32] block of the clipped, rectified layer, read at an entry.

  The body flattens its [16, 128, 32] block of node rows to [2048, 32] (row 128 p + q is node (p, q)), clips every row to norm at
  most one, averages the sixteen clipped neighbour rows of each node, multiplies the two [2048, 32] results by the two 32 × 32
  weight blocks, adds the bias row and rectifies. Read at (p, q, o) that is the layer's formula on the rows of node (p, q):
  each stage below is one operation of the body read at an index, and the last theorem chains them.
-/
import proofs.«106339_j50148038148223_2_alg».proof.Proof.Gen.KernelIdeal.Frame
import proofs.«106339_j50148038148223_2_alg».proof.Proof.Spec
import proofs.«106339_j50148038148223_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Cell1

open Cert.KernelIdeal Cert.KernelIdeal.Gen Idealize.ShloMosaic Idealize.ShloMosaic.ValueIdx

/-- The zero offsets of a rank-3, rank-4 and rank-2 whole-block rectangle, as constant functions. -/
theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz2 : (![0, 0] : Fin 2 → Nat) = fun _ => 0 := funext fun a => by fin_cases a <;> rfl

/-- The block the body leaves is the body's arithmetic on the blocks it read: every load and the one store go through
    whole-block rectangles at offset zero. -/
theorem out1_5_eq (x0 : Vec Ideal S16x128x32 .f32) (x1 : Vec Ideal S16x128x16x32 .f32) (x2 x3 : Vec Ideal S32x32 .f32)
    (x4 : Vec Ideal S1x32 .f32) :
    out1_5 (F := Ideal) x0 x1 x2 x3 x4 = k1_pay1 (k1_pay2 x0) (k1_pay3 x1) (k1_pay4 x2) x3 x4 := by
  unfold out1_5
  rw [View.canon_unit_zero hz3]
  simp only [View.ld_unit_zero (S := S16x128x32) hz3, View.ld_unit_zero (S := S16x128x16x32) hz4,
    View.ld_unit_zero (S := S32x32) hz2, View.ld_unit_zero (S := S1x32) hz2]

/-- The first weight block passes through unchanged (a reshape to its own shape; narrowing is the identity on the
    extended reals). -/
theorem pay4_eq (x2 : Vec Ideal S32x32 .f32) : k1_pay4 (F := Ideal) x2 = x2 := by
  unfold k1_pay4
  funext i
  show shapeCast S32x32 x2 _ i = x2 i
  rw [shapeCast_self]

/-- Row-major position: entry (p, q, d) of the [16, 128, 32] block is entry (128 p + q, d) of its [2048, 32] flattening. -/
theorem flat_pos (p : Fin 16) (q : Fin 128) (d : Fin 32) (r : Fin 2048) (hr : r.val = 128 * p.val + q.val) :
    (S16x128x32.rowMajor (ix3 p q d)).val = (S2048x32.rowMajor (ix2 r d)).val := by
  simp only [Shape.rowMajor_val_three, Shape.rowMajor_val_two]
  show (p.val * 128 + q.val) * 32 + d.val = r.val * 32 + d.val
  omega

/-- The lane sum of the squares of a [16, 128, 32] block, kept as a [16, 128, 1] column, read at (p, q, 0):
    the sum over k of the squares of the row (p, q, ·). -/
theorem sumsq3_apply (x0 : Vec Ideal S16x128x32 .f32) (hφ : FKind.Formats .f32)
    (hacc : (0x00000000#32 : BitVec 32) = FKind.add.neutral .f32 hφ) (p : Fin 16) (q : Fin 128) :
    shapeCast S16x128x1 (multiReduction (F := Ideal) .add [2] S16x128 (mulf x0 x0) 0x00000000#32 reduces_S16x128x32_S16x128 hφ hacc)
        shapeCasts_S16x128_S16x128x1 (ix3 p q 0)
      = ∑ k : Fin 32, x0 (ix3 p q k) * x0 (ix3 p q k) := by
  refine (shapeCast_apply _ shapeCasts_S16x128_S16x128x1 (ix3 p q 0) (ix2 p q) ?_).trans ?_
  · simp only [Shape.rowMajor_val_three, Shape.rowMajor_val_two]
    show p.val * 128 + q.val = (p.val * 128 + q.val) * 1 + 0
    omega
  refine (Ideal.multiReduction_add_single (mulf x0 x0) _ reduces_S16x128x32_S16x128 hφ hacc (ix2 p q)).trans ?_
  refine Finset.sum_congr rfl fun k _ => ?_
  have e : reduces_S16x128x32_S16x128.lift (ix2 p q) k = ix3 p q k :=
    funext fun a => Fin.ext (by match a with | ⟨0, _⟩ => rfl | ⟨1, _⟩ => rfl | ⟨2, _⟩ => rfl)
  exact congrArg₂ (· * ·) (congrArg x0 e) (congrArg x0 e)

/-- The clipped node rows, flattened, read at (r, d) with r = 128 p + q: entry d of the row (p, q, ·) times that row's
    clipping factor min(1, 1 / max(√(Σ_k x²), ε)). -/
theorem pay2_apply (x0 : Vec Ideal S16x128x32 .f32) (p : Fin 16) (q : Fin 128) (d : Fin 32) (r : Fin 2048)
    (hr : r.val = 128 * p.val + q.val) :
    k1_pay2 (F := Ideal) x0 (ix2 r d)
      = x0 (ix3 p q d) * min (Ideal.ofBits .f32 0x3F800000#32) (Ideal.div (Ideal.ofBits .f32 0x3F800000#32)
          (max (Ideal.sqrt (∑ k : Fin 32, x0 (ix3 p q k) * x0 (ix3 p q k))) (Ideal.ofBits .f32 0x33D6BF95#32))) := by
  unfold k1_pay2
  rw [shapeCast_self]
  refine (truncf_apply (ψ := .bf16) _ bitsLt_bf16_f32 (ix2 r d)).trans ?_
  refine (shapeCast_apply _ shapeCasts_S16x128x32_S2048x32 (ix2 r d) (ix3 p q d) (flat_pos p q d r hr)).trans ?_
  show x0 (ix3 p q d) * broadcastTo S16x128x32 _ broadcasts_S16x128x1_S16x128x32 (ix3 p q d) = _
  refine congrArg (x0 (ix3 p q d) * ·) ?_
  refine (broadcastTo_apply _ broadcasts_S16x128x1_S16x128x32 (ix3 p q d) (ix3 p q 0) ?_).trans ?_
  · intro a
    match a with
    | ⟨0, _⟩ => rfl
    | ⟨1, _⟩ => rfl
    | ⟨2, _⟩ => rfl
  exact congrArg (fun s => min (Ideal.ofBits .f32 0x3F800000#32) (Ideal.div (Ideal.ofBits .f32 0x3F800000#32)
    (max (Ideal.sqrt s) (Ideal.ofBits .f32 0x33D6BF95#32)))) (sumsq3_apply x0 _ _ p q)

/-- The lane sum of the squares of a [16, 128, 16, 32] block, kept as a [16, 128, 16, 1] column, read at (p, q, n, 0):
    the sum over k of the squares of the row (p, q, n, ·). -/
theorem sumsq4_apply (x1 : Vec Ideal S16x128x16x32 .f32) (hφ : FKind.Formats .f32)
    (hacc : (0x00000000#32 : BitVec 32) = FKind.add.neutral .f32 hφ) (p : Fin 16) (q : Fin 128) (n : Fin 16) :
    shapeCast S16x128x16x1 (multiReduction (F := Ideal) .add [3] S16x128x16 (mulf x1 x1) 0x00000000#32 reduces_S16x128x16x32_S16x128x16 hφ hacc)
        shapeCasts_S16x128x16_S16x128x16x1 (ix4 p q n 0)
      = ∑ k : Fin 32, x1 (ix4 p q n k) * x1 (ix4 p q n k) := by
  refine (shapeCast_apply _ shapeCasts_S16x128x16_S16x128x16x1 (ix4 p q n 0) (ix3 p q n) ?_).trans ?_
  · simp only [Shape.rowMajor_val_three, Shape.rowMajor_val_four]
    show (p.val * 128 + q.val) * 16 + n.val = ((p.val * 128 + q.val) * 16 + n.val) * 1 + 0
    omega
  refine (Ideal.multiReduction_add_single (mulf x1 x1) _ reduces_S16x128x16x32_S16x128x16 hφ hacc (ix3 p q n)).trans ?_
  refine Finset.sum_congr rfl fun k _ => ?_
  have e : reduces_S16x128x16x32_S16x128x16.lift (ix3 p q n) k = ix4 p q n k :=
    funext fun a => Fin.ext (by match a with | ⟨0, _⟩ => rfl | ⟨1, _⟩ => rfl | ⟨2, _⟩ => rfl | ⟨3, _⟩ => rfl)
  exact congrArg₂ (· * ·) (congrArg x1 e) (congrArg x1 e)

/-- The averaged clipped neighbour rows, flattened, read at (r, d) with r = 128 p + q: the sum over the sixteen neighbours n of
    entry d of the row (p, q, n, ·) times that row's clipping factor, divided by sixteen. -/
theorem pay3_apply (x1 : Vec Ideal S16x128x16x32 .f32) (p : Fin 16) (q : Fin 128) (d : Fin 32) (r : Fin 2048)
    (hr : r.val = 128 * p.val + q.val) :
    k1_pay3 (F := Ideal) x1 (ix2 r d)
      = Ideal.div (∑ n : Fin 16, x1 (ix4 p q n d) * min (Ideal.ofBits .f32 0x3F800000#32) (Ideal.div (Ideal.ofBits .f32 0x3F800000#32)
          (max (Ideal.sqrt (∑ k : Fin 32, x1 (ix4 p q n k) * x1 (ix4 p q n k))) (Ideal.ofBits .f32 0x33D6BF95#32))))
          (Ideal.ofBits .f32 0x41800000#32) := by
  unfold k1_pay3
  rw [shapeCast_self]
  refine (truncf_apply (ψ := .bf16) _ bitsLt_bf16_f32 (ix2 r d)).trans ?_
  refine (shapeCast_apply _ shapeCasts_S16x128x32_S2048x32 (ix2 r d) (ix3 p q d) (flat_pos p q d r hr)).trans ?_
  show Ideal.div (multiReduction (F := Ideal) .add [2] S16x128x32 _ 0x00000000#32 reduces_S16x128x16x32_S16x128x32 _ _ (ix3 p q d)) _ = _
  refine congrArg (fun s => Ideal.div s (Ideal.ofBits .f32 0x41800000#32)) ?_
  refine (Ideal.multiReduction_add_single _ _ reduces_S16x128x16x32_S16x128x32 _ _ (ix3 p q d)).trans ?_
  refine Finset.sum_congr rfl fun n _ => ?_
  have e : reduces_S16x128x16x32_S16x128x32.lift (ix3 p q d) n = ix4 p q n d :=
    funext fun a => Fin.ext (by match a with | ⟨0, _⟩ => rfl | ⟨1, _⟩ => rfl | ⟨2, _⟩ => rfl | ⟨3, _⟩ => rfl)
  refine (congrArg _ e).trans ?_
  show x1 (ix4 p q n d) * broadcastTo S16x128x16x32 _ broadcasts_S16x128x16x1_S16x128x16x32 (ix4 p q n d) = _
  refine congrArg (x1 (ix4 p q n d) * ·) ?_
  refine (broadcastTo_apply _ broadcasts_S16x128x16x1_S16x128x16x32 (ix4 p q n d) (ix4 p q n 0) ?_).trans ?_
  · intro a
    match a with
    | ⟨0, _⟩ => rfl
    | ⟨1, _⟩ => rfl
    | ⟨2, _⟩ => rfl
    | ⟨3, _⟩ => rfl
  exact congrArg (fun s => min (Ideal.ofBits .f32 0x3F800000#32) (Ideal.div (Ideal.ofBits .f32 0x3F800000#32)
    (max (Ideal.sqrt s) (Ideal.ofBits .f32 0x33D6BF95#32)))) (sumsq4_apply x1 _ _ p q n)

/-- The body's last stage read at (p, q, o), with r = 128 p + q the row of the flattened block: the two matrix products'
    entries (r, o), summed, plus the bias row's entry o, rectified. -/
theorem pay1_apply (v32 v34 : FVec Ideal S2048x32 .bf16) (v37 : FVec Ideal S32x32 .bf16) (v38 : Vec Ideal S32x32 .f32)
    (v44 : Vec Ideal S1x32 .f32) (p : Fin 16) (q : Fin 128) (o : Fin 32) (r : Fin 2048) (hr : r.val = 128 * p.val + q.val) :
    k1_pay1 (F := Ideal) v32 v34 v37 v38 v44 (ix3 p q o)
      = max (((∑ d : Fin 32, v32 (ix2 r d) * v37 (ix2 d o)) + ∑ d : Fin 32, v34 (ix2 r d) * v38 (ix2 d o)) + v44 (ix2 (0 : Fin 1) o))
          (Ideal.ofBits .f32 0x00000000#32) := by
  unfold k1_pay1
  rw [shapeCast_self, shapeCast_self]
  show max (shapeCast S16x128x32 _ shapeCasts_S2048x32_S16x128x32 (ix3 p q o)) _ = _
  refine congrArg (fun s => max s (Ideal.ofBits .f32 0x00000000#32)) ?_
  refine (shapeCast_apply _ shapeCasts_S2048x32_S16x128x32 (ix3 p q o) (ix2 r o) (flat_pos p q o r hr).symm).trans ?_
  refine congrArg₂ (· + ·) (congrArg₂ (· + ·) ?_ ?_) ?_
  · exact Cert.PlainDot.matmul_zero_apply dot_S2048x32_S32x32_S2048x32_1_0_0_1_n_n rfl rfl rfl rfl rfl rfl none v32 v37 r o
  · exact Cert.PlainDot.matmul_zero_apply dot_S2048x32_S32x32_S2048x32_1_0_0_1_n_n rfl rfl rfl rfl rfl rfl none v34
      (truncf .bf16 v38 bitsLt_bf16_f32) r o
  · exact broadcastTo_1b_ab_apply v44 broadcasts_S1x32_S2048x32 r o

/-- Entry (p, q, o) of the block the body leaves is the layer's formula on the rows of node (p, q). -/
theorem out1_5_apply (x0 : Vec Ideal S16x128x32 .f32) (x1 : Vec Ideal S16x128x16x32 .f32) (x2 x3 : Vec Ideal S32x32 .f32)
    (x4 : Vec Ideal S1x32 .f32) (p : Fin 16) (q : Fin 128) (o : Fin 32) :
    out1_5 (F := Ideal) x0 x1 x2 x3 x4 (ix3 p q o)
      = Spec.relu (Spec.lin (Spec.renorm fun d => x0 (ix3 p q d)) (Spec.mean16 fun n => Spec.renorm fun d => x1 (ix4 p q n d))
          (fun d => x2 (ix2 d o)) (fun d => x3 (ix2 d o)) (x4 (ix2 0 o))) := by
  have hr : (⟨128 * p.val + q.val, by omega⟩ : Fin 2048).val = 128 * p.val + q.val := rfl
  rw [out1_5_eq]
  refine (pay1_apply _ _ _ x3 x4 p q o _ hr).trans ?_
  rw [pay4_eq]
  simp only [pay2_apply x0 p q _ _ hr, pay3_apply x1 p q _ _ hr]
  rfl

end Cert.KernelIdeal.Cell1

end
-- ==== Proof.KArr1.lean ====
/-
  From blocks to the array, second region: the rectified layer at the second hop's nodes.

  The region writes its output array [1024, 128, 32] back in sixty-four blocks of 16 batch rows.  What a grid point writes back is the
  body's result of its input blocks, an input block's entry is its array's entry 16·t rows down (the node rows and the neighbour
  rows) or the array's own entry (the two weight blocks and the bias row), and the blocks tile the array: so the array ends,
  entry by entry, at the layer of the arrays the region was entered with.
-/
import proofs.«106339_j50148038148223_2_alg».proof.Proof.Gen.KernelIdeal.Frame
import proofs.«106339_j50148038148223_2_alg».proof.Proof.Spec
import proofs.«106339_j50148038148223_2_alg».proof.Proof.KCell1
import Idealize.ShloMosaic.Lib.Pipeline.Value
import Idealize.ShloMosaic.Lib.ValueIdx
import Idealize.ShloMosaic.PureOps.Ideal.Laws

noncomputable section

open scoped BigOperators

namespace Cert.KernelIdeal.Arr1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! # From blocks to the array, first layer at the second hop's nodes

The output array [1024, 128, 32] is written back block by block: point t of the sixty-four writes rows 16·t … 16·t+15, and what
it writes is the body's result on the input blocks at t. Those blocks are rows 16·t … 16·t+15 of the node rows and of the
neighbour rows, and the whole of the two weight arrays and of the bias row. So each written block is the restriction of ONE
function of the output's index — the layer's value from that row — and, the sixty-four blocks covering the array, the array
ends holding that function. -/

/-- The printed index maps, decided over the sixty-four grid points: the node rows' and neighbour rows' windows and the output's
    window sit at block t along the batch axis and at block 0 along every other; the weight and bias windows at block 0. -/
theorem idxFacts : ∀ t : Fin cfg1.N,
    win1_0.index t (0 : Fin 3) = t.val ∧ win1_0.index t (1 : Fin 3) = 0 ∧ win1_0.index t (2 : Fin 3) = 0
    ∧ win1_1.index t (0 : Fin 4) = t.val ∧ win1_1.index t (1 : Fin 4) = 0 ∧ win1_1.index t (2 : Fin 4) = 0 ∧ win1_1.index t (3 : Fin 4) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val ∧ win1_5.index t (1 : Fin 3) = 0 ∧ win1_5.index t (2 : Fin 3) = 0 :=
  (by decide +kernel : ∀ t : Fin grid1.N, _)

/-! ## The input blocks, entry by entry

An element of a block sits in its array, on each axis, at the block's index times the block's extent plus its own coordinate.
The node rows' and neighbour rows' blocks at point t are rows 16·t … 16·t+15 of their arrays; the weight blocks and the bias
row are their whole arrays. -/

/-- Row p of the node rows' block at point t is row 16·t + p of the array. -/
theorem blk0 (c : Dev nD) (t : Fin cfg1.N) (p : Fin 16) (q : Fin 128) (d : Fin 32) (ht : 16 * t.val + p.val < 1024) :
    iblk1 (F := Ideal) V c 0 t (ix3 p q d) = V c main_v57 (ix3 ⟨16 * t.val + p.val, ht⟩ q d) := by
  obtain ⟨e0, e1, e2, -⟩ := idxFacts t
  unfold iblk1
  rw [View.read_apply]
  show V c main_v57 (((cfg1.win 0).blk t).view.emb (ix3 p q d)) = _
  refine congrArg (V c main_v57) (funext fun a => Fin.ext ?_)
  match a with
  | ⟨0, _⟩ => show win1_0.index t (0 : Fin 3) * 16 + 1 * p.val = 16 * t.val + p.val; omega
  | ⟨1, _⟩ => show win1_0.index t (1 : Fin 3) * 128 + 1 * q.val = q.val; omega
  | ⟨2, _⟩ => show win1_0.index t (2 : Fin 3) * 32 + 1 * d.val = d.val; omega

/-- Row p of the neighbour rows' block at point t is row 16·t + p of the array. -/
theorem blk1 (c : Dev nD) (t : Fin cfg1.N) (p : Fin 16) (q : Fin 128) (n : Fin 16) (d : Fin 32) (ht : 16 * t.val + p.val < 1024) :
    iblk1 (F := Ideal) V c 1 t (ix4 p q n d) = V c main_v72 (ix4 ⟨16 * t.val + p.val, ht⟩ q n d) := by
  obtain ⟨-, -, -, e0, e1, e2, e3, -⟩ := idxFacts t
  unfold iblk1
  rw [View.read_apply]
  show V c main_v72 (((cfg1.win 1).blk t).view.emb (ix4 p q n d)) = _
  refine congrArg (V c main_v72) (funext fun a => Fin.ext ?_)
  match a with
  | ⟨0, _⟩ => show win1_1.index t (0 : Fin 4) * 16 + 1 * p.val = 16 * t.val + p.val; omega
  | ⟨1, _⟩ => show win1_1.index t (1 : Fin 4) * 128 + 1 * q.val = q.val; omega
  | ⟨2, _⟩ => show win1_1.index t (2 : Fin 4) * 16 + 1 * n.val = n.val; omega
  | ⟨3, _⟩ => show win1_1.index t (3 : Fin 4) * 32 + 1 * d.val = d.val; omega

/-- The first weight block is the whole array at every point. -/
theorem blk2 (c : Dev nD) (t : Fin cfg1.N) (d o : Fin 32) :
    iblk1 (F := Ideal) V c 2 t (ix2 d o) = V c main_v66 (ix2 d o) := by
  obtain ⟨-, -, -, -, -, -, -, e0, e1, -⟩ := idxFacts t
  unfold iblk1
  rw [View.read_apply]
  show V c main_v66 (((cfg1.win 2).blk t).view.emb (ix2 d o)) = _
  refine congrArg (V c main_v66) (funext fun a => Fin.ext ?_)
  match a with
  | ⟨0, _⟩ => show win1_2.index t (0 : Fin 2) * 32 + 1 * d.val = d.val; omega
  | ⟨1, _⟩ => show win1_2.index t (1 : Fin 2) * 32 + 1 * o.val = o.val; omega

/-- The second weight block is the whole array at every point. -/
theorem blk3 (c : Dev nD) (t : Fin cfg1.N) (d o : Fin 32) :
    iblk1 (F := Ideal) V c 3 t (ix2 d o) = V c main_v68 (ix2 d o) := by
  obtain ⟨-, -, -, -, -, -, -, -, -, e0, e1, -⟩ := idxFacts t
  unfold iblk1
  rw [View.read_apply]
  show V c main_v68 (((cfg1.win 3).blk t).view.emb (ix2 d o)) = _
  refine congrArg (V c main_v68) (funext fun a => Fin.ext ?_)
  match a with
  | ⟨0, _⟩ => show win1_3.index t (0 : Fin 2) * 32 + 1 * d.val = d.val; omega
  | ⟨1, _⟩ => show win1_3.index t (1 : Fin 2) * 32 + 1 * o.val = o.val; omega

/-- The bias block is the whole row at every point. -/
theorem blk4 (c : Dev nD) (t : Fin cfg1.N) (z : Fin 1) (o : Fin 32) :
    iblk1 (F := Ideal) V c 4 t (ix2 z o) = V c main_v69 (ix2 z o) := by
  obtain ⟨-, -, -, -, -, -, -, -, -, -, -, e0, e1, -⟩ := idxFacts t
  unfold iblk1
  rw [View.read_apply]
  show V c main_v69 (((cfg1.win 4).blk t).view.emb (ix2 z o)) = _
  refine congrArg (V c main_v69) (funext fun a => Fin.ext ?_)
  match a with
  | ⟨0, _⟩ => show win1_4.index t (0 : Fin 2) * 1 + 1 * z.val = z.val; omega
  | ⟨1, _⟩ => show win1_4.index t (1 : Fin 2) * 32 + 1 * o.val = o.val; omega

/-! ## One point's result, from arrays its blocks are read off -/

/-- The body's result at block row p, when row p of the two row blocks is row r of two arrays and the weight and bias blocks
    are three arrays: the layer's value from row r. Stated over any blocks and arrays. -/
theorem point (x0 : Vec Ideal S16x128x32 .f32) (x1 : Vec Ideal S16x128x16x32 .f32) (x2 x3 : Vec Ideal S32x32 .f32) (x4 : Vec Ideal S1x32 .f32)
    (A0 : S1024x128x32.Idx → EReal) (A1 : S1024x128x16x32.Idx → EReal) (A2 A3 : S32x32.Idx → EReal) (A4 : S1x32.Idx → EReal)
    (r : Fin 1024) (p : Fin 16) (q : Fin 128) (o : Fin 32)
    (h0 : ∀ d, x0 (ix3 p q d) = A0 (ix3 r q d)) (h1 : ∀ n d, x1 (ix4 p q n d) = A1 (ix4 r q n d))
    (h2 : ∀ d, x2 (ix2 d o) = A2 (ix2 d o)) (h3 : ∀ d, x3 (ix2 d o) = A3 (ix2 d o)) (h4 : x4 (ix2 0 o) = A4 (ix2 0 o)) :
    out1_5 (F := Ideal) x0 x1 x2 x3 x4 (ix3 p q o)
      = Spec.relu (Spec.lin (Spec.renorm fun d => A0 (ix3 r q d)) (Spec.mean16 fun n => Spec.renorm fun d => A1 (ix4 r q n d))
          (fun d => A2 (ix2 d o)) (fun d => A3 (ix2 d o)) (A4 (ix2 0 o))) := by
  refine (Cell1.out1_5_apply x0 x1 x2 x3 x4 p q o).trans ?_
  have e0 : (fun d => x0 (ix3 p q d)) = fun d => A0 (ix3 r q d) := funext h0
  have e1 : (fun n => Spec.renorm fun d => x1 (ix4 p q n d)) = fun n => Spec.renorm fun d => A1 (ix4 r q n d) :=
    funext fun n => congrArg Spec.renorm (funext (h1 n))
  have e2 : (fun d => x2 (ix2 d o)) = fun d => A2 (ix2 d o) := funext h2
  have e3 : (fun d => x3 (ix2 d o)) = fun d => A3 (ix2 d o) := funext h3
  rw [e0, e1, e2, e3, h4]

/-! ## The array the write-backs leave -/

/-- The layer's value at row b, node q, coordinate o, from row b of the node rows and of the neighbour rows, the two weight
    blocks and the bias row, as the region finds them. -/
def val (c : Dev nD) (b : Fin 1024) (q : Fin 128) (o : Fin 32) : EReal :=
  Spec.relu (Spec.lin (Spec.renorm fun d => V c main_v57 (ix3 b q d)) (Spec.mean16 fun n => Spec.renorm fun d => V c main_v72 (ix4 b q n d))
    (fun d => V c main_v66 (ix2 d o)) (fun d => V c main_v68 (ix2 d o)) (V c main_v69 (ix2 0 o)))

/-- The same, as one function of the output array's index. -/
def G (c : Dev nD) : S1024x128x32.Idx → EReal := fun i => val V c (i 0) (i 1) (i 2)

/-- What point t writes back is block t of that function. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 V c).after 5 t) = _
  rw [after1_5]
  funext j
  obtain ⟨p, q, o, rfl⟩ : ∃ (p : Fin 16) (q : Fin 128) (o : Fin 32), j = ix3 p q o := ⟨j 0, j 1, j 2, eq_ix3 j⟩
  have ht : 16 * t.val + p.val < 1024 := by
    have hN : t.val < 64 := Nat.lt_of_lt_of_eq t.isLt N_1
    have hp : p.val < 16 := p.isLt
    omega
  obtain ⟨-, -, -, -, -, -, -, -, -, -, -, -, -, e0, e1, e2⟩ := idxFacts t
  rw [View.read_apply]
  have hemb : ((cfg1.win 5).blk t).view.emb (ix3 p q o) = ix3 (⟨16 * t.val + p.val, ht⟩ : Fin 1024) q o := by
    refine funext fun a => Fin.ext ?_
    match a with
    | ⟨0, _⟩ => show win1_5.index t (0 : Fin 3) * 16 + 1 * p.val = 16 * t.val + p.val; omega
    | ⟨1, _⟩ => show win1_5.index t (1 : Fin 3) * 128 + 1 * q.val = q.val; omega
    | ⟨2, _⟩ => show win1_5.index t (2 : Fin 3) * 32 + 1 * o.val = o.val; omega
  show out1_5 (iblk1 V c 0 t) (iblk1 V c 1 t) (iblk1 V c 2 t) (iblk1 V c 3 t) (iblk1 V c 4 t) (ix3 p q o)
    = G V c (((cfg1.win 5).blk t).view.emb (ix3 p q o))
  rw [hemb]
  exact point (iblk1 V c 0 t) (iblk1 V c 1 t) (iblk1 V c 2 t) (iblk1 V c 3 t) (iblk1 V c 4 t)
    (V c main_v57) (V c main_v72) (V c main_v66) (V c main_v68) (V c main_v69) ⟨16 * t.val + p.val, ht⟩ p q o
    (fun d => blk0 V c t p q d ht) (fun n d => blk1 V c t p q n d ht) (fun d => blk2 V c t d o) (fun d => blk3 V c t d o) (blk4 V c t 0 o)

/-! ## The blocks cover the array -/

/-- An index of the output array lies in point t's block iff, on each axis, its coordinate lies in the block's range. -/
theorem mem_blk (t : Fin cfg1.N) (i : S1024x128x32.Idx) :
    i ∈ ((cfg1.win 5).blk t).view.set ↔ ∀ a : Fin 3, win1_5.index t a * S16x128x32.size a ≤ (i a).val ∧ (i a).val < win1_5.index t a * S16x128x32.size a + S16x128x32.size a := by
  show i ∈ ((View.whole main_v73).slice (win1_5.rect t)).set ↔ _
  rw [View.set_slice_whole, Rect.mem_set_unit]
  exact Iff.rfl

/-- Row b of the output array lies in the block of point b / 16, which is written back. -/
theorem cover (i : S1024x128x32.Idx) :
    ∃ t : Fin cfg1.N, (cfg1.win 5).flush t = true ∧ i ∈ ((cfg1.win 5).blk t).view.set := by
  have hi0 : (i 0).val < 1024 := (i 0).isLt
  have hi1 : (i 1).val < 128 := (i 1).isLt
  have hi2 : (i 2).val < 32 := (i 2).isLt
  obtain ⟨t, ht⟩ : ∃ t : Fin cfg1.N, t.val = (i 0).val / 16 :=
    ⟨⟨(i 0).val / 16, by show (i 0).val / 16 < grid1.N; rw [N_1]; omega⟩, rfl⟩
  obtain ⟨-, -, -, -, -, -, -, -, -, -, -, -, -, e0, e1, e2⟩ := idxFacts t
  refine ⟨t, flush1_5 t, ?_⟩
  rw [mem_blk]
  intro a
  match a with
  | ⟨0, _⟩ => show win1_5.index t (0 : Fin 3) * 16 ≤ (i 0).val ∧ (i 0).val < win1_5.index t (0 : Fin 3) * 16 + 16; omega
  | ⟨1, _⟩ => show win1_5.index t (1 : Fin 3) * 128 ≤ (i 1).val ∧ (i 1).val < win1_5.index t (1 : Fin 3) * 128 + 128; omega
  | ⟨2, _⟩ => show win1_5.index t (2 : Fin 3) * 32 ≤ (i 2).val ∧ (i 2).val < win1_5.index t (2 : Fin 3) * 32 + 32; omega

theorem arr1 (c : Dev nD) (b : Fin 1024) (q : Fin 128) (o : Fin 32) :
    (dat1 (F := Ideal) V c).arrAt 5 cfg1.N (ix3 b q o)
      = Spec.relu (Spec.lin (Spec.renorm fun d => V c main_v57 (ix3 b q d)) (Spec.mean16 fun n => Spec.renorm fun d => V c main_v72 (ix4 b q n d))
          (fun d => V c main_v66 (ix2 d o)) (fun d => V c main_v68 (ix2 d o)) (V c main_v69 (ix2 0 o))) :=
  congrFun ((dat1 (F := Ideal) V c).arrAt_eq_of_cover 5 (G V c) (fun t _ => flushed_eq V c t) cover) (ix3 b q o)

end Cert.KernelIdeal.Arr1

end
-- ==== Proof.KCell2.lean ====
/-
  One [256, 8, 32] block of the unclipped layer with the hyperbolic tangent, read at an entry.

  The body averages the sixteen neighbour rows of each node, flattens its [256, 8, 32] block of node rows and the block of averages
  to [2048, 32] (row 8 p + q is node (p, q)), multiplies them by the two 32 × 32 weight blocks, adds the bias row and applies tanh.
  Read at (p, q, o) that is the layer's formula on the rows of node (p, q): each step of the proof below is one operation of the
  body read at an index.
-/
import proofs.«106339_j50148038148223_2_alg».proof.Proof.Gen.KernelIdeal.Frame
import proofs.«106339_j50148038148223_2_alg».proof.Proof.Spec
import proofs.«106339_j50148038148223_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Cell2

open Cert.KernelIdeal Cert.KernelIdeal.Gen Idealize.ShloMosaic Idealize.ShloMosaic.ValueIdx

/-- The zero offsets of a rank-3, rank-4 and rank-2 whole-block rectangle, as constant functions. -/
theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz2 : (![0, 0] : Fin 2 → Nat) = fun _ => 0 := funext fun a => by fin_cases a <;> rfl

/-- The block the body leaves is the body's arithmetic on the blocks it read: every load and the one store go through
    whole-block rectangles at offset zero. -/
theorem out2_5_eq (x0 : Vec Ideal S256x8x32 .f32) (x1 : Vec Ideal S256x8x16x32 .f32) (x2 x3 : Vec Ideal S32x32 .f32)
    (x4 : Vec Ideal S1x32 .f32) :
    out2_5 (F := Ideal) x0 x1 x2 x3 x4 = k2_pay1 x0 x1 x2 x3 x4 := by
  unfold out2_5
  rw [View.canon_unit_zero hz3]
  simp only [View.ld_unit_zero (S := S256x8x32) hz3, View.ld_unit_zero (S := S256x8x16x32) hz4,
    View.ld_unit_zero (S := S32x32) hz2, View.ld_unit_zero (S := S1x32) hz2]

/-- Row-major position: entry (p, q, d) of the [256, 8, 32] block is entry (8 p + q, d) of its [2048, 32] flattening. -/
theorem flat_pos (p : Fin 256) (q : Fin 8) (d : Fin 32) (r : Fin 2048) (hr : r.val = 8 * p.val + q.val) :
    (S256x8x32.rowMajor (ix3 p q d)).val = (S2048x32.rowMajor (ix2 r d)).val := by
  simp only [Shape.rowMajor_val_three, Shape.rowMajor_val_two]
  show (p.val * 8 + q.val) * 32 + d.val = r.val * 32 + d.val
  omega

/-- The neighbour sum over axis 2 of a [256, 8, 16, 32] block read at (p, q, d): the sum over n of entry (p, q, n, d). -/
theorem nbrsum_apply (x1 : Vec Ideal S256x8x16x32 .f32) (hφ : FKind.Formats .f32)
    (hacc : (0x00000000#32 : BitVec 32) = FKind.add.neutral .f32 hφ) (p : Fin 256) (q : Fin 8) (d : Fin 32) :
    multiReduction (F := Ideal) .add [2] S256x8x32 x1 0x00000000#32 reduces_S256x8x16x32_S256x8x32 hφ hacc (ix3 p q d)
      = ∑ n : Fin 16, x1 (ix4 p q n d) := by
  refine (Ideal.multiReduction_add_single x1 _ reduces_S256x8x16x32_S256x8x32 hφ hacc (ix3 p q d)).trans ?_
  refine Finset.sum_congr rfl fun n _ => ?_
  have e : reduces_S256x8x16x32_S256x8x32.lift (ix3 p q d) n = ix4 p q n d :=
    funext fun a => Fin.ext (by match a with | ⟨0, _⟩ => rfl | ⟨1, _⟩ => rfl | ⟨2, _⟩ => rfl | ⟨3, _⟩ => rfl)
  exact congrArg x1 e

/-- The body read at (p, q, o), with r = 8 p + q the row of the flattened blocks: the node row (p, q, ·) against column o of the
    first weight block, plus the neighbours' average against column o of the second, plus the bias row's entry o, through tanh. -/
theorem pay1_apply (x0 : Vec Ideal S256x8x32 .f32) (x1 : Vec Ideal S256x8x16x32 .f32) (x2 x3 : Vec Ideal S32x32 .f32)
    (x4 : Vec Ideal S1x32 .f32) (p : Fin 256) (q : Fin 8) (o : Fin 32) (r : Fin 2048) (hr : r.val = 8 * p.val + q.val) :
    k2_pay1 (F := Ideal) x0 x1 x2 x3 x4 (ix3 p q o)
      = Ideal.tanh (((∑ d : Fin 32, x0 (ix3 p q d) * x2 (ix2 d o))
          + ∑ d : Fin 32, Ideal.div (∑ n : Fin 16, x1 (ix4 p q n d)) (Ideal.ofBits .f32 0x41800000#32) * x3 (ix2 d o))
          + x4 (ix2 (0 : Fin 1) o)) := by
  unfold k2_pay1
  simp only [shapeCast_self]
  show Ideal.tanh (shapeCast S256x8x32 _ shapeCasts_S2048x32_S256x8x32 (ix3 p q o)) = _
  refine congrArg Ideal.tanh ?_
  refine (shapeCast_apply _ shapeCasts_S2048x32_S256x8x32 (ix3 p q o) (ix2 r o) (flat_pos p q o r hr).symm).trans ?_
  refine congrArg₂ (· + ·) (congrArg₂ (· + ·) ?_ ?_) ?_
  · refine (Cert.PlainDot.matmul_zero_apply dot_S2048x32_S32x32_S2048x32_1_0_0_1_n_n rfl rfl rfl rfl rfl rfl none
      (truncf .bf16 (shapeCast S2048x32 x0 shapeCasts_S256x8x32_S2048x32) bitsLt_bf16_f32) (truncf .bf16 x2 bitsLt_bf16_f32) r o).trans ?_
    refine Finset.sum_congr rfl fun d _ => ?_
    refine congrArg (· * x2 (ix2 d o)) ?_
    refine (truncf_apply (ψ := .bf16) _ bitsLt_bf16_f32 (ix2 r d)).trans ?_
    exact shapeCast_apply x0 shapeCasts_S256x8x32_S2048x32 (ix2 r d) (ix3 p q d) (flat_pos p q d r hr)
  · refine (Cert.PlainDot.matmul_zero_apply dot_S2048x32_S32x32_S2048x32_1_0_0_1_n_n rfl rfl rfl rfl rfl rfl none
      (truncf .bf16 (shapeCast S2048x32 _ shapeCasts_S256x8x32_S2048x32) bitsLt_bf16_f32) (truncf .bf16 x3 bitsLt_bf16_f32) r o).trans ?_
    refine Finset.sum_congr rfl fun d _ => ?_
    refine congrArg (· * x3 (ix2 d o)) ?_
    refine (truncf_apply (ψ := .bf16) _ bitsLt_bf16_f32 (ix2 r d)).trans ?_
    refine (shapeCast_apply _ shapeCasts_S256x8x32_S2048x32 (ix2 r d) (ix3 p q d) (flat_pos p q d r hr)).trans ?_
    exact congrArg (fun s => Ideal.div s (Ideal.ofBits .f32 0x41800000#32)) (nbrsum_apply x1 _ _ p q d)
  · exact broadcastTo_1b_ab_apply x4 broadcasts_S1x32_S2048x32 r o

/-- Entry (p, q, o) of the block the body leaves is the layer's formula on the rows of node (p, q). -/
theorem out2_5_apply (x0 : Vec Ideal S256x8x32 .f32) (x1 : Vec Ideal S256x8x16x32 .f32) (x2 x3 : Vec Ideal S32x32 .f32)
    (x4 : Vec Ideal S1x32 .f32) (p : Fin 256) (q : Fin 8) (o : Fin 32) :
    out2_5 (F := Ideal) x0 x1 x2 x3 x4 (ix3 p q o)
      = Ideal.tanh (Spec.lin (fun d => x0 (ix3 p q d)) (Spec.mean16 fun n d => x1 (ix4 p q n d))
          (fun d => x2 (ix2 d o)) (fun d => x3 (ix2 d o)) (x4 (ix2 0 o))) := by
  have hr : (⟨8 * p.val + q.val, by omega⟩ : Fin 2048).val = 8 * p.val + q.val := rfl
  rw [out2_5_eq]
  exact pay1_apply x0 x1 x2 x3 x4 p q o _ hr

end Cert.KernelIdeal.Cell2

end
-- ==== Proof.KArr2.lean ====
/-
  From blocks to the array, third region: the second layer, through tanh, over the first two regions' outputs.

  The region writes its output array [1024, 8, 32] back in four blocks of 256 batch rows.  What a grid point writes back is the
  body's result of its input blocks, an input block's entry is its array's entry 256·t rows down (the node rows and the neighbour
  rows) or the array's own entry (the two weight blocks and the bias row), and the four blocks tile the array: so the array ends,
  entry by entry, at the layer of the arrays the region was entered with.
-/
import proofs.«106339_j50148038148223_2_alg».proof.Proof.Gen.KernelIdeal.Frame
import proofs.«106339_j50148038148223_2_alg».proof.Proof.Spec
import proofs.«106339_j50148038148223_2_alg».proof.Proof.KCell2
import Idealize.ShloMosaic.Lib.Pipeline.Value
import Idealize.ShloMosaic.Lib.ValueIdx
import Idealize.ShloMosaic.PureOps.Ideal.Laws

noncomputable section

open scoped BigOperators

namespace Cert.KernelIdeal.Arr2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! # From blocks to the array, second layer

The output array [1024, 8, 32] is written back block by block: point t of the four writes rows 256·t … 256·t+255, and what it
writes is the body's result on the input blocks at t. Those blocks are rows 256·t … 256·t+255 of the first layer's values at
the first hop's nodes and of the first layer's values at their neighbours, and the whole of the two weight arrays and of the
bias row. So each written block is the restriction of ONE function of the output's index — the second layer's value from
that row — and, the four blocks covering the array, the array ends holding that function. -/

/-- The printed index maps, decided over the four grid points: the two row windows and the output's
    window sit at block t along the batch axis and at block 0 along every other; the weight and bias windows at block 0. -/
theorem idxFacts : ∀ t : Fin cfg2.N,
    win2_0.index t (0 : Fin 3) = t.val ∧ win2_0.index t (1 : Fin 3) = 0 ∧ win2_0.index t (2 : Fin 3) = 0
    ∧ win2_1.index t (0 : Fin 4) = t.val ∧ win2_1.index t (1 : Fin 4) = 0 ∧ win2_1.index t (2 : Fin 4) = 0 ∧ win2_1.index t (3 : Fin 4) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 3) = t.val ∧ win2_5.index t (1 : Fin 3) = 0 ∧ win2_5.index t (2 : Fin 3) = 0 :=
  (by decide +kernel : ∀ t : Fin grid2.N, _)

/-! ## The input blocks, entry by entry

An element of a block sits in its array, on each axis, at the block's index times the block's extent plus its own coordinate.
The two row blocks at point t are rows 256·t … 256·t+255 of their arrays; the weight blocks and the bias
row are their whole arrays. -/

/-- Row p of the first row block at point t is row 256·t + p of the array. -/
theorem blk0 (c : Dev nD) (t : Fin cfg2.N) (p : Fin 256) (q : Fin 8) (d : Fin 32) (ht : 256 * t.val + p.val < 1024) :
    iblk2 (F := Ideal) V c 0 t (ix3 p q d) = V c main_v71 (ix3 ⟨256 * t.val + p.val, ht⟩ q d) := by
  obtain ⟨e0, e1, e2, -⟩ := idxFacts t
  unfold iblk2
  rw [View.read_apply]
  show V c main_v71 (((cfg2.win 0).blk t).view.emb (ix3 p q d)) = _
  refine congrArg (V c main_v71) (funext fun a => Fin.ext ?_)
  match a with
  | ⟨0, _⟩ => show win2_0.index t (0 : Fin 3) * 256 + 1 * p.val = 256 * t.val + p.val; omega
  | ⟨1, _⟩ => show win2_0.index t (1 : Fin 3) * 8 + 1 * q.val = q.val; omega
  | ⟨2, _⟩ => show win2_0.index t (2 : Fin 3) * 32 + 1 * d.val = d.val; omega

/-- Row p of the second row block at point t is row 256·t + p of the array. -/
theorem blk1 (c : Dev nD) (t : Fin cfg2.N) (p : Fin 256) (q : Fin 8) (n : Fin 16) (d : Fin 32) (ht : 256 * t.val + p.val < 1024) :
    iblk2 (F := Ideal) V c 1 t (ix4 p q n d) = V c main_v74 (ix4 ⟨256 * t.val + p.val, ht⟩ q n d) := by
  obtain ⟨-, -, -, e0, e1, e2, e3, -⟩ := idxFacts t
  unfold iblk2
  rw [View.read_apply]
  show V c main_v74 (((cfg2.win 1).blk t).view.emb (ix4 p q n d)) = _
  refine congrArg (V c main_v74) (funext fun a => Fin.ext ?_)
  match a with
  | ⟨0, _⟩ => show win2_1.index t (0 : Fin 4) * 256 + 1 * p.val = 256 * t.val + p.val; omega
  | ⟨1, _⟩ => show win2_1.index t (1 : Fin 4) * 8 + 1 * q.val = q.val; omega
  | ⟨2, _⟩ => show win2_1.index t (2 : Fin 4) * 16 + 1 * n.val = n.val; omega
  | ⟨3, _⟩ => show win2_1.index t (3 : Fin 4) * 32 + 1 * d.val = d.val; omega

/-- The first weight block is the whole array at every point. -/
theorem blk2 (c : Dev nD) (t : Fin cfg2.N) (d o : Fin 32) :
    iblk2 (F := Ideal) V c 2 t (ix2 d o) = V c main_v66 (ix2 d o) := by
  obtain ⟨-, -, -, -, -, -, -, e0, e1, -⟩ := idxFacts t
  unfold iblk2
  rw [View.read_apply]
  show V c main_v66 (((cfg2.win 2).blk t).view.emb (ix2 d o)) = _
  refine congrArg (V c main_v66) (funext fun a => Fin.ext ?_)
  match a with
  | ⟨0, _⟩ => show win2_2.index t (0 : Fin 2) * 32 + 1 * d.val = d.val; omega
  | ⟨1, _⟩ => show win2_2.index t (1 : Fin 2) * 32 + 1 * o.val = o.val; omega

/-- The second weight block is the whole array at every point. -/
theorem blk3 (c : Dev nD) (t : Fin cfg2.N) (d o : Fin 32) :
    iblk2 (F := Ideal) V c 3 t (ix2 d o) = V c main_v68 (ix2 d o) := by
  obtain ⟨-, -, -, -, -, -, -, -, -, e0, e1, -⟩ := idxFacts t
  unfold iblk2
  rw [View.read_apply]
  show V c main_v68 (((cfg2.win 3).blk t).view.emb (ix2 d o)) = _
  refine congrArg (V c main_v68) (funext fun a => Fin.ext ?_)
  match a with
  | ⟨0, _⟩ => show win2_3.index t (0 : Fin 2) * 32 + 1 * d.val = d.val; omega
  | ⟨1, _⟩ => show win2_3.index t (1 : Fin 2) * 32 + 1 * o.val = o.val; omega

/-- The bias block is the whole row at every point. -/
theorem blk4 (c : Dev nD) (t : Fin cfg2.N) (z : Fin 1) (o : Fin 32) :
    iblk2 (F := Ideal) V c 4 t (ix2 z o) = V c main_v69 (ix2 z o) := by
  obtain ⟨-, -, -, -, -, -, -, -, -, -, -, e0, e1, -⟩ := idxFacts t
  unfold iblk2
  rw [View.read_apply]
  show V c main_v69 (((cfg2.win 4).blk t).view.emb (ix2 z o)) = _
  refine congrArg (V c main_v69) (funext fun a => Fin.ext ?_)
  match a with
  | ⟨0, _⟩ => show win2_4.index t (0 : Fin 2) * 1 + 1 * z.val = z.val; omega
  | ⟨1, _⟩ => show win2_4.index t (1 : Fin 2) * 32 + 1 * o.val = o.val; omega

/-! ## One point's result, from arrays its blocks are read off -/

/-- The body's result at block row p, when row p of the two row blocks is row r of two arrays and the weight and bias blocks
    are three arrays: the second layer's value from row r. Stated over any blocks and arrays. -/
theorem point (x0 : Vec Ideal S256x8x32 .f32) (x1 : Vec Ideal S256x8x16x32 .f32) (x2 x3 : Vec Ideal S32x32 .f32) (x4 : Vec Ideal S1x32 .f32)
    (A0 : S1024x8x32.Idx → EReal) (A1 : S1024x8x16x32.Idx → EReal) (A2 A3 : S32x32.Idx → EReal) (A4 : S1x32.Idx → EReal)
    (r : Fin 1024) (p : Fin 256) (q : Fin 8) (o : Fin 32)
    (h0 : ∀ d, x0 (ix3 p q d) = A0 (ix3 r q d)) (h1 : ∀ n d, x1 (ix4 p q n d) = A1 (ix4 r q n d))
    (h2 : ∀ d, x2 (ix2 d o) = A2 (ix2 d o)) (h3 : ∀ d, x3 (ix2 d o) = A3 (ix2 d o)) (h4 : x4 (ix2 0 o) = A4 (ix2 0 o)) :
    out2_5 (F := Ideal) x0 x1 x2 x3 x4 (ix3 p q o)
      = Ideal.tanh (Spec.lin (fun d => A0 (ix3 r q d)) (Spec.mean16 fun n d => A1 (ix4 r q n d))
          (fun d => A2 (ix2 d o)) (fun d => A3 (ix2 d o)) (A4 (ix2 0 o))) := by
  refine (Cell2.out2_5_apply x0 x1 x2 x3 x4 p q o).trans ?_
  have e0 : (fun d => x0 (ix3 p q d)) = fun d => A0 (ix3 r q d) := funext h0
  have e1 : (fun n d => x1 (ix4 p q n d)) = fun n d => A1 (ix4 r q n d) :=
    funext fun n => funext (h1 n)
  have e2 : (fun d => x2 (ix2 d o)) = fun d => A2 (ix2 d o) := funext h2
  have e3 : (fun d => x3 (ix2 d o)) = fun d => A3 (ix2 d o) := funext h3
  rw [e0, e1, e2, e3, h4]

/-! ## The array the write-backs leave -/

/-- The second layer's value at row b, node q, coordinate o, from row b of the two row arrays, the two weight
    blocks and the bias row, as the region finds them. -/
def val (c : Dev nD) (b : Fin 1024) (q : Fin 8) (o : Fin 32) : EReal :=
  Ideal.tanh (Spec.lin (fun d => V c main_v71 (ix3 b q d)) (Spec.mean16 fun n d => V c main_v74 (ix4 b q n d))
    (fun d => V c main_v66 (ix2 d o)) (fun d => V c main_v68 (ix2 d o)) (V c main_v69 (ix2 0 o)))

/-- The same, as one function of the output array's index. -/
def G (c : Dev nD) : S1024x8x32.Idx → EReal := fun i => val V c (i 0) (i 1) (i 2)

/-- What point t writes back is block t of that function. -/
theorem flushed_eq (c : Dev nD) (t : Fin cfg2.N) :
    (dat2 (F := Ideal) V c).flushed 5 t = ((cfg2.win 5).blk t).view.read (Elt Ideal) (G V c) := by
  show (cfg2.win 5).cut (grid2.coords t) ((dat2 V c).after 5 t) = _
  rw [after2_5]
  funext j
  obtain ⟨p, q, o, rfl⟩ : ∃ (p : Fin 256) (q : Fin 8) (o : Fin 32), j = ix3 p q o := ⟨j 0, j 1, j 2, eq_ix3 j⟩
  have ht : 256 * t.val + p.val < 1024 := by
    have h4 : t.val < 4 := Nat.lt_of_lt_of_eq t.isLt N_2
    have hp : p.val < 256 := p.isLt
    omega
  obtain ⟨-, -, -, -, -, -, -, -, -, -, -, -, -, e0, e1, e2⟩ := idxFacts t
  rw [View.read_apply]
  have hemb : ((cfg2.win 5).blk t).view.emb (ix3 p q o) = ix3 (⟨256 * t.val + p.val, ht⟩ : Fin 1024) q o := by
    refine funext fun a => Fin.ext ?_
    match a with
    | ⟨0, _⟩ => show win2_5.index t (0 : Fin 3) * 256 + 1 * p.val = 256 * t.val + p.val; omega
    | ⟨1, _⟩ => show win2_5.index t (1 : Fin 3) * 8 + 1 * q.val = q.val; omega
    | ⟨2, _⟩ => show win2_5.index t (2 : Fin 3) * 32 + 1 * o.val = o.val; omega
  show out2_5 (iblk2 V c 0 t) (iblk2 V c 1 t) (iblk2 V c 2 t) (iblk2 V c 3 t) (iblk2 V c 4 t) (ix3 p q o)
    = G V c (((cfg2.win 5).blk t).view.emb (ix3 p q o))
  rw [hemb]
  exact point (iblk2 V c 0 t) (iblk2 V c 1 t) (iblk2 V c 2 t) (iblk2 V c 3 t) (iblk2 V c 4 t)
    (V c main_v71) (V c main_v74) (V c main_v66) (V c main_v68) (V c main_v69) ⟨256 * t.val + p.val, ht⟩ p q o
    (fun d => blk0 V c t p q d ht) (fun n d => blk1 V c t p q n d ht) (fun d => blk2 V c t d o) (fun d => blk3 V c t d o) (blk4 V c t 0 o)

/-! ## The blocks cover the array -/

/-- An index of the output array lies in point t's block iff, on each axis, its coordinate lies in the block's range. -/
theorem mem_blk (t : Fin cfg2.N) (i : S1024x8x32.Idx) :
    i ∈ ((cfg2.win 5).blk t).view.set ↔ ∀ a : Fin 3, win2_5.index t a * S256x8x32.size a ≤ (i a).val ∧ (i a).val < win2_5.index t a * S256x8x32.size a + S256x8x32.size a := by
  show i ∈ ((View.whole main_v75).slice (win2_5.rect t)).set ↔ _
  rw [View.set_slice_whole, Rect.mem_set_unit]
  exact Iff.rfl

/-- Row b of the output array lies in the block of point b / 256, which is written back. -/
theorem cover (i : S1024x8x32.Idx) :
    ∃ t : Fin cfg2.N, (cfg2.win 5).flush t = true ∧ i ∈ ((cfg2.win 5).blk t).view.set := by
  have hi0 : (i 0).val < 1024 := (i 0).isLt
  have hi1 : (i 1).val < 8 := (i 1).isLt
  have hi2 : (i 2).val < 32 := (i 2).isLt
  obtain ⟨t, ht⟩ : ∃ t : Fin cfg2.N, t.val = (i 0).val / 256 :=
    ⟨⟨(i 0).val / 256, by show (i 0).val / 256 < grid2.N; rw [N_2]; omega⟩, rfl⟩
  obtain ⟨-, -, -, -, -, -, -, -, -, -, -, -, -, e0, e1, e2⟩ := idxFacts t
  refine ⟨t, flush2_5 t, ?_⟩
  rw [mem_blk]
  intro a
  match a with
  | ⟨0, _⟩ => show win2_5.index t (0 : Fin 3) * 256 ≤ (i 0).val ∧ (i 0).val < win2_5.index t (0 : Fin 3) * 256 + 256; omega
  | ⟨1, _⟩ => show win2_5.index t (1 : Fin 3) * 8 ≤ (i 1).val ∧ (i 1).val < win2_5.index t (1 : Fin 3) * 8 + 8; omega
  | ⟨2, _⟩ => show win2_5.index t (2 : Fin 3) * 32 ≤ (i 2).val ∧ (i 2).val < win2_5.index t (2 : Fin 3) * 32 + 32; omega

theorem arr2 (c : Dev nD) (b : Fin 1024) (q : Fin 8) (o : Fin 32) :
    (dat2 (F := Ideal) V c).arrAt 5 cfg2.N (ix3 b q o)
      = Ideal.tanh (Spec.lin (fun d => V c main_v71 (ix3 b q d)) (Spec.mean16 fun n d => V c main_v74 (ix4 b q n d))
          (fun d => V c main_v66 (ix2 d o)) (fun d => V c main_v68 (ix2 d o)) (V c main_v69 (ix2 0 o))) :=
  congrFun ((dat2 (F := Ideal) V c).arrAt_eq_of_cover 5 (G V c) (fun t _ => flushed_eq V c t) cover) (ix3 b q o)

end Cert.KernelIdeal.Arr2

end
-- ==== Proof.KWalk.lean ====
/-
  The contents of the core's buffers at the boundaries of the idealized kernel program's segments, read where the three regions
  and the closing host operations read them.

  Between the regions only reshapes run: a region's output array, or a gathered array, is handed to the next region
  either as it is or re-laid row-major, node m of the wider hop being neighbour m mod 16 of node m / 16.  The two halves of the
  weight matrix, transposed, and the bias as a row, are prepared once before the first region and no later segment writes them.
-/
import proofs.«106339_j50148038148223_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## What no segment between writes -/

/-- A buffer the one reshape before the second region does not write is as the first region left it. -/
theorem W3_of_ne (c : Dev nD) (b : Ref sig .tc) (hb : b ≠ main_v72) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- A buffer the one reshape before the third region does not write is as the second region left it. -/
theorem W5_of_ne (c : Dev nD) (b : Ref sig .tc) (hb : b ≠ main_v74) :
    W5 m ρ c (Proc.devRef .tc b) = W4 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

/-- An input window's array leaves the first region as it entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

/-- An input window's array leaves the second region as it entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

/-- An input window's array leaves the third region as it entered. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))

/-! ## The weight halves and the bias row reach every region as prepared -/

theorem V3_v66 (c : Dev nD) : V3 m ρ c main_v66 = V1 m ρ c main_v66 :=
  (W3_of_ne m ρ c main_v66 (by decide)).trans (W2_in m ρ c 2 rfl)
theorem V3_v68 (c : Dev nD) : V3 m ρ c main_v68 = V1 m ρ c main_v68 :=
  (W3_of_ne m ρ c main_v68 (by decide)).trans (W2_in m ρ c 3 rfl)
theorem V3_v69 (c : Dev nD) : V3 m ρ c main_v69 = V1 m ρ c main_v69 :=
  (W3_of_ne m ρ c main_v69 (by decide)).trans (W2_in m ρ c 4 rfl)
theorem V5_v66 (c : Dev nD) : V5 m ρ c main_v66 = V1 m ρ c main_v66 :=
  ((W5_of_ne m ρ c main_v66 (by decide)).trans (W4_in m ρ c 2 rfl)).trans (V3_v66 m ρ c)
theorem V5_v68 (c : Dev nD) : V5 m ρ c main_v68 = V1 m ρ c main_v68 :=
  ((W5_of_ne m ρ c main_v68 (by decide)).trans (W4_in m ρ c 3 rfl)).trans (V3_v68 m ρ c)
theorem V5_v69 (c : Dev nD) : V5 m ρ c main_v69 = V1 m ρ c main_v69 :=
  ((W5_of_ne m ρ c main_v69 (by decide)).trans (W4_in m ρ c 4 rfl)).trans (V3_v69 m ρ c)

/-! ## The node rows each region reads -/

/-- The second region's own rows are the second hop's gathered rows. -/
theorem V3_v57 (c : Dev nD) : V3 m ρ c main_v57 = V1 m ρ c main_v57 :=
  (W3_of_ne m ρ c main_v57 (by decide)).trans (W2_of_ne m ρ c main_v57 (by decide))

/-- The third region's own rows are the first region's output. -/
theorem V5_v71 (c : Dev nD) : V5 m ρ c main_v71 = (dat0 (V1 m ρ) c).arrAt 5 cfg0.N :=
  ((W5_of_ne m ρ c main_v71 (by decide)).trans (W4_of_ne m ρ c main_v71 (by decide))).trans
    ((W3_of_ne m ρ c main_v71 (by decide)).trans (W2_arr m ρ c 5))

/-- The third region's output is the array the closing host operations read. -/
theorem W6_v75 (c : Dev nD) : W6 m ρ c (Proc.devRef .tc main_v75) = (dat2 (V5 m ρ) c).arrAt 5 cfg2.N :=
  W6_arr m ρ c 5

/-! ## The reshapes between the regions, read at an index -/

/-- An array [B, K, D] re-laid as [B, M, N, D] with K = M·N: entry (b, q, n, d) is entry (b, N·q + n, d). -/
theorem cast_split {α : Type} {B K D M N : Nat} (x : (⟨3, ![B, K, D]⟩ : Shape).Idx → α)
    (h : (⟨3, ![B, K, D]⟩ : Shape).ShapeCasts ⟨4, ![B, M, N, D]⟩) (hK : K = M * N)
    (b : Fin B) (q : Fin M) (n : Fin N) (d : Fin D) (hlt : N * q.val + n.val < K) :
    shapeCast ⟨4, ![B, M, N, D]⟩ x h (ix4 b q n d) = x (ix3 b ⟨N * q.val + n.val, hlt⟩ d) := by
  refine shapeCast_apply x h _ _ ?_
  rw [Shape.rowMajor_val_three, Shape.rowMajor_val_four]
  show (b.val * K + (N * q.val + n.val)) * D + d.val = ((b.val * M + q.val) * N + n.val) * D + d.val
  subst hK
  ring

/-- The first region's neighbour rows are the second hop's gathered rows, re-laid. -/
theorem V1_v70 (c : Dev nD) :
    V1 m ρ c main_v70 = shapeCast S1024x8x16x32 (V1 m ρ c main_v57) shapeCasts_S1024x128x32_S1024x8x16x32 := by
  show StableHlo.after hostOps0 (W0 m ρ c) (Proc.devRef .tc main_v70)
    = shapeCast S1024x8x16x32 (StableHlo.after hostOps0 (W0 m ρ c) (Proc.devRef .tc main_v57)) shapeCasts_S1024x128x32_S1024x8x16x32
  after_results_simp
  rfl

/-- The second region's neighbour rows are the third hop's gathered rows, re-laid. -/
theorem V3_v72 (c : Dev nD) :
    V3 m ρ c main_v72 = shapeCast S1024x128x16x32 (V1 m ρ c main_v64) shapeCasts_S1024x2048x32_S1024x128x16x32 := by
  show StableHlo.after hostOps1 (W2 m ρ c) (Proc.devRef .tc main_v72) = _
  after_results
  exact congrArg (shapeCast S1024x128x16x32 · shapeCasts_S1024x2048x32_S1024x128x16x32) (W2_of_ne m ρ c main_v64 (by decide))

/-- The third region's neighbour rows are the second region's output, re-laid. -/
theorem V5_v74 (c : Dev nD) :
    V5 m ρ c main_v74 = shapeCast S1024x8x16x32 ((dat1 (V3 m ρ) c).arrAt 5 cfg1.N) shapeCasts_S1024x128x32_S1024x8x16x32 := by
  show StableHlo.after hostOps2 (W4 m ρ c) (Proc.devRef .tc main_v74) = _
  after_results
  exact congrArg (shapeCast S1024x8x16x32 · shapeCasts_S1024x128x32_S1024x8x16x32) (W4_arr m ρ c 5)

/-! ## The weight halves and the bias row, read at an index -/

/-- The left weight block is the left half of the weight matrix, transposed. -/
theorem V1_v66 (c : Dev nD) (d o : Fin 32) :
    V1 m ρ c main_v66 (ix2 d o) = m ((c.tc : Thread nD τ).loc main_arg6) (ix2 o (⟨d.val, by omega⟩ : Fin 64)) := by
  have e : V1 m ρ c main_v66 = transpose S32x32 [1, 0]
      (extractStridedSlice S32x32 ![0, 0] (m ((c.tc : Thread nD τ).loc main_arg6)) slices_S32x64_S32x32_0_0) transposes_S32x32_S32x32_1_0 := by
    show StableHlo.after hostOps0 (W0 m ρ c) (Proc.devRef .tc main_v66) = _
    after_results_simp <;> rfl
  rw [e]
  refine (ValueIdx.transpose_ix2_apply _ transposes_S32x32_S32x32_1_0 d o).trans ?_
  exact ValueIdx.slice2_axis1_apply 0 _ slices_S32x64_S32x32_0_0 o d _ (by show d.val = 0 + d.val; omega)

/-- The right weight block is the right half of the weight matrix, transposed. -/
theorem V1_v68 (c : Dev nD) (d o : Fin 32) :
    V1 m ρ c main_v68 (ix2 d o) = m ((c.tc : Thread nD τ).loc main_arg6) (ix2 o (⟨32 + d.val, by omega⟩ : Fin 64)) := by
  have e : V1 m ρ c main_v68 = transpose S32x32 [1, 0]
      (extractStridedSlice S32x32 ![0, 32] (m ((c.tc : Thread nD τ).loc main_arg6)) slices_S32x64_S32x32_0_32) transposes_S32x32_S32x32_1_0 := by
    show StableHlo.after hostOps0 (W0 m ρ c) (Proc.devRef .tc main_v68) = _
    after_results_simp <;> rfl
  rw [e]
  refine (ValueIdx.transpose_ix2_apply _ transposes_S32x32_S32x32_1_0 d o).trans ?_
  exact ValueIdx.slice2_axis1_apply 32 _ slices_S32x64_S32x32_0_32 o d _ rfl

/-- The bias row is the bias. -/
theorem V1_v69 (c : Dev nD) (o : Fin 32) :
    V1 m ρ c main_v69 (ix2 (0 : Fin 1) o) = m ((c.tc : Thread nD τ).loc main_arg7) (ix1 o) := by
  have e : V1 m ρ c main_v69 = shapeCast S1x32 (m ((c.tc : Thread nD τ).loc main_arg7)) shapeCasts_S32_S1x32 := by
    show StableHlo.after hostOps0 (W0 m ρ c) (Proc.devRef .tc main_v69) = _
    after_results_simp <;> rfl
  rw [e]
  exact ValueIdx.shapeCast_a_1a_apply _ shapeCasts_S32_S1x32 0 o

/-! ## The arguments the closing host operations read -/

/-- Argument 1 reaches the closing host operations as launched: no host operation and no region writes it. -/
theorem W6_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Argument 4 reaches the closing host operations as launched: no host operation and no region writes it. -/
theorem W6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- Argument 5 reaches the closing host operations as launched: no host operation and no region writes it. -/
theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

end Cert.KernelIdeal.Walk

end
-- ==== Proof.KValue.lean ====
/-
  The idealized kernel program's third-region output, entry by entry, as the two-layer network of the gathered rows.

  The first region computes the first layer at the first hop's nodes, the second region the same layer at the second hop's nodes,
  and the third region the second layer over those two outputs; between them only reshapes run, under which node 16·q + n of
  the wider hop is neighbour n of node q.
-/
import proofs.«106339_j50148038148223_2_alg».proof.Proof.KArr0
import proofs.«106339_j50148038148223_2_alg».proof.Proof.KArr1
import proofs.«106339_j50148038148223_2_alg».proof.Proof.KArr2
import proofs.«106339_j50148038148223_2_alg».proof.Proof.KWalk

set_option maxRecDepth 16384

noncomputable section

namespace Cert.KernelIdeal.Value

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The first hop's gathered rows. -/
abbrev e0 : Fin 1024 → Fin 8 → Fin 32 → EReal := fun b q d => V1 m ρ c main_v50 (ix3 b q d)
/-- The second hop's gathered rows. -/
abbrev e1 : Fin 1024 → Fin 128 → Fin 32 → EReal := fun b k d => V1 m ρ c main_v57 (ix3 b k d)
/-- The third hop's gathered rows. -/
abbrev e2 : Fin 1024 → Fin 2048 → Fin 32 → EReal := fun b k d => V1 m ρ c main_v64 (ix3 b k d)
/-- The weight matrix. -/
abbrev wgt : Fin 32 → Fin 64 → EReal := fun o k => m ((c.tc : Thread nD τ).loc main_arg6) (ix2 o k)
/-- The bias. -/
abbrev bia : Fin 32 → EReal := fun o => m ((c.tc : Thread nD τ).loc main_arg7) (ix1 o)

/-- The linear map depends on its five arguments only. -/
theorem lin_congr {s s' nm nm' w1 w1' w2 w2' : Fin 32 → EReal} {b b' : EReal} (h1 : s = s') (h2 : nm = nm') (h3 : w1 = w1')
    (h4 : w2 = w2') (h5 : b = b') : Spec.lin s nm w1 w2 b = Spec.lin s' nm' w1' w2' b' := by
  subst h1 h2 h3 h4 h5; rfl

/-- The first region's neighbour rows: neighbour n of node q is node 16·q + n of the second hop. -/
theorem v70_apply (b : Fin 1024) (q : Fin 8) (n : Fin 16) (d : Fin 32) :
    V1 m ρ c main_v70 (ix4 b q n d) = e1 m ρ c b (Spec.child8 q n) d := by
  rw [Walk.V1_v70 m ρ c]
  exact Walk.cast_split (M := 8) (N := 16) _ shapeCasts_S1024x128x32_S1024x8x16x32 rfl b q n d (Spec.child8 q n).isLt

/-- The second region's neighbour rows: neighbour n of node k is node 16·k + n of the third hop. -/
theorem v72_apply (b : Fin 1024) (k : Fin 128) (n : Fin 16) (d : Fin 32) :
    V3 m ρ c main_v72 (ix4 b k n d) = e2 m ρ c b (Spec.child128 k n) d := by
  rw [Walk.V3_v72 m ρ c]
  exact Walk.cast_split (M := 128) (N := 16) _ shapeCasts_S1024x2048x32_S1024x128x16x32 rfl b k n d (Spec.child128 k n).isLt

/-- The first region's output is the first layer at the first hop's nodes. -/
theorem out0_apply (b : Fin 1024) (q : Fin 8) (o : Fin 32) :
    (dat0 (V1 m ρ) c).arrAt 5 cfg0.N (ix3 b q o) = Spec.L0 (e0 m ρ c) (e1 m ρ c) (wgt m c) (bia m c) b q o := by
  rw [Arr0.arr0 (V1 m ρ) c b q o]
  unfold Spec.L0
  refine congrArg Spec.relu (lin_congr rfl (congrArg Spec.mean16 (funext fun n => congrArg Spec.renorm (funext fun d => ?_)))
    (funext fun d => ?_) (funext fun d => ?_) ?_)
  · exact v70_apply m ρ c b q n d
  · exact Walk.V1_v66 m ρ c d o
  · exact Walk.V1_v68 m ρ c d o
  · exact Walk.V1_v69 m ρ c o

/-- The second region's output is the first layer at the second hop's nodes. -/
theorem out1_apply (b : Fin 1024) (k : Fin 128) (o : Fin 32) :
    (dat1 (V3 m ρ) c).arrAt 5 cfg1.N (ix3 b k o) = Spec.L1 (e1 m ρ c) (e2 m ρ c) (wgt m c) (bia m c) b k o := by
  rw [Arr1.arr1 (V3 m ρ) c b k o]
  unfold Spec.L1
  refine congrArg Spec.relu (lin_congr (congrArg Spec.renorm (funext fun d => ?_))
    (congrArg Spec.mean16 (funext fun n => congrArg Spec.renorm (funext fun d => ?_)))
    (funext fun d => ?_) (funext fun d => ?_) ?_)
  · exact congrFun (Walk.V3_v57 m ρ c) (ix3 b k d)
  · exact v72_apply m ρ c b k n d
  · exact (congrFun (Walk.V3_v66 m ρ c) (ix2 d o)).trans (Walk.V1_v66 m ρ c d o)
  · exact (congrFun (Walk.V3_v68 m ρ c) (ix2 d o)).trans (Walk.V1_v68 m ρ c d o)
  · exact (congrFun (Walk.V3_v69 m ρ c) (ix2 (0 : Fin 1) o)).trans (Walk.V1_v69 m ρ c o)

/-- The third region's neighbour rows: the second region's output at node 16·q + n. -/
theorem v74_apply (b : Fin 1024) (q : Fin 8) (n : Fin 16) (d : Fin 32) :
    V5 m ρ c main_v74 (ix4 b q n d) = Spec.L1 (e1 m ρ c) (e2 m ρ c) (wgt m c) (bia m c) b (Spec.child8 q n) d := by
  rw [Walk.V5_v74 m ρ c]
  refine (Walk.cast_split (M := 8) (N := 16) _ shapeCasts_S1024x128x32_S1024x8x16x32 rfl b q n d (Spec.child8 q n).isLt).trans ?_
  exact out1_apply m ρ c b (Spec.child8 q n) d

/-- The third region's own rows: the first region's output. -/
theorem v71_apply (b : Fin 1024) (q : Fin 8) (d : Fin 32) :
    V5 m ρ c main_v71 (ix3 b q d) = Spec.L0 (e0 m ρ c) (e1 m ρ c) (wgt m c) (bia m c) b q d := by
  rw [Walk.V5_v71 m ρ c]
  exact out0_apply m ρ c b q d

/-- THE RESULT OF THE REGIONS: the array the closing host operations read is the second layer. -/
theorem res_apply (b : Fin 1024) (q : Fin 8) (o : Fin 32) :
    W6 m ρ c (Proc.devRef .tc main_v75) (ix3 b q o)
      = Spec.L2 (e0 m ρ c) (e1 m ρ c) (e2 m ρ c) (wgt m c) (bia m c) b q o := by
  rw [Walk.W6_v75 m ρ c, Arr2.arr2 (V5 m ρ) c b q o]
  unfold Spec.L2
  refine congrArg Ideal.tanh (lin_congr (funext fun d => ?_) (congrArg Spec.mean16 (funext fun n => funext fun d => ?_))
    (funext fun d => ?_) (funext fun d => ?_) ?_)
  · exact v71_apply m ρ c b q d
  · exact v74_apply m ρ c b q n d
  · exact (congrFun (Walk.V5_v66 m ρ c) (ix2 d o)).trans (Walk.V1_v66 m ρ c d o)
  · exact (congrFun (Walk.V5_v68 m ρ c) (ix2 d o)).trans (Walk.V1_v68 m ρ c d o)
  · exact (congrFun (Walk.V5_v69 m ρ c) (ix2 (0 : Fin 1) o)).trans (Walk.V1_v69 m ρ c o)

end Cert.KernelIdeal.Value

end
-- ==== Proof.Tail.lean ====
/-
  The closing host operations both programs apply to the second layer's output, as one function.

  The rule weights are clipped as one row of length eight; each batch row's eight node outputs are combined with those weights;
  the item's embedding row is gathered and clipped; and the logistic function of the dot product of the two is the score.
-/
import proofs.«106339_j50148038148223_2_alg».proof.Proof.Gen.KernelIdeal
import Idealize.ShloMosaic.PureOps.Ideal

noncomputable section

namespace Cert.KernelIdeal.Tail

open Cert.KernelIdeal Cert.KernelIdeal.Gen Idealize.ShloMosaic

/-- The rule weights, clipped as one row: w · min(1, 1 / max(√(0 + Σ w²), ε)). -/
def ruleWeights (x5 : FVec Ideal S8 .f32) : FVec Ideal S8 .f32 :=
  mulf x5 (broadcastInDim S8 ![] bcast_S_S8
    (minimumf (constant (F := Ideal) S_ .f32 0x3F800000#32)
      (Host.divf (F := Ideal) (constant (F := Ideal) S_ .f32 0x3F800000#32)
        (maximumf (Host.sqrt (F := Ideal) (Host.reduceAdd (F := Ideal) (mulf x5 x5) (constant (F := Ideal) S_ .f32 0x00000000#32) reducesTo_S8_S_d0 h_S_))
          (constant (F := Ideal) S_ .f32 0x33D6BF95#32)))))

/-- Each batch row's node outputs combined with the rule weights: Σ_q res (b, q, o) · w q. -/
def userOut (res : FVec Ideal S1024x8x32 .f32) (w : FVec Ideal S8 .f32) : FVec Ideal S1024x32 .f32 :=
  Host.reduceAdd (F := Ideal)
    (mulf res (broadcastInDim S1024x8x32 ![0, 1, 2] bcast_S1x8x1_S1024x8x32_0_1_2 (broadcastInDim S1x8x1 ![1] bcast_S8_S1x8x1_1 w)))
    (constant (F := Ideal) S_ .f32 0x00000000#32) reducesTo_S1024x8x32_S1024x32_d1 h_S_

/-- The items' embedding rows, gathered (a negative index counted from the end). -/
def itemRows (x1 : IVec S1024 32) (x4 : FVec Ideal S100000x32 .f32) : FVec Ideal S1024x32 .f32 :=
  Host.gather gather_S100000x32_S1024x1_S1024x32_1_0_n_n_0_1_132 x4
    (broadcastInDim S1024x1 ![0] bcast_S1024_S1024x1_0
      (select (cmpi .slt x1 (broadcastInDim S1024 ![] bcast_S_S1024 (constantI S_ 32 0#32)))
        (addi x1 (broadcastInDim S1024 ![] bcast_S_S1024 (constantI S_ 32 100000#32))) x1))

/-- The norms of the item rows, as a column. -/
def itemNorm (it : FVec Ideal S1024x32 .f32) : FVec Ideal S1024x1 .f32 :=
  Host.sqrt (F := Ideal) (broadcastInDim S1024x1 ![0] bcast_S1024_S1024x1_0
    (Host.reduceAdd (F := Ideal) (mulf it it) (constant (F := Ideal) S_ .f32 0x00000000#32) reducesTo_S1024x32_S1024_d1 h_S_))

/-- The score: the logistic function of the dot product of the user row with the clipped item row. -/
def score (uo it : FVec Ideal S1024x32 .f32) (nrm : FVec Ideal S1024x1 .f32) : FVec Ideal S1024 .f32 :=
  Host.divf (F := Ideal) (broadcastInDim S1024 ![] bcast_S_S1024 (constant (F := Ideal) S_ .f32 0x3F800000#32))
    (addf (broadcastInDim S1024 ![] bcast_S_S1024 (constant (F := Ideal) S_ .f32 0x3F800000#32))
      (Host.exp (F := Ideal)
        (Host.negf (F := Ideal)
          (Host.reduceAdd (F := Ideal)
            (mulf uo
              (mulf it
                (broadcastInDim S1024x32 ![0, 1] bcast_S1024x1_S1024x32_0_1
                  (minimumf (broadcastInDim S1024x1 ![] bcast_S_S1024x1 (constant (F := Ideal) S_ .f32 0x3F800000#32))
                    (Host.divf (F := Ideal) (broadcastInDim S1024x1 ![] bcast_S_S1024x1 (constant (F := Ideal) S_ .f32 0x3F800000#32))
                      (maximumf nrm
                        (broadcastInDim S1024x1 ![] bcast_S_S1024x1 (constant (F := Ideal) S_ .f32 0x33D6BF95#32))))))))
            (constant (F := Ideal) S_ .f32 0x00000000#32) reducesTo_S1024x32_S1024_d1 h_S_))))

/-- The closing operations as one function of the second layer's output, the rule weights, the item indices and the embeddings. -/
def tail (res : FVec Ideal S1024x8x32 .f32) (w : FVec Ideal S8 .f32) (x1 : IVec S1024 32) (x4 : FVec Ideal S100000x32 .f32) :
    FVec Ideal S1024 .f32 :=
  score (userOut res w) (itemRows x1 x4) (itemNorm (itemRows x1 x4))

end Cert.KernelIdeal.Tail

end
-- ==== Proof.KTail.lean ====
/-
  The closing host operations of the kernel program, read as one function of the third region's output.

  After the third region four stretches of host operations run: the norm of the row of rule weights; the clipping of that row,
  the combination of each batch row's eight node outputs with it, and the gathering of the items' embedding rows; the norms of
  those rows; and the score. Each stretch's result at a buffer is a function of the contents of the buffers it reads, and a buffer
  a stretch does not write keeps its contents; chaining the four gives the program's last buffer as the one function of the
  third region's output array and of the three arguments the stretches read, which no earlier segment writes.

  The clipped rule weights are then read at an index: weight q times the clipping factor min(1, 1 / max(√(Σ w²), ε)) of the row.
-/
import proofs.«106339_j50148038148223_2_alg».proof.Proof.Gen.KernelIdeal.Frame
import proofs.«106339_j50148038148223_2_alg».proof.Proof.Tail
import proofs.«106339_j50148038148223_2_alg».proof.Proof.KWalk
import proofs.«106339_j50148038148223_2_alg».proof.Proof.Spec
import Idealize.ShloMosaic.Lib.StableHlo.Run
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

open scoped BigOperators

namespace Cert.KernelIdeal.TailRun

open Cert.KernelIdeal Cert.KernelIdeal.Gen Idealize.ShloMosaic Idealize.ShloMosaic.TcCoe Idealize.ShloMosaic.ValueIdx Idealize.SL.Sem

/-! ## The clipped rule weights at an index -/

/-- A sum over the indices of a one-axis shape is the sum over its coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun j => j 0, ix1, fun j => (eq_ix1 j).symm, fun _ => rfl⟩ _ _ fun j => ?_
  exact congrArg f (eq_ix1 j)

/-- The host's sum of the squares of a row of length eight, started from the literal zero: the sum of the squares. -/
theorem sumsq8_apply (x5 : FVec Ideal S8 .f32) :
    Host.reduceAdd (F := Ideal) (mulf x5 x5) (constant (F := Ideal) S_ .f32 0x00000000#32) reducesTo_S8_S_d0 h_S_ ix0
      = ∑ k : Fin 8, x5 (ix1 k) * x5 (ix1 k) := by
  show Ideal.hostReduceAdd reducesTo_S8_S_d0 (mulf x5 x5) (Ideal.ofBits .f32 0x00000000#32) ix0 = _
  rw [Ideal.hostReduceAdd_total reducesTo_S8_S_d0 (fun b => b.elim0), Ideal.ofBits_zero_f32, zero_add]
  exact sum_idx1 (fun i => x5 i * x5 i)

/-- The clipped rule weights read at q: the weight times the clipping factor of the whole row. -/
theorem ruleWeights_apply (x5 : FVec Ideal S8 .f32) (q : Fin 8) :
    Tail.ruleWeights x5 (ix1 q) = x5 (ix1 q) * Spec.clip (Spec.sumsq fun k => x5 (ix1 k)) := by
  unfold Tail.ruleWeights
  refine congrArg (x5 (ix1 q) * ·) ?_
  refine (broadcastInDim_apply _ bcast_S_S8 _ (ix1 q) ix0 (fun a => a.elim0)).trans ?_
  exact congrArg (fun s => min Spec.one (Ideal.div Spec.one (max (Ideal.sqrt s) Spec.eps))) (sumsq8_apply x5)

/-! ## The four stretches, one buffer at a time -/

variable (m : (ℓ : Loc nD τ sig) → Buf (Elt Ideal) ℓ) (ρ : Dev nD → PrngReg) (c : Dev nD)

set_option maxHeartbeats 1000000 in
/-- The score is the last stretch's function of the user rows, the item rows and the item norms. -/
theorem W10_v109 : W10 m ρ c (Proc.devRef .tc main_v109)
    = Tail.score (W9 m ρ c (Proc.devRef .tc main_v85)) (W9 m ρ c (Proc.devRef .tc main_v92)) (W9 m ρ c (Proc.devRef .tc main_v93)) := by
  show StableHlo.after (hostOps3_3 (F := Ideal)) (W9 m ρ c) (Proc.devRef .tc main_v109) = _
  generalize W9 m ρ c = V
  after_results
  rfl

set_option maxHeartbeats 1000000 in
/-- The item norms are the norm function of the item rows. -/
theorem W9_v93 : W9 m ρ c (Proc.devRef .tc main_v93) = Tail.itemNorm (W8 m ρ c (Proc.devRef .tc main_v92)) := by
  show StableHlo.after (hostOps3_2 (F := Ideal)) (W8 m ρ c) (Proc.devRef .tc main_v93) = _
  generalize W8 m ρ c = V
  after_results
  rfl

set_option maxHeartbeats 1000000 in
/-- The norm stretch does not write the item rows. -/
theorem W9_v92 : W9 m ρ c (Proc.devRef .tc main_v92) = W8 m ρ c (Proc.devRef .tc main_v92) := by
  show StableHlo.after (hostOps3_2 (F := Ideal)) (W8 m ρ c) (Proc.devRef .tc main_v92) = _
  generalize W8 m ρ c = V
  after_results

set_option maxHeartbeats 1000000 in
/-- Nor the user rows. -/
theorem W9_v85 : W9 m ρ c (Proc.devRef .tc main_v85) = W8 m ρ c (Proc.devRef .tc main_v85) := by
  show StableHlo.after (hostOps3_2 (F := Ideal)) (W8 m ρ c) (Proc.devRef .tc main_v85) = _
  generalize W8 m ρ c = V
  after_results

/-- The clipped rule weights as a function of the weights and of the norm of the row, however that norm was computed. -/
def weightsOf (x5 : FVec Ideal S8 .f32) (nrm : FVec Ideal S_ .f32) : FVec Ideal S8 .f32 :=
  mulf x5 (broadcastInDim S8 ![] bcast_S_S8
    (minimumf (constant (F := Ideal) S_ .f32 0x3F800000#32)
      (Host.divf (F := Ideal) (constant (F := Ideal) S_ .f32 0x3F800000#32)
        (maximumf nrm (constant (F := Ideal) S_ .f32 0x33D6BF95#32)))))

/-- The norm of the row of rule weights: the square root of the sum of its squares, started from the literal zero. -/
def normOf (x5 : FVec Ideal S8 .f32) : FVec Ideal S_ .f32 :=
  Host.sqrt (F := Ideal) (Host.reduceAdd (F := Ideal) (mulf x5 x5) (constant (F := Ideal) S_ .f32 0x00000000#32) reducesTo_S8_S_d0 h_S_)

/-- The clipped rule weights are that function at the row's own norm. -/
theorem ruleWeights_eq (x5 : FVec Ideal S8 .f32) : Tail.ruleWeights x5 = weightsOf x5 (normOf x5) := rfl

set_option maxHeartbeats 1000000 in
/-- The item rows are gathered from the embeddings at the item indices. -/
theorem W8_v92 : W8 m ρ c (Proc.devRef .tc main_v92)
    = Tail.itemRows (W7 m ρ c (Proc.devRef .tc main_arg1)) (W7 m ρ c (Proc.devRef .tc main_arg4)) := by
  show StableHlo.after (hostOps3_1 (F := Ideal)) (W7 m ρ c) (Proc.devRef .tc main_v92) = _
  generalize W7 m ρ c = V
  after_results_simp
  rfl

set_option maxHeartbeats 1000000 in
/-- The user rows are the third region's output combined with the clipped rule weights. -/
theorem W8_v85 : W8 m ρ c (Proc.devRef .tc main_v85)
    = Tail.userOut (W7 m ρ c (Proc.devRef .tc main_v75))
        (weightsOf (W7 m ρ c (Proc.devRef .tc main_arg5)) (W7 m ρ c (Proc.devRef .tc main_v76))) := by
  show StableHlo.after (hostOps3_1 (F := Ideal)) (W7 m ρ c) (Proc.devRef .tc main_v85) = _
  generalize W7 m ρ c = V
  after_results_simp
  rfl

set_option maxHeartbeats 1000000 in
/-- The norm of the rule weights, computed by the first of the closing stretches. -/
theorem W7_v76 : W7 m ρ c (Proc.devRef .tc main_v76) = normOf (W6 m ρ c (Proc.devRef .tc main_arg5)) := by
  show StableHlo.after (hostOps3 (F := Ideal)) (W6 m ρ c) (Proc.devRef .tc main_v76) = _
  generalize W6 m ρ c = V
  after_results
  rfl

set_option maxHeartbeats 1000000 in
/-- That stretch does not write the third region's output array. -/
theorem W7_v75 : W7 m ρ c (Proc.devRef .tc main_v75) = W6 m ρ c (Proc.devRef .tc main_v75) := by
  show StableHlo.after (hostOps3 (F := Ideal)) (W6 m ρ c) (Proc.devRef .tc main_v75) = _
  generalize W6 m ρ c = V
  after_results

set_option maxHeartbeats 1000000 in
/-- Nor the item indices. -/
theorem W7_arg1 : W7 m ρ c (Proc.devRef .tc main_arg1) = W6 m ρ c (Proc.devRef .tc main_arg1) := by
  show StableHlo.after (hostOps3 (F := Ideal)) (W6 m ρ c) (Proc.devRef .tc main_arg1) = _
  generalize W6 m ρ c = V
  after_results

set_option maxHeartbeats 1000000 in
/-- Nor the embeddings. -/
theorem W7_arg4 : W7 m ρ c (Proc.devRef .tc main_arg4) = W6 m ρ c (Proc.devRef .tc main_arg4) := by
  show StableHlo.after (hostOps3 (F := Ideal)) (W6 m ρ c) (Proc.devRef .tc main_arg4) = _
  generalize W6 m ρ c = V
  after_results

set_option maxHeartbeats 1000000 in
/-- Nor the rule weights. -/
theorem W7_arg5 : W7 m ρ c (Proc.devRef .tc main_arg5) = W6 m ρ c (Proc.devRef .tc main_arg5) := by
  show StableHlo.after (hostOps3 (F := Ideal)) (W6 m ρ c) (Proc.devRef .tc main_arg5) = _
  generalize W6 m ρ c = V
  after_results

/-! ## The four stretches chained -/

/-- The program's last buffer is the closing function of the third region's output array, the clipped rule weights, the item
    indices and the embeddings, the three arguments as launched. -/
theorem tail_eq : W10 m ρ c (Proc.devRef .tc main_v109)
    = Tail.tail (W6 m ρ c (Proc.devRef .tc main_v75)) (Tail.ruleWeights (m ((c : Thread nD τ).loc main_arg5)))
        (m ((c : Thread nD τ).loc main_arg1)) (m ((c : Thread nD τ).loc main_arg4)) := by
  rw [W10_v109, W9_v85, W9_v92, W9_v93, W8_v85, W8_v92, W7_v76, W7_v75, W7_arg1, W7_arg4, W7_arg5,
    Walk.W6_arg1, Walk.W6_arg4, Walk.W6_arg5, ← ruleWeights_eq]
  rfl

end Cert.KernelIdeal.TailRun

end
-- ==== Proof.Hops.lean ====
/-
  The gathered embedding rows are the same arrays in the two programs.

  Before its first region the kernel program computes, by index arithmetic and gathers, the rows of the embedding table at the
  nodes of the three hops; the reference computes the same three arrays by the same operations.  Each array is compared stage by
  stage: the operations are the same literals in the same order, so once the kernel program's host operations are read back to the
  arguments the two sides are the same term.  The longest chain, the third hop's, is cut at the two index arrays it is built on
  (the second hop's and the third hop's node indices), each shown equal once and then carried as one term.
-/
import proofs.«106339_j50148038148223_2_alg».proof.Proof.Gen.KernelIdeal.Frame
import proofs.«106339_j50148038148223_2_alg».proof.Proof.ReadP
import Idealize.ShloMosaic.Lib.Pipeline.Value
import Idealize.ShloMosaic.Lib.ValueIdx
import Idealize.ShloMosaic.Lib.StableHlo.Run

set_option maxRecDepth 16384

noncomputable section

namespace Cert.Hops

open Cert.KernelIdeal Cert.KernelIdeal.Gen Idealize.ShloMosaic Idealize.ShloMosaic.TcCoe Idealize.SL.Sem

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- Two arrays joined along an axis, as a function of the two arrays. -/
def join2 {α : Type} (t : Shape) (a : Fin t.rank) (s1 s2 : Shape) (x : s1.Idx → α) (y : s2.Idx → α)
    (h : Shape.Concatenates [s1, s2] t a) : t.Idx → α :=
  concatenate t a [⟨s1, x⟩, ⟨s2, y⟩] h

theorem join2_eq {α : Type} (t : Shape) (a : Fin t.rank) (s1 s2 : Shape) (x : s1.Idx → α) (y : s2.Idx → α)
    (h : Shape.Concatenates [s1, s2] t a) :
    concatenate t a [⟨s1, x⟩, ⟨s2, y⟩] h = join2 t a s1 s2 x y h := rfl

/-- Reading a buffer back through the host operations to the arguments: each operation's result at its own buffer is the
    operation of its operands' contents, at any other buffer the contents before it; a join of two arrays is taken as a function
    of the two, so that the two are read back in turn. -/
local macro "read_back" : tactic =>
  `(tactic| (simp (disch := decide) only [join2_eq, StableHlo.after_cons, StableHlo.after_nil,
      StableHlo.nullary_result', StableHlo.unary_result', StableHlo.binary_result', StableHlo.ternary_result',
      StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne',
      StableHlo.quaternary_result_ne', StableHlo.reshape_result_ne',
      StableHlo.nary_result_ne', StableHlo.unaryIndexed_result_ne', StableHlo.binaryIndexed_result_ne']))

/-- The same, on a hypothesis. -/
local macro "read_back_at" h:ident : tactic =>
  `(tactic| (simp (disch := decide) only [join2_eq, StableHlo.after_cons, StableHlo.after_nil,
      StableHlo.nullary_result', StableHlo.unary_result', StableHlo.binary_result', StableHlo.ternary_result',
      StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne',
      StableHlo.quaternary_result_ne', StableHlo.reshape_result_ne',
      StableHlo.nary_result_ne', StableHlo.unaryIndexed_result_ne', StableHlo.binaryIndexed_result_ne'] at $h:ident))

/-- The first hop's rows. -/
theorem hop0 : Cert.KernelIdeal.Gen.V1 m ρ c Cert.KernelIdeal.main_v50
    = Cert.ReferenceIdeal.ReadP.val_main_v50 (F := Ideal) (m ((c : Thread nD τ).loc Cert.KernelIdeal.main_arg0)) (m ((c : Thread nD τ).loc Cert.KernelIdeal.main_arg4)) := by
  show StableHlo.after hostOps0 (W0 m ρ c) (Proc.devRef .tc main_v50) = _
  read_back
  rfl

/-- The second hop's node indices, as gathered, are the same array in the two programs. -/
theorem idx1 : Cert.KernelIdeal.Gen.V1 m ρ c Cert.KernelIdeal.main_v22
    = Cert.ReferenceIdeal.ReadP.val_main_v22 (F := Ideal) (m ((c : Thread nD τ).loc Cert.KernelIdeal.main_arg0)) (m ((c : Thread nD τ).loc Cert.KernelIdeal.main_arg2)) (m ((c : Thread nD τ).loc Cert.KernelIdeal.main_arg3)) := by
  show StableHlo.after hostOps0 (W0 m ρ c) (Proc.devRef .tc main_v22) = _
  read_back
  rfl

/-- The second hop's rows. -/
theorem hop1 : Cert.KernelIdeal.Gen.V1 m ρ c Cert.KernelIdeal.main_v57
    = Cert.ReferenceIdeal.ReadP.val_main_v66 (F := Ideal) (m ((c : Thread nD τ).loc Cert.KernelIdeal.main_arg0)) (m ((c : Thread nD τ).loc Cert.KernelIdeal.main_arg2)) (m ((c : Thread nD τ).loc Cert.KernelIdeal.main_arg3)) (m ((c : Thread nD τ).loc Cert.KernelIdeal.main_arg4)) := by
  have h := idx1 m ρ c
  change StableHlo.after hostOps0 (W0 m ρ c) (Proc.devRef .tc main_v22) = _ at h
  read_back_at h
  show StableHlo.after hostOps0 (W0 m ρ c) (Proc.devRef .tc main_v57) = _
  read_back
  rw [h]
  rfl

set_option maxHeartbeats 1000000 in  -- a long chain of operations
/-- The third hop's node indices are the same array in the two programs. -/
theorem idx2 : Cert.KernelIdeal.Gen.V1 m ρ c Cert.KernelIdeal.main_v43
    = Cert.ReferenceIdeal.ReadP.val_main_v43 (F := Ideal) (m ((c : Thread nD τ).loc Cert.KernelIdeal.main_arg0)) (m ((c : Thread nD τ).loc Cert.KernelIdeal.main_arg2)) (m ((c : Thread nD τ).loc Cert.KernelIdeal.main_arg3)) := by
  have h := idx1 m ρ c
  change StableHlo.after hostOps0 (W0 m ρ c) (Proc.devRef .tc main_v22) = _ at h
  read_back_at h
  show StableHlo.after hostOps0 (W0 m ρ c) (Proc.devRef .tc main_v43) = _
  read_back
  rw [h]
  rfl

set_option maxHeartbeats 1000000 in  -- a long chain of operations
/-- The third hop's rows. -/
theorem hop2 : Cert.KernelIdeal.Gen.V1 m ρ c Cert.KernelIdeal.main_v64
    = Cert.ReferenceIdeal.ReadP.val_main_v82 (F := Ideal) (m ((c : Thread nD τ).loc Cert.KernelIdeal.main_arg0)) (m ((c : Thread nD τ).loc Cert.KernelIdeal.main_arg2)) (m ((c : Thread nD τ).loc Cert.KernelIdeal.main_arg3)) (m ((c : Thread nD τ).loc Cert.KernelIdeal.main_arg4)) := by
  have h := idx2 m ρ c
  change StableHlo.after hostOps0 (W0 m ρ c) (Proc.devRef .tc main_v43) = _ at h
  read_back_at h
  show StableHlo.after hostOps0 (W0 m ρ c) (Proc.devRef .tc main_v64) = _
  read_back
  rw [h]
  rfl

end Cert.Hops

end
-- ==== Proof.RefNorm.lean ====
/-
  The reference's row clipping, read at an entry, at each of the three hops.

  A gathered row v is multiplied by the factor min(1, 1 / max(√(0 + Σ v²), ε)) broadcast along the row; the sum's initial value is
  the zero literal, so the factor is the clipping factor of the row and the entry is the clipped row's entry.
-/
import proofs.«106339_j50148038148223_2_alg».proof.Proof.ReadP
import proofs.«106339_j50148038148223_2_alg».proof.Proof.Spec
import Idealize.ShloMosaic.Lib.Pipeline.Value
import Idealize.ShloMosaic.Lib.ValueIdx
import Idealize.ShloMosaic.PureOps.Ideal.Laws

/-
  The reference's row clipping at the three hops.

  At each hop the gathered rows v (one row of length 32 per node) are multiplied, coordinate by coordinate, by the factor
  min(1, 1 / max(√(0 + Σ_k v_k²), ε)) of their own row: the squares are summed along the last axis from the initial value 0,
  the sum is set back on an axis of length one, sent through √, max with ε, 1 / ·, min with 1, and spread again over the 32
  coordinates. Read at the index (b, q, d) every layout step keeps (b, q) and the arithmetic steps are pointwise, so the
  result is v_d times the clipping factor of the row (b, q): Spec.renorm.
-/

noncomputable section

open scoped BigOperators

namespace Cert.ReferenceIdeal.Norm

open Cert.ReferenceIdeal Cert.ReferenceIdeal.ReadP Idealize.ShloMosaic Idealize.ShloMosaic.ValueIdx

variable (x0 : (⟨S1024, .i32⟩ : BufTy).Contents (Elt Ideal)) (x2 : (⟨S8x2, .i32⟩ : BufTy).Contents (Elt Ideal))
  (x3 : (⟨S17x100000x16, .i32⟩ : BufTy).Contents (Elt Ideal)) (x4 : (⟨S100000x32, .f32⟩ : BufTy).Contents (Elt Ideal))
  (x6 : (⟨S32x64, .f32⟩ : BufTy).Contents (Elt Ideal)) (x7 : (⟨S32, .f32⟩ : BufTy).Contents (Elt Ideal))

/-! ## Hop 0: 8 nodes per batch row -/

/-- The sum of the squares along the last axis, started from 0, is the sum of the squares of the row. -/
theorem sumsq0 (b : Fin 1024) (q : Fin 8) :
    val_main_call0_v1 (F := Ideal) x0 x4 (ix2 b q)
      = Spec.sumsq (fun j => val_main_v50 (F := Ideal) x0 x4 (ix3 b q j)) := by
  refine (val_main_call0_v1_apply x0 x4 (ix2 b q)).trans ?_
  rw [val_main_call0_cst_apply, Ideal.ofBits_def, Ideal.ofBits_zero_f32, zero_add]
  unfold Spec.sumsq
  refine Finset.sum_congr rfl fun j _ => ?_
  rw [val_main_call0_v0_apply]
  have hi : idx_main_call0_v1 (ix2 b q) j = ix3 b q j :=
    funext fun a => Fin.ext (by match a with | ⟨0, _⟩ => rfl | ⟨1, _⟩ => rfl | ⟨2, _⟩ => rfl)
  rw [hi]
  rfl

/-- The factor spread over the row is the clipping factor of the row. -/
theorem factor0 (b : Fin 1024) (q : Fin 8) (d : Fin 32) :
    val_main_v58 (F := Ideal) x0 x4 (ix3 b q d)
      = Spec.scale (fun j => val_main_v50 (F := Ideal) x0 x4 (ix3 b q j)) := by
  rw [val_main_v58_apply, val_main_v57_apply, val_main_v56_apply, val_main_cst_10_apply, val_main_v55_apply,
    val_main_v54_apply, val_main_cst_9_apply, val_main_v53_apply, val_main_v52_apply, val_main_cst_apply,
    val_main_v51_apply, val_main_call0_v2_apply]
  have hi : idx_main_call0_v2 (idx_main_v58 (ix3 b q d)) = ix2 b q :=
    funext fun a => Fin.ext (by match a with | ⟨0, _⟩ => rfl | ⟨1, _⟩ => rfl)
  rw [hi, sumsq0]
  rfl

theorem hop0 (b : Fin 1024) (q : Fin 8) (d : Fin 32) :
    val_main_v59 (F := Ideal) x0 x4 (ix3 b q d)
      = Spec.renorm (fun k => val_main_v50 (F := Ideal) x0 x4 (ix3 b q k)) d := by
  rw [val_main_v59_apply, factor0]
  rfl

/-! ## Hop 1: 128 nodes per batch row -/

/-- The sum of the squares along the last axis, started from 0, is the sum of the squares of the row. -/
theorem sumsq1 (b : Fin 1024) (k : Fin 128) :
    val_main_call1_v1 (F := Ideal) x0 x2 x3 x4 (ix2 b k)
      = Spec.sumsq (fun j => val_main_v66 (F := Ideal) x0 x2 x3 x4 (ix3 b k j)) := by
  refine (val_main_call1_v1_apply x0 x2 x3 x4 (ix2 b k)).trans ?_
  rw [val_main_call1_cst_apply, Ideal.ofBits_def, Ideal.ofBits_zero_f32, zero_add]
  unfold Spec.sumsq
  refine Finset.sum_congr rfl fun j _ => ?_
  rw [val_main_call1_v0_apply]
  have hi : idx_main_call1_v1 (ix2 b k) j = ix3 b k j :=
    funext fun a => Fin.ext (by match a with | ⟨0, _⟩ => rfl | ⟨1, _⟩ => rfl | ⟨2, _⟩ => rfl)
  rw [hi]
  rfl

/-- The factor spread over the row is the clipping factor of the row. -/
theorem factor1 (b : Fin 1024) (k : Fin 128) (d : Fin 32) :
    val_main_v74 (F := Ideal) x0 x2 x3 x4 (ix3 b k d)
      = Spec.scale (fun j => val_main_v66 (F := Ideal) x0 x2 x3 x4 (ix3 b k j)) := by
  rw [val_main_v74_apply, val_main_v73_apply, val_main_v72_apply, val_main_cst_15_apply, val_main_v71_apply,
    val_main_v70_apply, val_main_cst_14_apply, val_main_v69_apply, val_main_v68_apply, val_main_cst_13_apply,
    val_main_v67_apply, val_main_call1_v2_apply]
  have hi : idx_main_call1_v2 (idx_main_v74 (ix3 b k d)) = ix2 b k :=
    funext fun a => Fin.ext (by match a with | ⟨0, _⟩ => rfl | ⟨1, _⟩ => rfl)
  rw [hi, sumsq1]
  rfl

theorem hop1 (b : Fin 1024) (k : Fin 128) (d : Fin 32) :
    val_main_v75 (F := Ideal) x0 x2 x3 x4 (ix3 b k d)
      = Spec.renorm (fun j => val_main_v66 (F := Ideal) x0 x2 x3 x4 (ix3 b k j)) d := by
  rw [val_main_v75_apply, factor1]
  rfl

/-! ## Hop 2: 2048 nodes per batch row -/

/-- The sum of the squares along the last axis, started from 0, is the sum of the squares of the row. -/
theorem sumsq2 (b : Fin 1024) (k : Fin 2048) :
    val_main_call2_v1 (F := Ideal) x0 x2 x3 x4 (ix2 b k)
      = Spec.sumsq (fun j => val_main_v82 (F := Ideal) x0 x2 x3 x4 (ix3 b k j)) := by
  refine (val_main_call2_v1_apply x0 x2 x3 x4 (ix2 b k)).trans ?_
  rw [val_main_call2_cst_apply, Ideal.ofBits_def, Ideal.ofBits_zero_f32, zero_add]
  unfold Spec.sumsq
  refine Finset.sum_congr rfl fun j _ => ?_
  rw [val_main_call2_v0_apply]
  have hi : idx_main_call2_v1 (ix2 b k) j = ix3 b k j :=
    funext fun a => Fin.ext (by match a with | ⟨0, _⟩ => rfl | ⟨1, _⟩ => rfl | ⟨2, _⟩ => rfl)
  rw [hi]
  rfl

/-- The factor spread over the row is the clipping factor of the row. -/
theorem factor2 (b : Fin 1024) (k : Fin 2048) (d : Fin 32) :
    val_main_v90 (F := Ideal) x0 x2 x3 x4 (ix3 b k d)
      = Spec.scale (fun j => val_main_v82 (F := Ideal) x0 x2 x3 x4 (ix3 b k j)) := by
  rw [val_main_v90_apply, val_main_v89_apply, val_main_v88_apply, val_main_cst_20_apply, val_main_v87_apply,
    val_main_v86_apply, val_main_cst_19_apply, val_main_v85_apply, val_main_v84_apply, val_main_cst_18_apply,
    val_main_v83_apply, val_main_call2_v2_apply]
  have hi : idx_main_call2_v2 (idx_main_v90 (ix3 b k d)) = ix2 b k :=
    funext fun a => Fin.ext (by match a with | ⟨0, _⟩ => rfl | ⟨1, _⟩ => rfl)
  rw [hi, sumsq2]
  rfl

theorem hop2 (b : Fin 1024) (k : Fin 2048) (d : Fin 32) :
    val_main_v91 (F := Ideal) x0 x2 x3 x4 (ix3 b k d)
      = Spec.renorm (fun j => val_main_v82 (F := Ideal) x0 x2 x3 x4 (ix3 b k j)) d := by
  rw [val_main_v91_apply, factor2]
  rfl

end Cert.ReferenceIdeal.Norm

end
-- ==== Proof.RefLayers.lean ====
/-
  The reference's three layers, read at an entry.

  A layer re-lays the wider hop's rows so that node 16·q + n is neighbour n of node q, averages the sixteen neighbours, joins a
  node's own row with that average into one row of length 64, contracts it with the weight matrix's rows, adds the bias and applies
  the rectifier (the first layer, at both hops) or tanh (the second layer).  The contraction over the joined row is the sum of the
  contractions with the two halves of the weight row.
-/
import proofs.«106339_j50148038148223_2_alg».proof.Proof.ReadP
import proofs.«106339_j50148038148223_2_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.Layers

open Cert.ReferenceIdeal Cert.ReferenceIdeal.ReadP Idealize.ShloMosaic Idealize.ShloMosaic.ValueIdx

variable (x0 : (⟨S1024, .i32⟩ : BufTy).Contents (Elt Ideal)) (x2 : (⟨S8x2, .i32⟩ : BufTy).Contents (Elt Ideal))
  (x3 : (⟨S17x100000x16, .i32⟩ : BufTy).Contents (Elt Ideal)) (x4 : (⟨S100000x32, .f32⟩ : BufTy).Contents (Elt Ideal))
  (x6 : (⟨S32x64, .f32⟩ : BufTy).Contents (Elt Ideal)) (x7 : (⟨S32, .f32⟩ : BufTy).Contents (Elt Ideal))

/-! ## Two layout facts, for any operands -/

/-- The reshape of [1024, 128, 32] to [1024, 8, 16, 32]: the entry at (b, q, n, d) is the operand's at (b, 16·q + n, d). -/
theorem reshape_8 (y : (⟨S1024x128x32, .f32⟩ : BufTy).Contents (Elt Ideal)) (b : Fin 1024) (q : Fin 8) (n : Fin 16) (d : Fin 32) :
    shapeCast S1024x8x16x32 y Gen.shapeCasts_S1024x128x32_S1024x8x16x32 (ix4 b q n d) = y (ix3 b (Spec.child8 q n) d) := by
  refine shapeCast_apply y Gen.shapeCasts_S1024x128x32_S1024x8x16x32 (ix4 b q n d) (ix3 b (Spec.child8 q n) d) ?_
  rewrite [Shape.rowMajor_val_three, Shape.rowMajor_val_four]
  show (b.val * 128 + (16 * q.val + n.val)) * 32 + d.val = ((b.val * 8 + q.val) * 16 + n.val) * 32 + d.val
  omega

/-- Two arrays [1024, 8, 32] set side by side along the last axis: the row at (b, q) is the two rows joined. -/
theorem concat_8 (y1 y2 : (⟨S1024x8x32, .f32⟩ : BufTy).Contents (Elt Ideal)) (b : Fin 1024) (q : Fin 8) (k : Fin 64) :
    concatenate S1024x8x64 2 [⟨S1024x8x32, y1⟩, ⟨S1024x8x32, y2⟩] Gen.concatenates_S1024x8x32_S1024x8x32_S1024x8x64_d2 (ix3 b q k)
      = Spec.join (fun d => y1 (ix3 b q d)) (fun d => y2 (ix3 b q d)) k := by
  unfold Spec.join
  by_cases h : k.val < 32
  · rw [dif_pos h]
    exact concatenate_pair_apply_left _ y1 y2 Gen.concatenates_S1024x8x32_S1024x8x32_S1024x8x64_d2 (ix3 b q k) rfl (ix3 b q ⟨k.val, h⟩)
      (fun a => match a with | ⟨0, _⟩ => rfl | ⟨1, _⟩ => rfl | ⟨2, _⟩ => rfl)
  · rw [dif_neg h]
    exact concatenate_pair_apply_right _ y1 y2 Gen.concatenates_S1024x8x32_S1024x8x32_S1024x8x64_d2 (ix3 b q k) rfl rfl (ix3 b q ⟨k.val - 32, by omega⟩)
      (fun a ha => match a, ha with | ⟨0, _⟩, _ => rfl | ⟨1, _⟩, _ => rfl | ⟨2, _⟩, ha => absurd rfl ha)
      (by show k.val - 32 + 32 = k.val; omega)

/-- The reshape of [1024, 2048, 32] to [1024, 128, 16, 32]: the entry at (b, q, n, d) is the operand's at (b, 16·q + n, d). -/
theorem reshape_128 (y : (⟨S1024x2048x32, .f32⟩ : BufTy).Contents (Elt Ideal)) (b : Fin 1024) (q : Fin 128) (n : Fin 16) (d : Fin 32) :
    shapeCast S1024x128x16x32 y Gen.shapeCasts_S1024x2048x32_S1024x128x16x32 (ix4 b q n d) = y (ix3 b (Spec.child128 q n) d) := by
  refine shapeCast_apply y Gen.shapeCasts_S1024x2048x32_S1024x128x16x32 (ix4 b q n d) (ix3 b (Spec.child128 q n) d) ?_
  rewrite [Shape.rowMajor_val_three, Shape.rowMajor_val_four]
  show (b.val * 2048 + (16 * q.val + n.val)) * 32 + d.val = ((b.val * 128 + q.val) * 16 + n.val) * 32 + d.val
  omega

/-- Two arrays [1024, 128, 32] set side by side along the last axis: the row at (b, q) is the two rows joined. -/
theorem concat_128 (y1 y2 : (⟨S1024x128x32, .f32⟩ : BufTy).Contents (Elt Ideal)) (b : Fin 1024) (q : Fin 128) (k : Fin 64) :
    concatenate S1024x128x64 2 [⟨S1024x128x32, y1⟩, ⟨S1024x128x32, y2⟩] Gen.concatenates_S1024x128x32_S1024x128x32_S1024x128x64_d2 (ix3 b q k)
      = Spec.join (fun d => y1 (ix3 b q d)) (fun d => y2 (ix3 b q d)) k := by
  unfold Spec.join
  by_cases h : k.val < 32
  · rw [dif_pos h]
    exact concatenate_pair_apply_left _ y1 y2 Gen.concatenates_S1024x128x32_S1024x128x32_S1024x128x64_d2 (ix3 b q k) rfl (ix3 b q ⟨k.val, h⟩)
      (fun a => match a with | ⟨0, _⟩ => rfl | ⟨1, _⟩ => rfl | ⟨2, _⟩ => rfl)
  · rw [dif_neg h]
    exact concatenate_pair_apply_right _ y1 y2 Gen.concatenates_S1024x128x32_S1024x128x32_S1024x128x64_d2 (ix3 b q k) rfl rfl (ix3 b q ⟨k.val - 32, by omega⟩)
      (fun a ha => match a, ha with | ⟨0, _⟩, _ => rfl | ⟨1, _⟩, _ => rfl | ⟨2, _⟩, ha => absurd rfl ha)
      (by show k.val - 32 + 32 = k.val; omega)

/-! ## Layer 0: stages v92 … v101 -/

/-- The regrouped neighbour array at (b, q, n, d) is the neighbour array at node 16·q + n. -/
theorem regroup0 (b : Fin 1024) (q : Fin 8) (n : Fin 16) (d : Fin 32) :
    val_main_v92 (F := Ideal) x0 x2 x3 x4 (ix4 b q n d) = val_main_v75 (F := Ideal) x0 x2 x3 x4 (ix3 b (Spec.child8 q n) d) := by
  unfold val_main_v92
  exact reshape_8 _ b q n d

/-- The sum over the sixteen neighbours, from zero, divided by sixteen, is their average. -/
theorem mean0 (b : Fin 1024) (q : Fin 8) (d : Fin 32) :
    val_main_v95 (F := Ideal) x0 x2 x3 x4 (ix3 b q d) = (Spec.mean16 fun n d => val_main_v75 (F := Ideal) x0 x2 x3 x4 (ix3 b (Spec.child8 q n) d)) d := by
  refine (val_main_v95_apply x0 x2 x3 x4 _).trans ?_
  show Ideal.div (val_main_v93 (F := Ideal) x0 x2 x3 x4 (ix3 b q d)) (val_main_v94 (F := Ideal) (ix3 b q d)) = Ideal.div _ _
  refine congrArg₂ Ideal.div ?_ ((val_main_v94_apply _).trans rfl)
  refine (val_main_v93_apply x0 x2 x3 x4 _).trans ?_
  refine (congrArg (· + _) ((val_main_cst_21_apply _).trans Ideal.ofBits_zero_f32)).trans ((zero_add _).trans ?_)
  refine Finset.sum_congr rfl fun n _ => ?_
  have e : idx_main_v93 (ix3 b q d) n = ix4 b q n d :=
    funext fun a => match a with | ⟨0, _⟩ => rfl | ⟨1, _⟩ => rfl | ⟨2, _⟩ => rfl | ⟨3, _⟩ => rfl
  exact (congrArg (val_main_v92 (F := Ideal) x0 x2 x3 x4) e).trans (regroup0 x0 x2 x3 x4 b q n d)

/-- The row of length 64 at (b, q) is the node's own row joined with the neighbours' average. -/
theorem joined0 (b : Fin 1024) (q : Fin 8) (k : Fin 64) :
    val_main_v96 (F := Ideal) x0 x2 x3 x4 (ix3 b q k)
      = Spec.join (fun d => val_main_v59 (F := Ideal) x0 x4 (ix3 b q d)) (Spec.mean16 fun n d => val_main_v75 (F := Ideal) x0 x2 x3 x4 (ix3 b (Spec.child8 q n) d)) k := by
  unfold val_main_v96
  refine (concat_8 _ _ b q k).trans ?_
  exact congrArg (fun f => Spec.join (fun d => val_main_v59 (F := Ideal) x0 x4 (ix3 b q d)) f k) (funext fun d => mean0 x0 x2 x3 x4 b q d)

/-- The product with the weight matrix, split into the products with its two halves. -/
theorem prod0 (b : Fin 1024) (q : Fin 8) (o : Fin 32) :
    val_main_v97 (F := Ideal) x0 x2 x3 x4 x6 (ix3 b q o)
      = (∑ d : Fin 32, val_main_v59 (F := Ideal) x0 x4 (ix3 b q d) * Spec.wl (fun o k => x6 (ix2 o k)) o d)
        + ∑ d : Fin 32, (Spec.mean16 fun n d => val_main_v75 (F := Ideal) x0 x2 x3 x4 (ix3 b (Spec.child8 q n) d)) d * Spec.wr (fun o k => x6 (ix2 o k)) o d := by
  refine (val_main_v97_apply x0 x2 x3 x4 x6 _).trans ?_
  refine (Finset.sum_congr rfl fun k _ => ?_).trans (Spec.sum_halves _ _ (fun k => x6 (ix2 o k)))
  have el : lidx_main_v97 (ix3 b q o) k = ix3 b q k :=
    funext fun a => match a with | ⟨0, _⟩ => rfl | ⟨1, _⟩ => rfl | ⟨2, _⟩ => rfl
  have er : ridx_main_v97 (ix3 b q o) k = ix2 o k :=
    funext fun a => match a with | ⟨0, _⟩ => rfl | ⟨1, _⟩ => rfl
  exact congrArg₂ (· * ·) ((congrArg (val_main_v96 (F := Ideal) x0 x2 x3 x4) el).trans (joined0 x0 x2 x3 x4 b q k)) (congrArg x6 er)

/-- The broadcast bias at (b, q, o) is the bias at o. -/
theorem bias0 (b : Fin 1024) (q : Fin 8) (o : Fin 32) : val_main_v99 (F := Ideal) x7 (ix3 b q o) = x7 (ix1 o) :=
  ((val_main_v99_apply x7 _).trans (val_main_v98_apply x7 _)).trans
    (congrArg x7 (funext fun a => match a with | ⟨0, _⟩ => rfl))

theorem layer0 (b : Fin 1024) (q : Fin 8) (o : Fin 32) :
    val_main_v101 (F := Ideal) x0 x2 x3 x4 x6 x7 (ix3 b q o)
      = Spec.relu (Spec.lin (fun d => val_main_v59 (F := Ideal) x0 x4 (ix3 b q d))
          (Spec.mean16 fun n d => val_main_v75 (F := Ideal) x0 x2 x3 x4 (ix3 b (Spec.child8 q n) d))
          (Spec.wl (fun o k => x6 (ix2 o k)) o) (Spec.wr (fun o k => x6 (ix2 o k)) o) (x7 (ix1 o))) := by
  refine (val_main_v101_apply x0 x2 x3 x4 x6 x7 _).trans ?_
  show max (val_main_v100 (F := Ideal) x0 x2 x3 x4 x6 x7 (ix3 b q o)) (val_main_call3_v0 (F := Ideal) (ix3 b q o)) = max _ Spec.zero
  refine congrArg₂ max ?_ ((val_main_call3_v0_apply _).trans rfl)
  refine (val_main_v100_apply x0 x2 x3 x4 x6 x7 _).trans ?_
  show val_main_v97 (F := Ideal) x0 x2 x3 x4 x6 (ix3 b q o) + val_main_v99 (F := Ideal) x7 (ix3 b q o) = _ + _
  exact congrArg₂ (· + ·) (prod0 x0 x2 x3 x4 x6 b q o) (bias0 x7 b q o)

/-! ## Layer 1: stages v102 … v111 -/

/-- The regrouped neighbour array at (b, q, n, d) is the neighbour array at node 16·q + n. -/
theorem regroup1 (b : Fin 1024) (q : Fin 128) (n : Fin 16) (d : Fin 32) :
    val_main_v102 (F := Ideal) x0 x2 x3 x4 (ix4 b q n d) = val_main_v91 (F := Ideal) x0 x2 x3 x4 (ix3 b (Spec.child128 q n) d) := by
  unfold val_main_v102
  exact reshape_128 _ b q n d

/-- The sum over the sixteen neighbours, from zero, divided by sixteen, is their average. -/
theorem mean1 (b : Fin 1024) (q : Fin 128) (d : Fin 32) :
    val_main_v105 (F := Ideal) x0 x2 x3 x4 (ix3 b q d) = (Spec.mean16 fun n d => val_main_v91 (F := Ideal) x0 x2 x3 x4 (ix3 b (Spec.child128 q n) d)) d := by
  refine (val_main_v105_apply x0 x2 x3 x4 _).trans ?_
  show Ideal.div (val_main_v103 (F := Ideal) x0 x2 x3 x4 (ix3 b q d)) (val_main_v104 (F := Ideal) (ix3 b q d)) = Ideal.div _ _
  refine congrArg₂ Ideal.div ?_ ((val_main_v104_apply _).trans rfl)
  refine (val_main_v103_apply x0 x2 x3 x4 _).trans ?_
  refine (congrArg (· + _) ((val_main_cst_23_apply _).trans Ideal.ofBits_zero_f32)).trans ((zero_add _).trans ?_)
  refine Finset.sum_congr rfl fun n _ => ?_
  have e : idx_main_v103 (ix3 b q d) n = ix4 b q n d :=
    funext fun a => match a with | ⟨0, _⟩ => rfl | ⟨1, _⟩ => rfl | ⟨2, _⟩ => rfl | ⟨3, _⟩ => rfl
  exact (congrArg (val_main_v102 (F := Ideal) x0 x2 x3 x4) e).trans (regroup1 x0 x2 x3 x4 b q n d)

/-- The row of length 64 at (b, q) is the node's own row joined with the neighbours' average. -/
theorem joined1 (b : Fin 1024) (q : Fin 128) (k : Fin 64) :
    val_main_v106 (F := Ideal) x0 x2 x3 x4 (ix3 b q k)
      = Spec.join (fun d => val_main_v75 (F := Ideal) x0 x2 x3 x4 (ix3 b q d)) (Spec.mean16 fun n d => val_main_v91 (F := Ideal) x0 x2 x3 x4 (ix3 b (Spec.child128 q n) d)) k := by
  unfold val_main_v106
  refine (concat_128 _ _ b q k).trans ?_
  exact congrArg (fun f => Spec.join (fun d => val_main_v75 (F := Ideal) x0 x2 x3 x4 (ix3 b q d)) f k) (funext fun d => mean1 x0 x2 x3 x4 b q d)

/-- The product with the weight matrix, split into the products with its two halves. -/
theorem prod1 (b : Fin 1024) (q : Fin 128) (o : Fin 32) :
    val_main_v107 (F := Ideal) x0 x2 x3 x4 x6 (ix3 b q o)
      = (∑ d : Fin 32, val_main_v75 (F := Ideal) x0 x2 x3 x4 (ix3 b q d) * Spec.wl (fun o k => x6 (ix2 o k)) o d)
        + ∑ d : Fin 32, (Spec.mean16 fun n d => val_main_v91 (F := Ideal) x0 x2 x3 x4 (ix3 b (Spec.child128 q n) d)) d * Spec.wr (fun o k => x6 (ix2 o k)) o d := by
  refine (val_main_v107_apply x0 x2 x3 x4 x6 _).trans ?_
  refine (Finset.sum_congr rfl fun k _ => ?_).trans (Spec.sum_halves _ _ (fun k => x6 (ix2 o k)))
  have el : lidx_main_v107 (ix3 b q o) k = ix3 b q k :=
    funext fun a => match a with | ⟨0, _⟩ => rfl | ⟨1, _⟩ => rfl | ⟨2, _⟩ => rfl
  have er : ridx_main_v107 (ix3 b q o) k = ix2 o k :=
    funext fun a => match a with | ⟨0, _⟩ => rfl | ⟨1, _⟩ => rfl
  exact congrArg₂ (· * ·) ((congrArg (val_main_v106 (F := Ideal) x0 x2 x3 x4) el).trans (joined1 x0 x2 x3 x4 b q k)) (congrArg x6 er)

/-- The broadcast bias at (b, q, o) is the bias at o. -/
theorem bias1 (b : Fin 1024) (q : Fin 128) (o : Fin 32) : val_main_v109 (F := Ideal) x7 (ix3 b q o) = x7 (ix1 o) :=
  ((val_main_v109_apply x7 _).trans (val_main_v108_apply x7 _)).trans
    (congrArg x7 (funext fun a => match a with | ⟨0, _⟩ => rfl))

theorem layer1 (b : Fin 1024) (k : Fin 128) (o : Fin 32) :
    val_main_v111 (F := Ideal) x0 x2 x3 x4 x6 x7 (ix3 b k o)
      = Spec.relu (Spec.lin (fun d => val_main_v75 (F := Ideal) x0 x2 x3 x4 (ix3 b k d))
          (Spec.mean16 fun n d => val_main_v91 (F := Ideal) x0 x2 x3 x4 (ix3 b (Spec.child128 k n) d))
          (Spec.wl (fun o k => x6 (ix2 o k)) o) (Spec.wr (fun o k => x6 (ix2 o k)) o) (x7 (ix1 o))) := by
  refine (val_main_v111_apply x0 x2 x3 x4 x6 x7 _).trans ?_
  show max (val_main_v110 (F := Ideal) x0 x2 x3 x4 x6 x7 (ix3 b k o)) (val_main_call4_v0 (F := Ideal) (ix3 b k o)) = max _ Spec.zero
  refine congrArg₂ max ?_ ((val_main_call4_v0_apply _).trans rfl)
  refine (val_main_v110_apply x0 x2 x3 x4 x6 x7 _).trans ?_
  show val_main_v107 (F := Ideal) x0 x2 x3 x4 x6 (ix3 b k o) + val_main_v109 (F := Ideal) x7 (ix3 b k o) = _ + _
  exact congrArg₂ (· + ·) (prod1 x0 x2 x3 x4 x6 b k o) (bias1 x7 b k o)

/-! ## Layer 2: stages v112 … v121 -/

/-- The regrouped neighbour array at (b, q, n, d) is the neighbour array at node 16·q + n. -/
theorem regroup2 (b : Fin 1024) (q : Fin 8) (n : Fin 16) (d : Fin 32) :
    val_main_v112 (F := Ideal) x0 x2 x3 x4 x6 x7 (ix4 b q n d) = val_main_v111 (F := Ideal) x0 x2 x3 x4 x6 x7 (ix3 b (Spec.child8 q n) d) := by
  unfold val_main_v112
  exact reshape_8 _ b q n d

/-- The sum over the sixteen neighbours, from zero, divided by sixteen, is their average. -/
theorem mean2 (b : Fin 1024) (q : Fin 8) (d : Fin 32) :
    val_main_v115 (F := Ideal) x0 x2 x3 x4 x6 x7 (ix3 b q d) = (Spec.mean16 fun n d => val_main_v111 (F := Ideal) x0 x2 x3 x4 x6 x7 (ix3 b (Spec.child8 q n) d)) d := by
  refine (val_main_v115_apply x0 x2 x3 x4 x6 x7 _).trans ?_
  show Ideal.div (val_main_v113 (F := Ideal) x0 x2 x3 x4 x6 x7 (ix3 b q d)) (val_main_v114 (F := Ideal) (ix3 b q d)) = Ideal.div _ _
  refine congrArg₂ Ideal.div ?_ ((val_main_v114_apply _).trans rfl)
  refine (val_main_v113_apply x0 x2 x3 x4 x6 x7 _).trans ?_
  refine (congrArg (· + _) ((val_main_cst_25_apply _).trans Ideal.ofBits_zero_f32)).trans ((zero_add _).trans ?_)
  refine Finset.sum_congr rfl fun n _ => ?_
  have e : idx_main_v113 (ix3 b q d) n = ix4 b q n d :=
    funext fun a => match a with | ⟨0, _⟩ => rfl | ⟨1, _⟩ => rfl | ⟨2, _⟩ => rfl | ⟨3, _⟩ => rfl
  exact (congrArg (val_main_v112 (F := Ideal) x0 x2 x3 x4 x6 x7) e).trans (regroup2 x0 x2 x3 x4 x6 x7 b q n d)

/-- The row of length 64 at (b, q) is the node's own row joined with the neighbours' average. -/
theorem joined2 (b : Fin 1024) (q : Fin 8) (k : Fin 64) :
    val_main_v116 (F := Ideal) x0 x2 x3 x4 x6 x7 (ix3 b q k)
      = Spec.join (fun d => val_main_v101 (F := Ideal) x0 x2 x3 x4 x6 x7 (ix3 b q d)) (Spec.mean16 fun n d => val_main_v111 (F := Ideal) x0 x2 x3 x4 x6 x7 (ix3 b (Spec.child8 q n) d)) k := by
  unfold val_main_v116
  refine (concat_8 _ _ b q k).trans ?_
  exact congrArg (fun f => Spec.join (fun d => val_main_v101 (F := Ideal) x0 x2 x3 x4 x6 x7 (ix3 b q d)) f k) (funext fun d => mean2 x0 x2 x3 x4 x6 x7 b q d)

/-- The product with the weight matrix, split into the products with its two halves. -/
theorem prod2 (b : Fin 1024) (q : Fin 8) (o : Fin 32) :
    val_main_v117 (F := Ideal) x0 x2 x3 x4 x6 x7 (ix3 b q o)
      = (∑ d : Fin 32, val_main_v101 (F := Ideal) x0 x2 x3 x4 x6 x7 (ix3 b q d) * Spec.wl (fun o k => x6 (ix2 o k)) o d)
        + ∑ d : Fin 32, (Spec.mean16 fun n d => val_main_v111 (F := Ideal) x0 x2 x3 x4 x6 x7 (ix3 b (Spec.child8 q n) d)) d * Spec.wr (fun o k => x6 (ix2 o k)) o d := by
  refine (val_main_v117_apply x0 x2 x3 x4 x6 x7 _).trans ?_
  refine (Finset.sum_congr rfl fun k _ => ?_).trans (Spec.sum_halves _ _ (fun k => x6 (ix2 o k)))
  have el : lidx_main_v117 (ix3 b q o) k = ix3 b q k :=
    funext fun a => match a with | ⟨0, _⟩ => rfl | ⟨1, _⟩ => rfl | ⟨2, _⟩ => rfl
  have er : ridx_main_v117 (ix3 b q o) k = ix2 o k :=
    funext fun a => match a with | ⟨0, _⟩ => rfl | ⟨1, _⟩ => rfl
  exact congrArg₂ (· * ·) ((congrArg (val_main_v116 (F := Ideal) x0 x2 x3 x4 x6 x7) el).trans (joined2 x0 x2 x3 x4 x6 x7 b q k)) (congrArg x6 er)

/-- The broadcast bias at (b, q, o) is the bias at o. -/
theorem bias2 (b : Fin 1024) (q : Fin 8) (o : Fin 32) : val_main_v119 (F := Ideal) x7 (ix3 b q o) = x7 (ix1 o) :=
  ((val_main_v119_apply x7 _).trans (val_main_v118_apply x7 _)).trans
    (congrArg x7 (funext fun a => match a with | ⟨0, _⟩ => rfl))

theorem layer2 (b : Fin 1024) (q : Fin 8) (o : Fin 32) :
    val_main_v121 (F := Ideal) x0 x2 x3 x4 x6 x7 (ix3 b q o)
      = Ideal.tanh (Spec.lin (fun d => val_main_v101 (F := Ideal) x0 x2 x3 x4 x6 x7 (ix3 b q d))
          (Spec.mean16 fun n d => val_main_v111 (F := Ideal) x0 x2 x3 x4 x6 x7 (ix3 b (Spec.child8 q n) d))
          (Spec.wl (fun o k => x6 (ix2 o k)) o) (Spec.wr (fun o k => x6 (ix2 o k)) o) (x7 (ix1 o))) := by
  refine (val_main_v121_apply x0 x2 x3 x4 x6 x7 _).trans ?_
  show Ideal.tanh (val_main_v120 (F := Ideal) x0 x2 x3 x4 x6 x7 (ix3 b q o)) = Ideal.tanh _
  refine congrArg Ideal.tanh ?_
  refine (val_main_v120_apply x0 x2 x3 x4 x6 x7 _).trans ?_
  show val_main_v117 (F := Ideal) x0 x2 x3 x4 x6 x7 (ix3 b q o) + val_main_v119 (F := Ideal) x7 (ix3 b q o) = _ + _
  exact congrArg₂ (· + ·) (prod2 x0 x2 x3 x4 x6 x7 b q o) (bias2 x7 b q o)

end Cert.ReferenceIdeal.Layers

end
-- ==== Proof.RefValue.lean ====
/-
  The reference's second-layer output, entry by entry, as the two-layer network of its gathered rows: the three clipped hops feed the
  first layer at the first and second hops' nodes, whose outputs feed the second layer.
-/
import proofs.«106339_j50148038148223_2_alg».proof.Proof.RefNorm
import proofs.«106339_j50148038148223_2_alg».proof.Proof.RefLayers

noncomputable section

namespace Cert.ReferenceIdeal.RefValue

open Cert.ReferenceIdeal Cert.ReferenceIdeal.ReadP Idealize.ShloMosaic Idealize.ShloMosaic.ValueIdx

variable (x0 : (⟨S1024, .i32⟩ : BufTy).Contents (Elt Ideal)) (x2 : (⟨S8x2, .i32⟩ : BufTy).Contents (Elt Ideal))
  (x3 : (⟨S17x100000x16, .i32⟩ : BufTy).Contents (Elt Ideal)) (x4 : (⟨S100000x32, .f32⟩ : BufTy).Contents (Elt Ideal))
  (x6 : (⟨S32x64, .f32⟩ : BufTy).Contents (Elt Ideal)) (x7 : (⟨S32, .f32⟩ : BufTy).Contents (Elt Ideal))

/-- The first hop's gathered rows. -/
abbrev e0 : Fin 1024 → Fin 8 → Fin 32 → EReal := fun b q d => val_main_v50 (F := Ideal) x0 x4 (ix3 b q d)
/-- The second hop's gathered rows. -/
abbrev e1 : Fin 1024 → Fin 128 → Fin 32 → EReal := fun b k d => val_main_v66 (F := Ideal) x0 x2 x3 x4 (ix3 b k d)
/-- The third hop's gathered rows. -/
abbrev e2 : Fin 1024 → Fin 2048 → Fin 32 → EReal := fun b k d => val_main_v82 (F := Ideal) x0 x2 x3 x4 (ix3 b k d)
/-- The weight matrix. -/
abbrev wgt : Fin 32 → Fin 64 → EReal := fun o k => x6 (ix2 o k)
/-- The bias. -/
abbrev bia : Fin 32 → EReal := fun o => x7 (ix1 o)

/-- The linear map depends on its five arguments only. -/
theorem lin_congr {s s' nm nm' w1 w1' w2 w2' : Fin 32 → EReal} {b b' : EReal} (h1 : s = s') (h2 : nm = nm') (h3 : w1 = w1')
    (h4 : w2 = w2') (h5 : b = b') : Spec.lin s nm w1 w2 b = Spec.lin s' nm' w1' w2' b' := by
  subst h1 h2 h3 h4 h5; rfl

/-- The first layer at the first hop's nodes. -/
theorem out0_apply (b : Fin 1024) (q : Fin 8) (o : Fin 32) :
    val_main_v101 (F := Ideal) x0 x2 x3 x4 x6 x7 (ix3 b q o)
      = Spec.L0 (e0 x0 x4) (e1 x0 x2 x3 x4) (wgt x6) (bia x7) b q o := by
  rw [Layers.layer0 x0 x2 x3 x4 x6 x7 b q o]
  unfold Spec.L0
  refine congrArg Spec.relu (lin_congr (funext fun d => ?_) (congrArg Spec.mean16 (funext fun n => funext fun d => ?_)) rfl rfl rfl)
  · exact Norm.hop0 x0 x4 b q d
  · exact Norm.hop1 x0 x2 x3 x4 b (Spec.child8 q n) d

/-- The first layer at the second hop's nodes. -/
theorem out1_apply (b : Fin 1024) (k : Fin 128) (o : Fin 32) :
    val_main_v111 (F := Ideal) x0 x2 x3 x4 x6 x7 (ix3 b k o)
      = Spec.L1 (e1 x0 x2 x3 x4) (e2 x0 x2 x3 x4) (wgt x6) (bia x7) b k o := by
  rw [Layers.layer1 x0 x2 x3 x4 x6 x7 b k o]
  unfold Spec.L1
  refine congrArg Spec.relu (lin_congr (funext fun d => ?_) (congrArg Spec.mean16 (funext fun n => funext fun d => ?_)) rfl rfl rfl)
  · exact Norm.hop1 x0 x2 x3 x4 b k d
  · exact Norm.hop2 x0 x2 x3 x4 b (Spec.child128 k n) d

/-- THE SECOND LAYER'S OUTPUT: what the closing host operations read. -/
theorem res_apply (b : Fin 1024) (q : Fin 8) (o : Fin 32) :
    val_main_v121 (F := Ideal) x0 x2 x3 x4 x6 x7 (ix3 b q o)
      = Spec.L2 (e0 x0 x4) (e1 x0 x2 x3 x4) (e2 x0 x2 x3 x4) (wgt x6) (bia x7) b q o := by
  rw [Layers.layer2 x0 x2 x3 x4 x6 x7 b q o]
  unfold Spec.L2
  refine congrArg Ideal.tanh (lin_congr (funext fun d => ?_) (congrArg Spec.mean16 (funext fun n => funext fun d => ?_)) rfl rfl rfl)
  · exact out0_apply x0 x2 x3 x4 x6 x7 b q d
  · exact out1_apply x0 x2 x3 x4 x6 x7 b (Spec.child8 q n) d

end Cert.ReferenceIdeal.RefValue

end
-- ==== Proof.RefTail.lean ====
/-
  The reference's closing host operations are the same function of the second layer's output and the clipped rule weights as the
  kernel program's, and the clipped rule weights, read at an entry, are the weight times the clipping factor of the row of eight.
-/
import proofs.«106339_j50148038148223_2_alg».proof.Proof.ReadP
import proofs.«106339_j50148038148223_2_alg».proof.Proof.Tail
import proofs.«106339_j50148038148223_2_alg».proof.Proof.Spec
import Idealize.ShloMosaic.Lib.Pipeline.Value
import Idealize.ShloMosaic.Lib.ValueIdx
import Idealize.ShloMosaic.PureOps.Ideal.Laws

/-
  The reference's closing operations.

  The rule weights w (eight numbers) are clipped as one row, w · min(1, 1 / max(√(0 + Σ w²), ε)), computed on a [1, 8] copy of
  the row and set back to length eight. The remaining operations — the weighted sum of each batch row's eight node outputs, the
  gathered and clipped item row, and the logistic function of the dot product of the two — are, operation for operation, the
  function Tail.tail applied to the second layer's output and the clipped rule weights.
-/

noncomputable section

open scoped BigOperators

namespace Cert.ReferenceIdeal.TailRead

open Cert.ReferenceIdeal Cert.ReferenceIdeal.ReadP Idealize.ShloMosaic Idealize.ShloMosaic.ValueIdx

variable (x0 : (⟨S1024, .i32⟩ : BufTy).Contents (Elt Ideal)) (x1 : (⟨S1024, .i32⟩ : BufTy).Contents (Elt Ideal))
  (x2 : (⟨S8x2, .i32⟩ : BufTy).Contents (Elt Ideal))
  (x3 : (⟨S17x100000x16, .i32⟩ : BufTy).Contents (Elt Ideal)) (x4 : (⟨S100000x32, .f32⟩ : BufTy).Contents (Elt Ideal))
  (x5 : (⟨S8, .f32⟩ : BufTy).Contents (Elt Ideal))
  (x6 : (⟨S32x64, .f32⟩ : BufTy).Contents (Elt Ideal)) (x7 : (⟨S32, .f32⟩ : BufTy).Contents (Elt Ideal))

/-! ## The closing operations are Tail.tail -/

theorem tail_eq :
    val_main_v160 (F := Ideal) x0 x1 x2 x3 x4 x5 x6 x7
      = Cert.KernelIdeal.Tail.tail (val_main_v121 (F := Ideal) x0 x2 x3 x4 x6 x7) (val_main_v132 (F := Ideal) x5) x1 x4 := by
  rfl

/-! ## The clipped rule weights at an index -/

/-- The [1, 8] copy of the rule weights at (0, k) is the k-th weight. -/
theorem row_apply (k : Fin 8) :
    val_main_v122 (F := Ideal) x5 (ix2 (⟨0, Nat.one_pos⟩ : Fin 1) k) = x5 (ix1 k) := by
  rw [val_main_v122_apply]
  exact congrArg x5 (funext fun a => Fin.ext (by match a with | ⟨0, _⟩ => rfl))

/-- The sum of the squares along the row, started from 0, is the sum of the squares of the eight weights. -/
theorem rule_sumsq :
    val_main_call5_v1 (F := Ideal) x5 (ix1 (⟨0, Nat.one_pos⟩ : Fin 1)) = Spec.sumsq (fun k => x5 (ix1 k)) := by
  refine (val_main_call5_v1_apply x5 (ix1 (⟨0, Nat.one_pos⟩ : Fin 1))).trans ?_
  rw [val_main_call5_cst_apply, Ideal.ofBits_def, Ideal.ofBits_zero_f32, zero_add]
  unfold Spec.sumsq
  refine Finset.sum_congr rfl fun k _ => ?_
  rw [val_main_call5_v0_apply]
  have hi : idx_main_call5_v1 (ix1 (⟨0, Nat.one_pos⟩ : Fin 1)) k = ix2 (⟨0, Nat.one_pos⟩ : Fin 1) k :=
    funext fun a => Fin.ext (by match a with | ⟨0, _⟩ => rfl | ⟨1, _⟩ => rfl)
  rw [hi, row_apply]
  rfl

/-- The factor spread over the row is the clipping factor of the eight weights. -/
theorem rule_factor (q : Fin 8) :
    val_main_v130 (F := Ideal) x5 (ix2 (⟨0, Nat.one_pos⟩ : Fin 1) q) = Spec.clip (Spec.sumsq (fun k => x5 (ix1 k))) := by
  rw [val_main_v130_apply, val_main_v129_apply, val_main_v128_apply, val_main_cst_29_apply, val_main_v127_apply,
    val_main_v126_apply, val_main_cst_28_apply, val_main_v125_apply, val_main_v124_apply, val_main_cst_27_apply,
    val_main_v123_apply, val_main_call5_v2_apply]
  have hi : idx_main_call5_v2 (idx_main_v130 (ix2 (⟨0, Nat.one_pos⟩ : Fin 1) q)) = ix1 (⟨0, Nat.one_pos⟩ : Fin 1) :=
    funext fun a => Fin.ext (by match a with | ⟨0, _⟩ => rfl)
  rw [hi, rule_sumsq]
  rfl

theorem ruleWeights_apply (q : Fin 8) :
    val_main_v132 (F := Ideal) x5 (ix1 q) = x5 (ix1 q) * Spec.clip (Spec.sumsq fun k => x5 (ix1 k)) := by
  rw [val_main_v132_apply]
  have hi : idx_main_v132 (ix1 q) = ix2 (⟨0, Nat.one_pos⟩ : Fin 1) q :=
    funext fun a => Fin.ext (by match a with | ⟨0, _⟩ => rfl | ⟨1, _⟩ => exact Nat.mod_eq_of_lt q.isLt)
  rw [hi, val_main_v131_apply, row_apply, rule_factor]
  rfl

end Cert.ReferenceIdeal.TailRead

end
-- ==== Proof.Bridge.lean ====
/-
  The two programs' results are one array.

  Both end in the same closing host operations (Tail.tail) applied to the second layer's output and the clipped rule weights.
  The second layer's output is, entry by entry, the same two-layer network (Spec.L2) of the same gathered rows, weight matrix and
  bias on both sides — the kernel program computing it in three pipelined regions, the reference on the host —, and the clipped
  rule weights are, entry by entry, the weight times the clipping factor of the whole row on both sides.
-/
import proofs.«106339_j50148038148223_2_alg».proof.Proof.KValue
import proofs.«106339_j50148038148223_2_alg».proof.Proof.KTail
import proofs.«106339_j50148038148223_2_alg».proof.Proof.Hops
import proofs.«106339_j50148038148223_2_alg».proof.Proof.RefValue
import proofs.«106339_j50148038148223_2_alg».proof.Proof.RefTail

set_option maxRecDepth 16384

noncomputable section

namespace Cert.Bridge

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- The second layer's output is the same array in the two programs. -/
theorem res_eq :
    (W6 m ρ c (Proc.devRef .tc main_v75) : S1024x8x32.Idx → EReal)
      = Cert.ReferenceIdeal.ReadP.val_main_v121 (F := Ideal) (m ((c.tc : Thread nD τ).loc main_arg0)) (m ((c.tc : Thread nD τ).loc main_arg2))
          (m ((c.tc : Thread nD τ).loc main_arg3)) (m ((c.tc : Thread nD τ).loc main_arg4)) (m ((c.tc : Thread nD τ).loc main_arg6))
          (m ((c.tc : Thread nD τ).loc main_arg7)) := by
  funext i
  obtain ⟨b, q, o, rfl⟩ : ∃ (b : Fin 1024) (q : Fin 8) (o : Fin 32), i = ix3 b q o := ⟨i 0, i 1, i 2, eq_ix3 i⟩
  refine (Value.res_apply m ρ c b q o).trans (Eq.trans ?_ (Cert.ReferenceIdeal.RefValue.res_apply _ _ _ _ _ _ b q o).symm)
  have h0 : Value.e0 m ρ c = Cert.ReferenceIdeal.RefValue.e0 (m ((c.tc : Thread nD τ).loc main_arg0)) (m ((c.tc : Thread nD τ).loc main_arg4)) :=
    funext fun b => funext fun q => funext fun d => congrFun (Cert.Hops.hop0 m ρ c) (ix3 b q d)
  have h1 : Value.e1 m ρ c = Cert.ReferenceIdeal.RefValue.e1 (m ((c.tc : Thread nD τ).loc main_arg0)) (m ((c.tc : Thread nD τ).loc main_arg2))
      (m ((c.tc : Thread nD τ).loc main_arg3)) (m ((c.tc : Thread nD τ).loc main_arg4)) :=
    funext fun b => funext fun k => funext fun d => congrFun (Cert.Hops.hop1 m ρ c) (ix3 b k d)
  have h2 : Value.e2 m ρ c = Cert.ReferenceIdeal.RefValue.e2 (m ((c.tc : Thread nD τ).loc main_arg0)) (m ((c.tc : Thread nD τ).loc main_arg2))
      (m ((c.tc : Thread nD τ).loc main_arg3)) (m ((c.tc : Thread nD τ).loc main_arg4)) :=
    funext fun b => funext fun k => funext fun d => congrFun (Cert.Hops.hop2 m ρ c) (ix3 b k d)
  rw [h0, h1, h2]

/-- The clipped rule weights are the same row in the two programs. -/
theorem weights_eq (x5 : FVec Ideal S8 .f32) :
    Tail.ruleWeights x5 = Cert.ReferenceIdeal.ReadP.val_main_v132 (F := Ideal) x5 := by
  funext i
  obtain ⟨q, rfl⟩ : ∃ q : Fin 8, i = ix1 q := ⟨i 0, eq_ix1 i⟩
  exact (TailRun.ruleWeights_apply x5 q).trans (Cert.ReferenceIdeal.TailRead.ruleWeights_apply x5 q).symm

/-- THE RESULTS AGREE: the kernel program's result buffer after its run holds the reference's last stage of the same arguments. -/
theorem result_eq :
    W10 m ρ c (Proc.devRef .tc main_v109)
      = Cert.ReferenceIdeal.ReadP.val_main_v160 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  refine (TailRun.tail_eq m ρ c).trans (Eq.trans ?_ (Cert.ReferenceIdeal.TailRead.tail_eq _ _ _ _ _ _ _ _).symm)
  rw [res_eq m ρ c, weights_eq]

end Cert.Bridge

end
-- ==== Proof.lean ====
/-
  The certificate: the kernel program (three pipelined aggregation layers between host gathers and a host scoring tail), its idealization,
  and the reference (the same network on the host) run without fault and leave their arguments unchanged, and at the extended reals the
  idealized kernel program and the idealized reference end with the same scores.

  The three frames: the two kernel programs' are their generated frame certificates; the reference's is its run with the result dropped.
  The idealization rewrote no operation, so what it preserves is nothing to prove.  The value claim: the kernel program's run names its result
  buffer's final contents (KRun); those are the closing host operations of the third region's output (KTail), which is the two-layer
  network of the gathered rows entry by entry (KCell, KArr, KWalk, KValue); the reference's run ends at its last stage (RefRun), which is the
  same closing operations (RefTail) of the same network (RefNorm, RefLayers, RefValue) of the same gathered rows (Hops): Bridge.
  The only algebra between the two sides is that a weight row of length 64 against a row made of two halves is the sum of the two
  half products, a law of commutative monoids: the precondition is never opened.
-/
import proofs.«106339_j50148038148223_2_alg».proof.Defs
import proofs.«106339_j50148038148223_2_alg».proof.Proof.Gen.Kernel
import proofs.«106339_j50148038148223_2_alg».proof.Proof.Gen.Kernel.Frame
import proofs.«106339_j50148038148223_2_alg».proof.Proof.Gen.KernelIdeal
import proofs.«106339_j50148038148223_2_alg».proof.Proof.Gen.KernelIdeal.Frame
import proofs.«106339_j50148038148223_2_alg».proof.Proof.Gen.ReferenceIdeal
import proofs.«106339_j50148038148223_2_alg».proof.Proof.Gen.Pre_finite_inputs
import proofs.«106339_j50148038148223_2_alg».proof.Proof.KRun
import proofs.«106339_j50148038148223_2_alg».proof.Proof.RefRun
import proofs.«106339_j50148038148223_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- From memories agreeing on the arguments both idealized programs run, and the reference's result is the kernel program's. -/
theorem algebraic : Cert.algebraic_KernelIdeal_ReferenceIdeal := by
  intro m ρ m' ρ' _ hagree
  refine ⟨fun c => Cert.KernelIdeal.Gen.W10 m ρ c (Proc.devRef .tc Cert.KernelIdeal.main_v109), Cert.KernelIdeal.Named.run m ρ, ?_⟩
  refine (θ_run Cert.ReferenceIdeal.defs _ _).mono (fun _ h c => ⟨(h c).1.trans ?_, (h c).2⟩) (Cert.ReferenceIdeal.RefRun.run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact (Cert.Bridge.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
